-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S4x2048x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S1024x1024 : Shape := ⟨2, ![1024, 1024]⟩
abbrev S3072x1024 : Shape := ⟨2, ![3072, 1024]⟩
abbrev S1024x3072 : Shape := ⟨2, ![1024, 3072]⟩
abbrev S8192x1024 : Shape := ⟨2, ![8192, 1024]⟩
abbrev S8192x3072 : Shape := ⟨2, ![8192, 3072]⟩
abbrev S4x2048x3x16x64 : Shape := ⟨5, ![4, 2048, 3, 16, 64]⟩
abbrev S3x4x16x2048x64 : Shape := ⟨5, ![3, 4, 16, 2048, 64]⟩
abbrev S1x4x16x2048x64 : Shape := ⟨5, ![1, 4, 16, 2048, 64]⟩
abbrev S4x16x2048x64 : Shape := ⟨4, ![4, 16, 2048, 64]⟩
abbrev S64x2048x64 : Shape := ⟨3, ![64, 2048, 64]⟩
abbrev S1x1024x64 : Shape := ⟨3, ![1, 1024, 64]⟩
abbrev S1x2048x64 : Shape := ⟨3, ![1, 2048, 64]⟩
abbrev S1x1024x2048 : Shape := ⟨3, ![1, 1024, 2048]⟩
abbrev S1x1024 : Shape := ⟨2, ![1, 1024]⟩
abbrev S1x1024x1 : Shape := ⟨3, ![1, 1024, 1]⟩
abbrev S4x2048x16x64 : Shape := ⟨4, ![4, 2048, 16, 64]⟩

abbrev nBuf : Space → Nat
  | .hbm => 30
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S3072x1024, .f32⟩
  | .hbm, ⟨6, _⟩ => ⟨S3072x1024, .bf16⟩
  | .hbm, ⟨7, _⟩ => ⟨S1024x3072, .bf16⟩
  | .hbm, ⟨8, _⟩ => ⟨S1024x1024, .bf16⟩
  | .hbm, ⟨9, _⟩ => ⟨S1024x1024, .bf16⟩
  | .hbm, ⟨10, _⟩ => ⟨S8192x1024, .f32⟩
  | .hbm, ⟨11, _⟩ => ⟨S8192x1024, .bf16⟩
  | .hbm, ⟨12, _⟩ => ⟨S8192x3072, .bf16⟩
  | .hbm, ⟨13, _⟩ => ⟨S4x2048x3x16x64, .bf16⟩
  | .hbm, ⟨14, _⟩ => ⟨S3x4x16x2048x64, .bf16⟩
  | .hbm, ⟨15, _⟩ => ⟨S1x4x16x2048x64, .bf16⟩
  | .hbm, ⟨16, _⟩ => ⟨S4x16x2048x64, .bf16⟩
  | .hbm, ⟨17, _⟩ => ⟨S64x2048x64, .bf16⟩
  | .hbm, ⟨18, _⟩ => ⟨S1x4x16x2048x64, .bf16⟩
  | .hbm, ⟨19, _⟩ => ⟨S4x16x2048x64, .bf16⟩
  | .hbm, ⟨20, _⟩ => ⟨S64x2048x64, .bf16⟩
  | .hbm, ⟨21, _⟩ => ⟨S1x4x16x2048x64, .bf16⟩
  | .hbm, ⟨22, _⟩ => ⟨S4x16x2048x64, .bf16⟩
  | .hbm, ⟨23, _⟩ => ⟨S64x2048x64, .bf16⟩
  | .hbm, ⟨24, _⟩ => ⟨S64x2048x64, .bf16⟩
  | .hbm, ⟨25, _⟩ => ⟨S4x16x2048x64, .bf16⟩
  | .hbm, ⟨26, _⟩ => ⟨S4x2048x16x64, .bf16⟩
  | .hbm, ⟨27, _⟩ => ⟨S8192x1024, .bf16⟩
  | .hbm, ⟨28, _⟩ => ⟨S8192x1024, .f32⟩
  | .hbm, ⟨29, _⟩ => ⟨S4x2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1024x3072, .bf16⟩
  | .local _ .vmem, ⟨4, _⟩ => ⟨S1024x3072, .bf16⟩
  | .local _ .vmem, ⟨5, _⟩ => ⟨S1x1024x64, .bf16⟩
  | .local _ .vmem, ⟨6, _⟩ => ⟨S1x1024x64, .bf16⟩
  | .local _ .vmem, ⟨7, _⟩ => ⟨S1x2048x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x2048x64, .bf16⟩
  | .local _ .vmem, ⟨11, _⟩ => ⟨S1x1024x64, .bf16⟩
  | .local _ .vmem, ⟨12, _⟩ => ⟨S1x1024x64, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | .local _ .vmem, ⟨17, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![64, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  concatenates_S1024x1024_S1024x1024_S1024x1024_S3072x1024_d0 : Shape.Concatenates [S1024x1024, S1024x1024, S1024x1024] S3072x1024 0
  bitsLt_bf16_f32 : FTy.bits .bf16 < FTy.bits .f32
  transposes_S3072x1024_S1024x3072_1_0 : S3072x1024.Transposes [1, 0] S1024x3072
  transposes_S1024x1024_S1024x1024_1_0 : S1024x1024.Transposes [1, 0] S1024x1024
  shapeCasts_S4x2048x1024_S8192x1024 : S4x2048x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  packedbf16_S1024x3072_S1024x3072_0_0 : (Rect.unit (s := S1024x3072) ![0, 0] S1024x3072.size inb_S1024x3072_S1024x3072_0_0).PackedRows (EltTy.packing .bf16)
  shapeCasts_S8192x3072_S4x2048x3x16x64 : S8192x3072.ShapeCasts S4x2048x3x16x64
  transposes_S4x2048x3x16x64_S3x4x16x2048x64_2_0_3_1_4 : S4x2048x3x16x64.Transposes [2, 0, 3, 1, 4] S3x4x16x2048x64
  slices_S3x4x16x2048x64_S1x4x16x2048x64_0_0_0_0_0 : S3x4x16x2048x64.Slices ![0, 0, 0, 0, 0] S1x4x16x2048x64
  shapeCasts_S1x4x16x2048x64_S4x16x2048x64 : S1x4x16x2048x64.ShapeCasts S4x16x2048x64
  shapeCasts_S4x16x2048x64_S64x2048x64 : S4x16x2048x64.ShapeCasts S64x2048x64
  slices_S3x4x16x2048x64_S1x4x16x2048x64_1_0_0_0_0 : S3x4x16x2048x64.Slices ![1, 0, 0, 0, 0] S1x4x16x2048x64
  slices_S3x4x16x2048x64_S1x4x16x2048x64_2_0_0_0_0 : S3x4x16x2048x64.Slices ![2, 0, 0, 0, 0] S1x4x16x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1x1024x64 : S1x1024x64.ShapeCasts S1x1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S1x2048x64 : S1x2048x64.ShapeCasts S1x2048x64
  reduces_S1x1024x2048_S1x1024 : S1x1024x2048.Reduces [2] S1x1024
  shapeCasts_S1x1024_S1x1024x1 : S1x1024.ShapeCasts S1x1024x1
  broadcasts_S1x1024x1_S1x1024x2048 : S1x1024x1.Broadcasts S1x1024x2048
  packedbf16_S1x1024x64_S1x1024x64_0_0_0 : (Rect.unit (s := S1x1024x64) ![0, 0, 0] S1x1024x64.size inb_S1x1024x64_S1x1024x64_0_0_0).PackedRows (EltTy.packing .bf16)
  shapeCasts_S64x2048x64_S4x16x2048x64 : S64x2048x64.ShapeCasts S4x16x2048x64
  transposes_S4x16x2048x64_S4x2048x16x64_0_2_1_3 : S4x16x2048x64.Transposes [0, 2, 1, 3] S4x2048x16x64
  shapeCasts_S4x2048x16x64_S8192x1024 : S4x2048x16x64.ShapeCasts S8192x1024
  shapeCasts_S8192x1024_S4x2048x1024 : S8192x1024.ShapeCasts S4x2048x1024
  dot_S1024x1024_S1024x3072_S1024x3072_1_0_0_1_n_n_wf : DotDims.WF S1024x1024 S1024x3072 S1024x3072 [1] [0] [0] [1] [] []
  dot_S1x1024x64_S1x2048x64_S1x1024x2048_2_2_1_1_0_0_wf : DotDims.WF S1x1024x64 S1x2048x64 S1x1024x2048 [2] [2] [1] [1] [0] [0]
  dot_S1x1024x2048_S1x2048x64_S1x1024x64_2_1_1_2_0_0_wf : DotDims.WF S1x1024x2048 S1x2048x64 S1x1024x64 [2] [1] [1] [2] [0] [0]
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S8192x3072.size a
  hwx0_2 : ∀ i : grid0.Coords, EltTy.bits .bf16 = 32 ∨ (Rect.block (s := S8192x3072) S1024x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S64x2048x64.size a
  hwx1_0 : ∀ i : grid1.Coords, EltTy.bits .bf16 = 32 ∨ (Rect.block (s := S64x2048x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S64x2048x64.size a
  hwx1_1 : ∀ i : grid1.Coords, EltTy.bits .bf16 = 32 ∨ (Rect.block (s := S64x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S64x2048x64.size a
  hwx1_2 : ∀ i : grid1.Coords, EltTy.bits .bf16 = 32 ∨ (Rect.block (s := S64x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S64x2048x64.size a
  hwx1_3 : ∀ i : grid1.Coords, EltTy.bits .bf16 = 32 ∨ (Rect.block (s := S64x2048x64) S1x1024x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x1024.size a
  hwx2_2 : ∀ i : grid2.Coords, EltTy.bits .f32 = 32 ∨ (Rect.block (s := S8192x1024) S1024x1024.size (cc2_transform_2 i) (hinb2_2 i)).WholeWords (EltTy.packing .f32)

variable [Facts₀]

def dot_S1024x1024_S1024x3072_S1024x3072_1_0_0_1_n_n : DotDims S1024x1024 S1024x3072 S1024x3072 where
  lhsContracting := [1]
  rhsContracting := [0]
  lhsNonContracting := [0]
  rhsNonContracting := [1]
  lhsBatch := []
  rhsBatch := []
  wf := dot_S1024x1024_S1024x3072_S1024x3072_1_0_0_1_n_n_wf
def dot_S1x1024x64_S1x2048x64_S1x1024x2048_2_2_1_1_0_0 : DotDims S1x1024x64 S1x2048x64 S1x1024x2048 where
  lhsContracting := [2]
  rhsContracting := [2]
  lhsNonContracting := [1]
  rhsNonContracting := [1]
  lhsBatch := [0]
  rhsBatch := [0]
  wf := dot_S1x1024x64_S1x2048x64_S1x1024x2048_2_2_1_1_0_0_wf
def dot_S1x1024x2048_S1x2048x64_S1x1024x64_2_1_1_2_0_0 : DotDims S1x1024x2048 S1x2048x64 S1x1024x64 where
  lhsContracting := [2]
  rhsContracting := [1]
  lhsNonContracting := [1]
  rhsNonContracting := [2]
  lhsBatch := [0]
  rhsBatch := [0]
  wf := dot_S1x1024x2048_S1x2048x64_S1x1024x64_2_1_1_2_0_0_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v6) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v22) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v23) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x16x64, .f32⟩
  | .hbm, ⟨9, _⟩ => ⟨S4x16x2048x64, .f32⟩
  | .hbm, ⟨10, _⟩ => ⟨S4x2048x16x64, .f32⟩
  | .hbm, ⟨11, _⟩ => ⟨S4x16x2048x64, .f32⟩
  | .hbm, ⟨12, _⟩ => ⟨S4x2048x16x64, .f32⟩
  | .hbm, ⟨13, _⟩ => ⟨S4x16x2048x64, .f32⟩
  | .hbm, ⟨14, _⟩ => ⟨S4x16x2048x2048, .f32⟩
  | .hbm, ⟨15, _⟩ => ⟨S_, .f32⟩
  | .hbm, ⟨16, _⟩ => ⟨S_, .f32⟩
  | .hbm, ⟨17, _⟩ => ⟨S4x16x2048x2048, .f32⟩
  | .hbm, ⟨18, _⟩ => ⟨S4x16x2048x2048, .f32⟩
  | .hbm, ⟨19, _⟩ => ⟨S_, .f32⟩
  | .hbm, ⟨20, _⟩ => ⟨S4x16x2048, .f32⟩
  | .hbm, ⟨21, _⟩ => ⟨S_, .f32⟩
  | .hbm, ⟨22, _⟩ => ⟨S4x16x2048, .f32⟩
  | .hbm, ⟨23, _⟩ => ⟨S4x16x2048, .f32⟩
  | .hbm, ⟨24, _⟩ => ⟨S4x16x2048x1, .f32⟩
  | .hbm, ⟨25, _⟩ => ⟨S4x16x2048x2048, .f32⟩
  | .hbm, ⟨26, _⟩ => ⟨S4x16x2048x2048, .f32⟩
  | .hbm, ⟨27, _⟩ => ⟨S4x16x2048x2048, .f32⟩
  | .hbm, ⟨28, _⟩ => ⟨S_, .f32⟩
  | .hbm, ⟨29, _⟩ => ⟨S4x16x2048, .f32⟩
  | .hbm, ⟨30, _⟩ => ⟨S4x16x2048x1, .f32⟩
  | .hbm, ⟨31, _⟩ => ⟨S4x16x2048x2048, .f32⟩
  | .hbm, ⟨32, _⟩ => ⟨S4x16x2048x2048, .f32⟩
  | .hbm, ⟨33, _⟩ => ⟨S4x16x2048x64, .f32⟩
  | .hbm, ⟨34, _⟩ => ⟨S4x2048x16x64, .f32⟩
  | .hbm, ⟨35, _⟩ => ⟨S4x2048x1024, .f32⟩
  | .hbm, ⟨36, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.KI.Body0.lean ====
/-
  Pallas call 0 of the kernel program, as one pipelined region: at every grid point the body reads its input blocks whole,
  computes a block of 1024 rows of the activations times the whole fused weight matrix, and overwrites its whole output block. Stated at ANY contents
  `V` of the TensorCore's arrays at the region's entry and at any float instance: what each window's block is, what the body
  leaves in the output block as a function of the input blocks, the body's Hoare triple, and the obligation the pipeline asks of
  the body at every point.
-/
import proofs.«102749_j60086592471644_1_alg».proof.Proof.Gen.KernelIdeal.Launch
import proofs.«102749_j60086592471644_1_alg».proof.Proof.Gen.KernelIdeal.Skeleton
import proofs.«102749_j60086592471644_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the window's rectangle of its array, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the array at every grid point, whether the
    pipeline fetched it there or not: where it did not, the block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the array at every grid point, whether the
    pipeline fetched it there or not: where it did not, the block index has not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles through which the body loads and stores. -/
abbrev r0_0 : Rect S1024x1024 := Rect.unit (s := S1024x1024) ![0, 0] S1024x1024.size inb_S1024x1024_S1024x1024_0_0
abbrev r0_1 : Rect S1024x3072 := Rect.unit (s := S1024x3072) ![0, 0] S1024x3072.size inb_S1024x3072_S1024x3072_0_0
abbrev r0_2 : Rect S1024x3072 := Rect.unit (s := S1024x3072) ![0, 0] S1024x3072.size inb_S1024x3072_S1024x3072_0_0

/-- The output block after the body, as a function of the input blocks: the one store's value, laid over the whole block. -/
def out0_2 (x0 : Vec F S1024x1024 .bf16) (x1 : Vec F S1024x3072 .bf16) : Vec F S1024x3072 .bf16 :=
  View.canon [⟨r0_2, k0_pay1 (View.ld x0 r0_0) (View.ld x1 r0_1)⟩]

/-- The one store's rectangle is the whole block, so every index of the block is written. -/
theorem cover0_2 (p0 : Vec F S1024x3072 .bf16) (y : S1024x3072.Idx) :
    ∃ pc ∈ ([⟨r0_2, p0⟩] : List (View.Piece (Elt F) S1024x3072 .bf16)), y ∈ pc.1.set :=
  View.cover_of_tiled [⟨r0_2, p0⟩] S1024x3072.size (by rfl) y

set_option maxHeartbeats 1000000 in
/-- The body's triple: run on whole staging buffers, the inputs' holding `x_j` and the output's holding anything, it ends
    with the inputs' unchanged and the output's holding `out0_2` of the inputs. -/
theorem sound_kernel0 (c : Dev nD) (E : Set ℕ) (i : grid0.Coords) (arg1 : Memref sig .tc .vmem S1024x1024 .bf16) (harg1 : arg1.IsWhole) (arg2 : Memref sig .tc .vmem S1024x3072 .bf16) (harg2 : arg2.IsWhole) (arg3 : Memref sig .tc .vmem S1024x3072 .bf16) (harg3 : arg3.IsWhole)
    (x0 : Vec F S1024x1024 .bf16) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` every input's
    buffer still holds its block and the output's holds `out0_2` of the input blocks; nothing else is touched or owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is handed at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any grid point: the inputs' buffers hold their blocks, so the triple applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  Pallas call 1 of the kernel program, as one pipelined region: at every grid point the body reads its input blocks whole,
  computes softmax attention of 1024 query rows of one head against that head's 2048 keys and values, and overwrites its whole output block. Stated at ANY contents
  `V` of the TensorCore's arrays at the region's entry and at any float instance: what each window's block is, what the body
  leaves in the output block as a function of the input blocks, the body's Hoare triple, and the obligation the pipeline asks of
  the body at every point.
-/
import proofs.«102749_j60086592471644_1_alg».proof.Proof.Gen.KernelIdeal.Launch
import proofs.«102749_j60086592471644_1_alg».proof.Proof.Gen.KernelIdeal.Skeleton
import proofs.«102749_j60086592471644_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the window's rectangle of its array, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the array at every grid point, whether the
    pipeline fetched it there or not: where it did not, the block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block of the array at every grid point, whether the
    pipeline fetched it there or not: where it did not, the block index has not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block of the array at every grid point, whether the
    pipeline fetched it there or not: where it did not, the block index has not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles through which the body loads and stores. -/
abbrev r1_0 : Rect S1x1024x64 := Rect.unit (s := S1x1024x64) ![0, 0, 0] S1x1024x64.size inb_S1x1024x64_S1x1024x64_0_0_0
abbrev r1_1 : Rect S1x2048x64 := Rect.unit (s := S1x2048x64) ![0, 0, 0] S1x2048x64.size inb_S1x2048x64_S1x2048x64_0_0_0
abbrev r1_2 : Rect S1x2048x64 := Rect.unit (s := S1x2048x64) ![0, 0, 0] S1x2048x64.size inb_S1x2048x64_S1x2048x64_0_0_0
abbrev r1_3 : Rect S1x1024x64 := Rect.unit (s := S1x1024x64) ![0, 0, 0] S1x1024x64.size inb_S1x1024x64_S1x1024x64_0_0_0

/-- The output block after the body, as a function of the input blocks: the one store's value, laid over the whole block. -/
def out1_3 (x0 : Vec F S1x1024x64 .bf16) (x1 : Vec F S1x2048x64 .bf16) (x2 : Vec F S1x2048x64 .bf16) : Vec F S1x1024x64 .bf16 :=
  View.canon [⟨r1_3, k1_pay1 (View.ld x0 r1_0) (View.ld x1 r1_1) (View.ld x2 r1_2)⟩]

/-- The one store's rectangle is the whole block, so every index of the block is written. -/
theorem cover1_3 (p0 : Vec F S1x1024x64 .bf16) (y : S1x1024x64.Idx) :
    ∃ pc ∈ ([⟨r1_3, p0⟩] : List (View.Piece (Elt F) S1x1024x64 .bf16)), y ∈ pc.1.set :=
  View.cover_of_tiled [⟨r1_3, p0⟩] S1x1024x64.size (by rfl) y

set_option maxHeartbeats 1000000 in
/-- The body's triple: run on whole staging buffers, the inputs' holding `x_j` and the output's holding anything, it ends
    with the inputs' unchanged and the output's holding `out1_3` of the inputs. -/
theorem sound_kernel1 (c : Dev nD) (E : Set ℕ) (i : grid1.Coords) (arg2 : Memref sig .tc .vmem S1x1024x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S1x1024x64 .bf16) (harg5 : arg5.IsWhole)
    (x0 : Vec F S1x1024x64 .bf16) (x1 : Vec F S1x2048x64 .bf16) (x2 : Vec F S1x2048x64 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` every input's
    buffer still holds its block and the output's holds `out1_3` of the input blocks; nothing else is touched or owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is handed at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any grid point: the inputs' buffers hold their blocks, so the triple applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/-
  Pallas call 2 of the kernel program, as one pipelined region: at every grid point the body reads its input blocks whole,
  computes a block of 1024 rows of the merged heads times the whole output weight matrix, and overwrites its whole output block. Stated at ANY contents
  `V` of the TensorCore's arrays at the region's entry and at any float instance: what each window's block is, what the body
  leaves in the output block as a function of the input blocks, the body's Hoare triple, and the obligation the pipeline asks of
  the body at every point.
-/
import proofs.«102749_j60086592471644_1_alg».proof.Proof.Gen.KernelIdeal.Launch
import proofs.«102749_j60086592471644_1_alg».proof.Proof.Gen.KernelIdeal.Skeleton
import proofs.«102749_j60086592471644_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the window's rectangle of its array, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block of the array at every grid point, whether the
    pipeline fetched it there or not: where it did not, the block index has not moved since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block of the array at every grid point, whether the
    pipeline fetched it there or not: where it did not, the block index has not moved since the last fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles through which the body loads and stores. -/
abbrev r2_0 : Rect S1024x1024 := Rect.unit (s := S1024x1024) ![0, 0] S1024x1024.size inb_S1024x1024_S1024x1024_0_0
abbrev r2_1 : Rect S1024x1024 := Rect.unit (s := S1024x1024) ![0, 0] S1024x1024.size inb_S1024x1024_S1024x1024_0_0
abbrev r2_2 : Rect S1024x1024 := Rect.unit (s := S1024x1024) ![0, 0] S1024x1024.size inb_S1024x1024_S1024x1024_0_0

/-- The output block after the body, as a function of the input blocks: the one store's value, laid over the whole block. -/
def out2_2 (x0 : Vec F S1024x1024 .bf16) (x1 : Vec F S1024x1024 .bf16) : Vec F S1024x1024 .f32 :=
  View.canon [⟨r2_2, k2_pay1 (View.ld x0 r2_0) (View.ld x1 r2_1)⟩]

/-- The one store's rectangle is the whole block, so every index of the block is written. -/
theorem cover2_2 (p0 : Vec F S1024x1024 .f32) (y : S1024x1024.Idx) :
    ∃ pc ∈ ([⟨r2_2, p0⟩] : List (View.Piece (Elt F) S1024x1024 .f32)), y ∈ pc.1.set :=
  View.cover_of_tiled [⟨r2_2, p0⟩] S1024x1024.size (by rfl) y

set_option maxHeartbeats 1000000 in
/-- The body's triple: run on whole staging buffers, the inputs' holding `x_j` and the output's holding anything, it ends
    with the inputs' unchanged and the output's holding `out2_2` of the inputs. -/
theorem sound_kernel2 (c : Dev nD) (E : Set ℕ) (i : grid2.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole)
    (x0 : Vec F S1024x1024 .bf16) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__mm_kernel i arg1 harg1 arg2 harg2 arg3 harg3) K := by
  simp only [cc2__mm_kernel_eq_skeleton]; unfold cc2__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the region finds them; after the body at point `t` every input's
    buffer still holds its block and the output's holds `out2_2` of the input blocks; nothing else is touched or owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is handed at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any grid point: the inputs' buffers hold their blocks, so the triple applies; the rest passes through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The whole run of the kernel program's @main at any float instance: seven items in order — host lines, Pallas call 0 (the fused
  projection), host lines, Pallas call 1 (attention), host lines, Pallas call 2 (the output projection), one host line. The
  contents of every unscoped buffer are followed from the launch memory through the items (`Mem0` … `Mem7`): a stretch of host
  lines applies its operations, a call leaves its output array at what its write-backs left and touches nothing else. Every
  weakly fair execution terminates without a fault, and at the end every unscoped buffer holds `Mem7`; the arguments are among
  the buffers nothing writes.
-/
import proofs.«102749_j60086592471644_1_alg».proof.Proof.KI.Body0
import proofs.«102749_j60086592471644_1_alg».proof.Proof.KI.Body1
import proofs.«102749_j60086592471644_1_alg».proof.Proof.KI.Body2
import proofs.«102749_j60086592471644_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev Mem0 : Dev nD → Valuation τ sig (Elt F) := fun c b => m (c, b)
/-- After the first host lines (the weights concatenated, rounded and transposed; the activations flattened and rounded). -/
abbrev Mem1 : Dev nD → Valuation τ sig (Elt F) := fun c => StableHlo.after hostOps0 (Mem0 m c)
abbrev At1 : (c : Dev nD) → (b : Ref sig .tc) → Buf (Elt F) ((c : Thread nD τ).loc b) := fun c b => Mem1 m c b

/-- After Pallas call 0: its arrays at what the pipeline leaves (an input as entered, the output at the write-backs of every grid
    point), every other buffer as entered. -/
def Mem2 (c : Dev nD) : Valuation τ sig (Elt F) :=
  Pipeline.withArrays spec0 c (Mem1 m c) fun w => (dat0 (At1 m) c).arrAt w cfg0.N
theorem Mem2_arr (c : Dev nD) (w : Fin cfg0.W) :
    Mem2 m c (Proc.devRef .tc (Pipeline.arrRef spec0 w)) = (dat0 (At1 m) c).arrAt w cfg0.N := by
  unfold Mem2; exact Pipeline.withArrays_arr spec0 launch0.win.arr_inj c _ _ w
theorem Mem2_of_ne (c : Dev nD) (b : Ref sig .tc) (hb : ∀ w, Pipeline.arrRef spec0 w ≠ b) :
    Mem2 m c (Proc.devRef .tc b) = Mem1 m c (Proc.devRef .tc b) := by
  unfold Mem2; exact Pipeline.withArrays_of_ne spec0 c _ _ b hb
abbrev At2 : (c : Dev nD) → (b : Ref sig .tc) → Buf (Elt F) ((c : Thread nD τ).loc b) := fun c b => Mem2 m c b
theorem hF0 (c : Dev nD) (w : Fin cfg0.W) : (dat0 (At1 m) c).arrAt w cfg0.N = At2 m c (Pipeline.arrRef spec0 w) :=
  (Mem2_arr m c w).symm
theorem hrest0 (c : Dev nD) : ∀ b, b ∉ Finset.univ.image (Pipeline.arrRef spec0) → At2 m c b = At1 m c b :=
  fun b hb => Mem2_of_ne m c b fun w e => hb (Finset.mem_image.mpr ⟨w, Finset.mem_univ _, e⟩)

/-- After the host lines that split the fused projection into per-head queries, keys and values. -/
abbrev Mem3 : Dev nD → Valuation τ sig (Elt F) := fun c => StableHlo.after hostOps1 (Mem2 m c)
abbrev At3 : (c : Dev nD) → (b : Ref sig .tc) → Buf (Elt F) ((c : Thread nD τ).loc b) := fun c b => Mem3 m c b

/-- After Pallas call 1: its arrays at what the pipeline leaves (an input as entered, the output at the write-backs of every grid
    point), every other buffer as entered. -/
def Mem4 (c : Dev nD) : Valuation τ sig (Elt F) :=
  Pipeline.withArrays spec1 c (Mem3 m c) fun w => (dat1 (At3 m) c).arrAt w cfg1.N
theorem Mem4_arr (c : Dev nD) (w : Fin cfg1.W) :
    Mem4 m c (Proc.devRef .tc (Pipeline.arrRef spec1 w)) = (dat1 (At3 m) c).arrAt w cfg1.N := by
  unfold Mem4; exact Pipeline.withArrays_arr spec1 launch1.win.arr_inj c _ _ w
theorem Mem4_of_ne (c : Dev nD) (b : Ref sig .tc) (hb : ∀ w, Pipeline.arrRef spec1 w ≠ b) :
    Mem4 m c (Proc.devRef .tc b) = Mem3 m c (Proc.devRef .tc b) := by
  unfold Mem4; exact Pipeline.withArrays_of_ne spec1 c _ _ b hb
abbrev At4 : (c : Dev nD) → (b : Ref sig .tc) → Buf (Elt F) ((c : Thread nD τ).loc b) := fun c b => Mem4 m c b
theorem hF1 (c : Dev nD) (w : Fin cfg1.W) : (dat1 (At3 m) c).arrAt w cfg1.N = At4 m c (Pipeline.arrRef spec1 w) :=
  (Mem4_arr m c w).symm
theorem hrest1 (c : Dev nD) : ∀ b, b ∉ Finset.univ.image (Pipeline.arrRef spec1) → At4 m c b = At3 m c b :=
  fun b hb => Mem4_of_ne m c b fun w e => hb (Finset.mem_image.mpr ⟨w, Finset.mem_univ _, e⟩)

/-- After the host lines that merge the heads back into rows. -/
abbrev Mem5 : Dev nD → Valuation τ sig (Elt F) := fun c => StableHlo.after hostOps2 (Mem4 m c)
abbrev At5 : (c : Dev nD) → (b : Ref sig .tc) → Buf (Elt F) ((c : Thread nD τ).loc b) := fun c b => Mem5 m c b

/-- After Pallas call 2: its arrays at what the pipeline leaves (an input as entered, the output at the write-backs of every grid
    point), every other buffer as entered. -/
def Mem6 (c : Dev nD) : Valuation τ sig (Elt F) :=
  Pipeline.withArrays spec2 c (Mem5 m c) fun w => (dat2 (At5 m) c).arrAt w cfg2.N
theorem Mem6_arr (c : Dev nD) (w : Fin cfg2.W) :
    Mem6 m c (Proc.devRef .tc (Pipeline.arrRef spec2 w)) = (dat2 (At5 m) c).arrAt w cfg2.N := by
  unfold Mem6; exact Pipeline.withArrays_arr spec2 launch2.win.arr_inj c _ _ w
theorem Mem6_of_ne (c : Dev nD) (b : Ref sig .tc) (hb : ∀ w, Pipeline.arrRef spec2 w ≠ b) :
    Mem6 m c (Proc.devRef .tc b) = Mem5 m c (Proc.devRef .tc b) := by
  unfold Mem6; exact Pipeline.withArrays_of_ne spec2 c _ _ b hb
abbrev At6 : (c : Dev nD) → (b : Ref sig .tc) → Buf (Elt F) ((c : Thread nD τ).loc b) := fun c b => Mem6 m c b
theorem hF2 (c : Dev nD) (w : Fin cfg2.W) : (dat2 (At5 m) c).arrAt w cfg2.N = At6 m c (Pipeline.arrRef spec2 w) :=
  (Mem6_arr m c w).symm
theorem hrest2 (c : Dev nD) : ∀ b, b ∉ Finset.univ.image (Pipeline.arrRef spec2) → At6 m c b = At5 m c b :=
  fun b hb => Mem6_of_ne m c b fun w e => hb (Finset.mem_image.mpr ⟨w, Finset.mem_univ _, e⟩)

/-- After the last host line (the result reshaped to batch × sequence × model). -/
abbrev Mem7 : Dev nD → Valuation τ sig (Elt F) := fun c => StableHlo.after hostOps3 (Mem6 m c)

/-! ## The arguments end as launched -/

/-- Argument 0 ends as launched: no host line writes it and it is no array of any of the three calls. -/
theorem Mem7_main_arg0 (c : Dev nD) : Mem7 m c (Proc.devRef .tc main_arg0) = m ((c : Thread nD τ).loc main_arg0) :=
  calc Mem7 m c (Proc.devRef .tc main_arg0)
    _ = Mem6 m c (Proc.devRef .tc main_arg0) := StableHlo.after_of_writes_sub hostOps3 _ hostOps3_writes (by decide)
    _ = Mem5 m c (Proc.devRef .tc main_arg0) := Mem6_of_ne m c main_arg0 (by decide)
    _ = Mem4 m c (Proc.devRef .tc main_arg0) := StableHlo.after_of_writes_sub hostOps2 _ hostOps2_writes (by decide)
    _ = Mem3 m c (Proc.devRef .tc main_arg0) := Mem4_of_ne m c main_arg0 (by decide)
    _ = Mem2 m c (Proc.devRef .tc main_arg0) := StableHlo.after_of_writes_sub hostOps1 _ hostOps1_writes (by decide)
    _ = Mem1 m c (Proc.devRef .tc main_arg0) := Mem2_of_ne m c main_arg0 (by decide)
    _ = Mem0 m c (Proc.devRef .tc main_arg0) := StableHlo.after_of_writes_sub hostOps0 _ hostOps0_writes (by decide)
    _ = m ((c : Thread nD τ).loc main_arg0) := rfl

/-- Argument 1 ends as launched: no host line writes it and it is no array of any of the three calls. -/
theorem Mem7_main_arg1 (c : Dev nD) : Mem7 m c (Proc.devRef .tc main_arg1) = m ((c : Thread nD τ).loc main_arg1) :=
  calc Mem7 m c (Proc.devRef .tc main_arg1)
    _ = Mem6 m c (Proc.devRef .tc main_arg1) := StableHlo.after_of_writes_sub hostOps3 _ hostOps3_writes (by decide)
    _ = Mem5 m c (Proc.devRef .tc main_arg1) := Mem6_of_ne m c main_arg1 (by decide)
    _ = Mem4 m c (Proc.devRef .tc main_arg1) := StableHlo.after_of_writes_sub hostOps2 _ hostOps2_writes (by decide)
    _ = Mem3 m c (Proc.devRef .tc main_arg1) := Mem4_of_ne m c main_arg1 (by decide)
    _ = Mem2 m c (Proc.devRef .tc main_arg1) := StableHlo.after_of_writes_sub hostOps1 _ hostOps1_writes (by decide)
    _ = Mem1 m c (Proc.devRef .tc main_arg1) := Mem2_of_ne m c main_arg1 (by decide)
    _ = Mem0 m c (Proc.devRef .tc main_arg1) := StableHlo.after_of_writes_sub hostOps0 _ hostOps0_writes (by decide)
    _ = m ((c : Thread nD τ).loc main_arg1) := rfl

/-- Argument 2 ends as launched: no host line writes it and it is no array of any of the three calls. -/
theorem Mem7_main_arg2 (c : Dev nD) : Mem7 m c (Proc.devRef .tc main_arg2) = m ((c : Thread nD τ).loc main_arg2) :=
  calc Mem7 m c (Proc.devRef .tc main_arg2)
    _ = Mem6 m c (Proc.devRef .tc main_arg2) := StableHlo.after_of_writes_sub hostOps3 _ hostOps3_writes (by decide)
    _ = Mem5 m c (Proc.devRef .tc main_arg2) := Mem6_of_ne m c main_arg2 (by decide)
    _ = Mem4 m c (Proc.devRef .tc main_arg2) := StableHlo.after_of_writes_sub hostOps2 _ hostOps2_writes (by decide)
    _ = Mem3 m c (Proc.devRef .tc main_arg2) := Mem4_of_ne m c main_arg2 (by decide)
    _ = Mem2 m c (Proc.devRef .tc main_arg2) := StableHlo.after_of_writes_sub hostOps1 _ hostOps1_writes (by decide)
    _ = Mem1 m c (Proc.devRef .tc main_arg2) := Mem2_of_ne m c main_arg2 (by decide)
    _ = Mem0 m c (Proc.devRef .tc main_arg2) := StableHlo.after_of_writes_sub hostOps0 _ hostOps0_writes (by decide)
    _ = m ((c : Thread nD τ).loc main_arg2) := rfl

/-- Argument 3 ends as launched: no host line writes it and it is no array of any of the three calls. -/
theorem Mem7_main_arg3 (c : Dev nD) : Mem7 m c (Proc.devRef .tc main_arg3) = m ((c : Thread nD τ).loc main_arg3) :=
  calc Mem7 m c (Proc.devRef .tc main_arg3)
    _ = Mem6 m c (Proc.devRef .tc main_arg3) := StableHlo.after_of_writes_sub hostOps3 _ hostOps3_writes (by decide)
    _ = Mem5 m c (Proc.devRef .tc main_arg3) := Mem6_of_ne m c main_arg3 (by decide)
    _ = Mem4 m c (Proc.devRef .tc main_arg3) := StableHlo.after_of_writes_sub hostOps2 _ hostOps2_writes (by decide)
    _ = Mem3 m c (Proc.devRef .tc main_arg3) := Mem4_of_ne m c main_arg3 (by decide)
    _ = Mem2 m c (Proc.devRef .tc main_arg3) := StableHlo.after_of_writes_sub hostOps1 _ hostOps1_writes (by decide)
    _ = Mem1 m c (Proc.devRef .tc main_arg3) := Mem2_of_ne m c main_arg3 (by decide)
    _ = Mem0 m c (Proc.devRef .tc main_arg3) := StableHlo.after_of_writes_sub hostOps0 _ hostOps0_writes (by decide)
    _ = m ((c : Thread nD τ).loc main_arg3) := rfl

/-- Argument 4 ends as launched: no host line writes it and it is no array of any of the three calls. -/
theorem Mem7_main_arg4 (c : Dev nD) : Mem7 m c (Proc.devRef .tc main_arg4) = m ((c : Thread nD τ).loc main_arg4) :=
  calc Mem7 m c (Proc.devRef .tc main_arg4)
    _ = Mem6 m c (Proc.devRef .tc main_arg4) := StableHlo.after_of_writes_sub hostOps3 _ hostOps3_writes (by decide)
    _ = Mem5 m c (Proc.devRef .tc main_arg4) := Mem6_of_ne m c main_arg4 (by decide)
    _ = Mem4 m c (Proc.devRef .tc main_arg4) := StableHlo.after_of_writes_sub hostOps2 _ hostOps2_writes (by decide)
    _ = Mem3 m c (Proc.devRef .tc main_arg4) := Mem4_of_ne m c main_arg4 (by decide)
    _ = Mem2 m c (Proc.devRef .tc main_arg4) := StableHlo.after_of_writes_sub hostOps1 _ hostOps1_writes (by decide)
    _ = Mem1 m c (Proc.devRef .tc main_arg4) := Mem2_of_ne m c main_arg4 (by decide)
    _ = Mem0 m c (Proc.devRef .tc main_arg4) := StableHlo.after_of_writes_sub hostOps0 _ hostOps0_writes (by decide)
    _ = m ((c : Thread nD τ).loc main_arg4) := rfl

/-! ## The proof data family and what rides beside the buffers -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (At1 m) c
  | ⟨1, _⟩ => fun c => dat1 (At3 m) c
  | ⟨2, _⟩ => fun c => dat2 (At5 m) c
abbrev 𝒱₀ : Variants := Variants.none
abbrev L : GSem nD τ sig → Finset Unit := fun _ => ∅
abbrev lv : GSem nD τ sig → Unit → ℕ := fun _ _ => 0
/-- Beside the buffers, through every item: the core's generator register at some state, and the core owing nothing. -/
abbrev R (c : Dev nD) : sProp 𝕄 := iprop((∃ r, prngReg c r) ∗ ∃ W, owes (c : Thread nD τ) (0 : CellTallies nD τ sig Unit) W)
/-- A stretch of host lines as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the `owes`: every unscoped buffer at `Mem7`, the generator register at some state. -/
abbrev Tₙ (c : Dev nD) : sProp 𝕄 := iprop(StableHlo.held (c : Thread nD τ) (Pipeline.ucRefs τ sig) (Mem7 m c) ∗ ∃ r, prngReg c r)

/-! ## The three calls as segments -/

set_option backward.isDefEq.respectTransparency.types false in
/-- Pallas call 0 as a segment of @main: entered with every unscoped buffer at `Mem1`, left with them at `Mem2`. At entry
    the region's arrays are split out of the unscoped buffers and at exit put back at what the write-backs left; the generator
    register goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (At1 m) c).loose
  hwaits := Pipeline.hwaits_of_owed_zero _ _ _ _ L lv 0 fun _ _ => rfl
  pre c := iprop(StableHlo.held (c : Thread nD τ) (Pipeline.ucRefs τ sig) (Mem1 m c) ∗ R c)
  post c := iprop(StableHlo.held (c : Thread nD τ) (Pipeline.ucRefs τ sig) (Mem2 m c) ∗ R c)
  X c := iprop(∃ r, prngReg c r)
  Y c := iprop(∃ r, prngReg c r)
  Z c := Pipeline.unscopedRest (Ix := Unit) (Name := ℕ) (U := UR sig nD τ) (Lvl := ℕ) spec0 c (At1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (At1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (At1 m c) (At2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment of @main: entered with every unscoped buffer at `Mem3`, left with them at `Mem4`. At entry
    the region's arrays are split out of the unscoped buffers and at exit put back at what the write-backs left; the generator
    register goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (At3 m) c).loose
  hwaits := Pipeline.hwaits_of_owed_zero _ _ _ _ L lv 1 fun _ _ => rfl
  pre c := iprop(StableHlo.held (c : Thread nD τ) (Pipeline.ucRefs τ sig) (Mem3 m c) ∗ R c)
  post c := iprop(StableHlo.held (c : Thread nD τ) (Pipeline.ucRefs τ sig) (Mem4 m c) ∗ R c)
  X c := iprop(∃ r, prngReg c r)
  Y c := iprop(∃ r, prngReg c r)
  Z c := Pipeline.unscopedRest (Ix := Unit) (Name := ℕ) (U := UR sig nD τ) (Lvl := ℕ) spec1 c (At3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (At3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (At3 m c) (At4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 as a segment of @main: entered with every unscoped buffer at `Mem5`, left with them at `Mem6`. At entry
    the region's arrays are split out of the unscoped buffers and at exit put back at what the write-backs left; the generator
    register goes into the region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (At5 m) c).loose
  hwaits := Pipeline.hwaits_of_owed_zero _ _ _ _ L lv 2 fun _ _ => rfl
  pre c := iprop(StableHlo.held (c : Thread nD τ) (Pipeline.ucRefs τ sig) (Mem5 m c) ∗ R c)
  post c := iprop(StableHlo.held (c : Thread nD τ) (Pipeline.ucRefs τ sig) (Mem6 m c) ∗ R c)
  X c := iprop(∃ r, prngReg c r)
  Y c := iprop(∃ r, prngReg c r)
  Z c := Pipeline.unscopedRest (Ix := Unit) (Name := ℕ) (U := UR sig nD τ) (Lvl := ℕ) spec2 c (At5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (At5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (At5 m c) (At6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its segments, and the run -/

abbrev segs : List (Pipeline.Seg (pcfgs (F := F)) adm (pdats m) () defs₀ 𝒱₀ L lv) :=
  [ .host (hseg hostOps0 hostOps0_sub hostOps0_fresh (Mem0 m)),
    .region (reg0 m),
    .host (hseg hostOps1 hostOps1_sub hostOps1_fresh (Mem2 m)),
    .region (reg1 m),
    .host (hseg hostOps2 hostOps2_sub hostOps2_fresh (Mem4 m)),
    .region (reg2 m),
    .host (hseg hostOps3 hostOps3_sub hostOps3_fresh (Mem6 m)) ]

theorem main_run (c : Dev nD) : main (F := F) c = Pipeline.Seg.run (segs m) := (main_chain c).trans (by chain_rfl)

set_option backward.isDefEq.respectTransparency.types false in
/-- THE RUN. From any memory with zero counters, every weakly fair execution of @main terminates, nothing faulting, and in every
    final state each unscoped buffer of each core holds `Mem7`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Mem7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Mem0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (Mem7 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Mem0 m c)
        from Pipeline.unscopedBufs_held c (Mem0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Mem7 m c b)
    (hfin := fun c s' => by
      iintro ⟨⟨Hh, -⟩, HSI⟩
      unfold StableHlo.held
      imodintro
      iapply (pointsTo_read_all (Pipeline.ucRefs τ sig) (fun b => (((c : Thread nD τ)).1, b)) (Mem7 m c) s')
      isplitl [Hh] <;> iassumption)
    (hQ := fun s h => h)

/-- The frame: every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (Mem7_main_arg0 m c),
     (h c _ (mem_uc main_arg1 (by decide))).trans (Mem7_main_arg1 m c),
     (h c _ (mem_uc main_arg2 (by decide))).trans (Mem7_main_arg2 m c),
     (h c _ (mem_uc main_arg3 (by decide))).trans (Mem7_main_arg3 m c),
     (h c _ (mem_uc main_arg4 (by decide))).trans (Mem7_main_arg4 m c)⟩) (run_all m ρ)

end Cert.KernelIdeal.Hand

end
-- ==== Proof.KB.Body0.lean ====
/-
  Pallas call 0 of the kernel program, as one pipelined region: at every grid point the body reads its input blocks whole,
  computes a block of 1024 rows of the activations times the whole fused weight matrix, and overwrites its whole output block. Stated at ANY contents
  `V` of the TensorCore's arrays at the region's entry and at any float instance: what each window's block is, what the body
  leaves in the output block as a function of the input blocks, the body's Hoare triple, and the obligation the pipeline asks of
  the body at every point.
-/
import proofs.«102749_j60086592471644_1_alg».proof.Proof.Gen.Kernel.Launch
import proofs.«102749_j60086592471644_1_alg».proof.Proof.Gen.Kernel.Skeleton
import proofs.«102749_j60086592471644_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the window's rectangle of its array, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the array at every grid point, whether the
    pipeline fetched it there or not: where it did not, the block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the array at every grid point, whether the
    pipeline fetched it there or not: where it did not, the block index has not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles through which the body loads and stores. -/
abbrev r0_0 : Rect S1024x1024 := Rect.unit (s := S1024x1024) ![0, 0] S1024x1024.size inb_S1024x1024_S1024x1024_0_0
abbrev r0_1 : Rect S1024x3072 := Rect.unit (s := S1024x3072) ![0, 0] S1024x3072.size inb_S1024x3072_S1024x3072_0_0
abbrev r0_2 : Rect S1024x3072 := Rect.unit (s := S1024x3072) ![0, 0] S1024x3072.size inb_S1024x3072_S1024x3072_0_0

/-- The output block after the body, as a function of the input blocks: the one store's value, laid over the whole block. -/
def out0_2 (x0 : Vec F S1024x1024 .bf16) (x1 : Vec F S1024x3072 .bf16) : Vec F S1024x3072 .bf16 :=
  View.canon [⟨r0_2, k0_pay1 (View.ld x0 r0_0) (View.ld x1 r0_1)⟩]

/-- The one store's rectangle is the whole block, so every index of the block is written. -/
theorem cover0_2 (p0 : Vec F S1024x3072 .bf16) (y : S1024x3072.Idx) :
    ∃ pc ∈ ([⟨r0_2, p0⟩] : List (View.Piece (Elt F) S1024x3072 .bf16)), y ∈ pc.1.set :=
  View.cover_of_tiled [⟨r0_2, p0⟩] S1024x3072.size (by rfl) y

set_option maxHeartbeats 1000000 in
/-- The body's triple: run on whole staging buffers, the inputs' holding `x_j` and the output's holding anything, it ends
    with the inputs' unchanged and the output's holding `out0_2` of the inputs. -/
theorem sound_kernel0 (c : Dev nD) (E : Set ℕ) (i : grid0.Coords) (arg1 : Memref sig .tc .vmem S1024x1024 .bf16) (harg1 : arg1.IsWhole) (arg2 : Memref sig .tc .vmem S1024x3072 .bf16) (harg2 : arg2.IsWhole) (arg3 : Memref sig .tc .vmem S1024x3072 .bf16) (harg3 : arg3.IsWhole)
    (x0 : Vec F S1024x1024 .bf16) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` every input's
    buffer still holds its block and the output's holds `out0_2` of the input blocks; nothing else is touched or owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is handed at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any grid point: the inputs' buffers hold their blocks, so the triple applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Body1.lean ====
/-
  Pallas call 1 of the kernel program, as one pipelined region: at every grid point the body reads its input blocks whole,
  computes softmax attention of 1024 query rows of one head against that head's 2048 keys and values, and overwrites its whole output block. Stated at ANY contents
  `V` of the TensorCore's arrays at the region's entry and at any float instance: what each window's block is, what the body
  leaves in the output block as a function of the input blocks, the body's Hoare triple, and the obligation the pipeline asks of
  the body at every point.
-/
import proofs.«102749_j60086592471644_1_alg».proof.Proof.Gen.Kernel.Launch
import proofs.«102749_j60086592471644_1_alg».proof.Proof.Gen.Kernel.Skeleton
import proofs.«102749_j60086592471644_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the window's rectangle of its array, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the array at every grid point, whether the
    pipeline fetched it there or not: where it did not, the block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block of the array at every grid point, whether the
    pipeline fetched it there or not: where it did not, the block index has not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block of the array at every grid point, whether the
    pipeline fetched it there or not: where it did not, the block index has not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles through which the body loads and stores. -/
abbrev r1_0 : Rect S1x1024x64 := Rect.unit (s := S1x1024x64) ![0, 0, 0] S1x1024x64.size inb_S1x1024x64_S1x1024x64_0_0_0
abbrev r1_1 : Rect S1x2048x64 := Rect.unit (s := S1x2048x64) ![0, 0, 0] S1x2048x64.size inb_S1x2048x64_S1x2048x64_0_0_0
abbrev r1_2 : Rect S1x2048x64 := Rect.unit (s := S1x2048x64) ![0, 0, 0] S1x2048x64.size inb_S1x2048x64_S1x2048x64_0_0_0
abbrev r1_3 : Rect S1x1024x64 := Rect.unit (s := S1x1024x64) ![0, 0, 0] S1x1024x64.size inb_S1x1024x64_S1x1024x64_0_0_0

/-- The output block after the body, as a function of the input blocks: the one store's value, laid over the whole block. -/
def out1_3 (x0 : Vec F S1x1024x64 .bf16) (x1 : Vec F S1x2048x64 .bf16) (x2 : Vec F S1x2048x64 .bf16) : Vec F S1x1024x64 .bf16 :=
  View.canon [⟨r1_3, k1_pay1 (View.ld x0 r1_0) (View.ld x1 r1_1) (View.ld x2 r1_2)⟩]

/-- The one store's rectangle is the whole block, so every index of the block is written. -/
theorem cover1_3 (p0 : Vec F S1x1024x64 .bf16) (y : S1x1024x64.Idx) :
    ∃ pc ∈ ([⟨r1_3, p0⟩] : List (View.Piece (Elt F) S1x1024x64 .bf16)), y ∈ pc.1.set :=
  View.cover_of_tiled [⟨r1_3, p0⟩] S1x1024x64.size (by rfl) y

set_option maxHeartbeats 1000000 in
/-- The body's triple: run on whole staging buffers, the inputs' holding `x_j` and the output's holding anything, it ends
    with the inputs' unchanged and the output's holding `out1_3` of the inputs. -/
theorem sound_kernel1 (c : Dev nD) (E : Set ℕ) (i : grid1.Coords) (arg2 : Memref sig .tc .vmem S1x1024x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S1x1024x64 .bf16) (harg5 : arg5.IsWhole)
    (x0 : Vec F S1x1024x64 .bf16) (x1 : Vec F S1x2048x64 .bf16) (x2 : Vec F S1x2048x64 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` every input's
    buffer still holds its block and the output's holds `out1_3` of the input blocks; nothing else is touched or owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is handed at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any grid point: the inputs' buffers hold their blocks, so the triple applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Body2.lean ====
/-
  Pallas call 2 of the kernel program, as one pipelined region: at every grid point the body reads its input blocks whole,
  computes a block of 1024 rows of the merged heads times the whole output weight matrix, and overwrites its whole output block. Stated at ANY contents
  `V` of the TensorCore's arrays at the region's entry and at any float instance: what each window's block is, what the body
  leaves in the output block as a function of the input blocks, the body's Hoare triple, and the obligation the pipeline asks of
  the body at every point.
-/
import proofs.«102749_j60086592471644_1_alg».proof.Proof.Gen.Kernel.Launch
import proofs.«102749_j60086592471644_1_alg».proof.Proof.Gen.Kernel.Skeleton
import proofs.«102749_j60086592471644_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the window's rectangle of its array, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block of the array at every grid point, whether the
    pipeline fetched it there or not: where it did not, the block index has not moved since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block of the array at every grid point, whether the
    pipeline fetched it there or not: where it did not, the block index has not moved since the last fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles through which the body loads and stores. -/
abbrev r2_0 : Rect S1024x1024 := Rect.unit (s := S1024x1024) ![0, 0] S1024x1024.size inb_S1024x1024_S1024x1024_0_0
abbrev r2_1 : Rect S1024x1024 := Rect.unit (s := S1024x1024) ![0, 0] S1024x1024.size inb_S1024x1024_S1024x1024_0_0
abbrev r2_2 : Rect S1024x1024 := Rect.unit (s := S1024x1024) ![0, 0] S1024x1024.size inb_S1024x1024_S1024x1024_0_0

/-- The output block after the body, as a function of the input blocks: the one store's value, laid over the whole block. -/
def out2_2 (x0 : Vec F S1024x1024 .bf16) (x1 : Vec F S1024x1024 .bf16) : Vec F S1024x1024 .f32 :=
  View.canon [⟨r2_2, k2_pay1 (View.ld x0 r2_0) (View.ld x1 r2_1)⟩]

/-- The one store's rectangle is the whole block, so every index of the block is written. -/
theorem cover2_2 (p0 : Vec F S1024x1024 .f32) (y : S1024x1024.Idx) :
    ∃ pc ∈ ([⟨r2_2, p0⟩] : List (View.Piece (Elt F) S1024x1024 .f32)), y ∈ pc.1.set :=
  View.cover_of_tiled [⟨r2_2, p0⟩] S1024x1024.size (by rfl) y

set_option maxHeartbeats 1000000 in
/-- The body's triple: run on whole staging buffers, the inputs' holding `x_j` and the output's holding anything, it ends
    with the inputs' unchanged and the output's holding `out2_2` of the inputs. -/
theorem sound_kernel2 (c : Dev nD) (E : Set ℕ) (i : grid2.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole)
    (x0 : Vec F S1024x1024 .bf16) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__mm_kernel i arg1 harg1 arg2 harg2 arg3 harg3) K := by
  simp only [cc2__mm_kernel_eq_skeleton]; unfold cc2__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the region finds them; after the body at point `t` every input's
    buffer still holds its block and the output's holds `out2_2` of the input blocks; nothing else is touched or owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is handed at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any grid point: the inputs' buffers hold their blocks, so the triple applies; the rest passes through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Run.lean ====
/-
  The whole run of the kernel program's @main at any float instance: seven items in order — host lines, Pallas call 0 (the fused
  projection), host lines, Pallas call 1 (attention), host lines, Pallas call 2 (the output projection), one host line. The
  contents of every unscoped buffer are followed from the launch memory through the items (`Mem0` … `Mem7`): a stretch of host
  lines applies its operations, a call leaves its output array at what its write-backs left and touches nothing else. Every
  weakly fair execution terminates without a fault, and at the end every unscoped buffer holds `Mem7`; the arguments are among
  the buffers nothing writes.
-/
import proofs.«102749_j60086592471644_1_alg».proof.Proof.KB.Body0
import proofs.«102749_j60086592471644_1_alg».proof.Proof.KB.Body1
import proofs.«102749_j60086592471644_1_alg».proof.Proof.KB.Body2
import proofs.«102749_j60086592471644_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev Mem0 : Dev nD → Valuation τ sig (Elt F) := fun c b => m (c, b)
/-- After the first host lines (the weights concatenated, rounded and transposed; the activations flattened and rounded). -/
abbrev Mem1 : Dev nD → Valuation τ sig (Elt F) := fun c => StableHlo.after hostOps0 (Mem0 m c)
abbrev At1 : (c : Dev nD) → (b : Ref sig .tc) → Buf (Elt F) ((c : Thread nD τ).loc b) := fun c b => Mem1 m c b

/-- After Pallas call 0: its arrays at what the pipeline leaves (an input as entered, the output at the write-backs of every grid
    point), every other buffer as entered. -/
def Mem2 (c : Dev nD) : Valuation τ sig (Elt F) :=
  Pipeline.withArrays spec0 c (Mem1 m c) fun w => (dat0 (At1 m) c).arrAt w cfg0.N
theorem Mem2_arr (c : Dev nD) (w : Fin cfg0.W) :
    Mem2 m c (Proc.devRef .tc (Pipeline.arrRef spec0 w)) = (dat0 (At1 m) c).arrAt w cfg0.N := by
  unfold Mem2; exact Pipeline.withArrays_arr spec0 launch0.win.arr_inj c _ _ w
theorem Mem2_of_ne (c : Dev nD) (b : Ref sig .tc) (hb : ∀ w, Pipeline.arrRef spec0 w ≠ b) :
    Mem2 m c (Proc.devRef .tc b) = Mem1 m c (Proc.devRef .tc b) := by
  unfold Mem2; exact Pipeline.withArrays_of_ne spec0 c _ _ b hb
abbrev At2 : (c : Dev nD) → (b : Ref sig .tc) → Buf (Elt F) ((c : Thread nD τ).loc b) := fun c b => Mem2 m c b
theorem hF0 (c : Dev nD) (w : Fin cfg0.W) : (dat0 (At1 m) c).arrAt w cfg0.N = At2 m c (Pipeline.arrRef spec0 w) :=
  (Mem2_arr m c w).symm
theorem hrest0 (c : Dev nD) : ∀ b, b ∉ Finset.univ.image (Pipeline.arrRef spec0) → At2 m c b = At1 m c b :=
  fun b hb => Mem2_of_ne m c b fun w e => hb (Finset.mem_image.mpr ⟨w, Finset.mem_univ _, e⟩)

/-- After the host lines that split the fused projection into per-head queries, keys and values. -/
abbrev Mem3 : Dev nD → Valuation τ sig (Elt F) := fun c => StableHlo.after hostOps1 (Mem2 m c)
abbrev At3 : (c : Dev nD) → (b : Ref sig .tc) → Buf (Elt F) ((c : Thread nD τ).loc b) := fun c b => Mem3 m c b

/-- After Pallas call 1: its arrays at what the pipeline leaves (an input as entered, the output at the write-backs of every grid
    point), every other buffer as entered. -/
def Mem4 (c : Dev nD) : Valuation τ sig (Elt F) :=
  Pipeline.withArrays spec1 c (Mem3 m c) fun w => (dat1 (At3 m) c).arrAt w cfg1.N
theorem Mem4_arr (c : Dev nD) (w : Fin cfg1.W) :
    Mem4 m c (Proc.devRef .tc (Pipeline.arrRef spec1 w)) = (dat1 (At3 m) c).arrAt w cfg1.N := by
  unfold Mem4; exact Pipeline.withArrays_arr spec1 launch1.win.arr_inj c _ _ w
theorem Mem4_of_ne (c : Dev nD) (b : Ref sig .tc) (hb : ∀ w, Pipeline.arrRef spec1 w ≠ b) :
    Mem4 m c (Proc.devRef .tc b) = Mem3 m c (Proc.devRef .tc b) := by
  unfold Mem4; exact Pipeline.withArrays_of_ne spec1 c _ _ b hb
abbrev At4 : (c : Dev nD) → (b : Ref sig .tc) → Buf (Elt F) ((c : Thread nD τ).loc b) := fun c b => Mem4 m c b
theorem hF1 (c : Dev nD) (w : Fin cfg1.W) : (dat1 (At3 m) c).arrAt w cfg1.N = At4 m c (Pipeline.arrRef spec1 w) :=
  (Mem4_arr m c w).symm
theorem hrest1 (c : Dev nD) : ∀ b, b ∉ Finset.univ.image (Pipeline.arrRef spec1) → At4 m c b = At3 m c b :=
  fun b hb => Mem4_of_ne m c b fun w e => hb (Finset.mem_image.mpr ⟨w, Finset.mem_univ _, e⟩)

/-- After the host lines that merge the heads back into rows. -/
abbrev Mem5 : Dev nD → Valuation τ sig (Elt F) := fun c => StableHlo.after hostOps2 (Mem4 m c)
abbrev At5 : (c : Dev nD) → (b : Ref sig .tc) → Buf (Elt F) ((c : Thread nD τ).loc b) := fun c b => Mem5 m c b

/-- After Pallas call 2: its arrays at what the pipeline leaves (an input as entered, the output at the write-backs of every grid
    point), every other buffer as entered. -/
def Mem6 (c : Dev nD) : Valuation τ sig (Elt F) :=
  Pipeline.withArrays spec2 c (Mem5 m c) fun w => (dat2 (At5 m) c).arrAt w cfg2.N
theorem Mem6_arr (c : Dev nD) (w : Fin cfg2.W) :
    Mem6 m c (Proc.devRef .tc (Pipeline.arrRef spec2 w)) = (dat2 (At5 m) c).arrAt w cfg2.N := by
  unfold Mem6; exact Pipeline.withArrays_arr spec2 launch2.win.arr_inj c _ _ w
theorem Mem6_of_ne (c : Dev nD) (b : Ref sig .tc) (hb : ∀ w, Pipeline.arrRef spec2 w ≠ b) :
    Mem6 m c (Proc.devRef .tc b) = Mem5 m c (Proc.devRef .tc b) := by
  unfold Mem6; exact Pipeline.withArrays_of_ne spec2 c _ _ b hb
abbrev At6 : (c : Dev nD) → (b : Ref sig .tc) → Buf (Elt F) ((c : Thread nD τ).loc b) := fun c b => Mem6 m c b
theorem hF2 (c : Dev nD) (w : Fin cfg2.W) : (dat2 (At5 m) c).arrAt w cfg2.N = At6 m c (Pipeline.arrRef spec2 w) :=
  (Mem6_arr m c w).symm
theorem hrest2 (c : Dev nD) : ∀ b, b ∉ Finset.univ.image (Pipeline.arrRef spec2) → At6 m c b = At5 m c b :=
  fun b hb => Mem6_of_ne m c b fun w e => hb (Finset.mem_image.mpr ⟨w, Finset.mem_univ _, e⟩)

/-- After the last host line (the result reshaped to batch × sequence × model). -/
abbrev Mem7 : Dev nD → Valuation τ sig (Elt F) := fun c => StableHlo.after hostOps3 (Mem6 m c)

/-! ## The arguments end as launched -/

/-- Argument 0 ends as launched: no host line writes it and it is no array of any of the three calls. -/
theorem Mem7_main_arg0 (c : Dev nD) : Mem7 m c (Proc.devRef .tc main_arg0) = m ((c : Thread nD τ).loc main_arg0) :=
  calc Mem7 m c (Proc.devRef .tc main_arg0)
    _ = Mem6 m c (Proc.devRef .tc main_arg0) := StableHlo.after_of_writes_sub hostOps3 _ hostOps3_writes (by decide)
    _ = Mem5 m c (Proc.devRef .tc main_arg0) := Mem6_of_ne m c main_arg0 (by decide)
    _ = Mem4 m c (Proc.devRef .tc main_arg0) := StableHlo.after_of_writes_sub hostOps2 _ hostOps2_writes (by decide)
    _ = Mem3 m c (Proc.devRef .tc main_arg0) := Mem4_of_ne m c main_arg0 (by decide)
    _ = Mem2 m c (Proc.devRef .tc main_arg0) := StableHlo.after_of_writes_sub hostOps1 _ hostOps1_writes (by decide)
    _ = Mem1 m c (Proc.devRef .tc main_arg0) := Mem2_of_ne m c main_arg0 (by decide)
    _ = Mem0 m c (Proc.devRef .tc main_arg0) := StableHlo.after_of_writes_sub hostOps0 _ hostOps0_writes (by decide)
    _ = m ((c : Thread nD τ).loc main_arg0) := rfl

/-- Argument 1 ends as launched: no host line writes it and it is no array of any of the three calls. -/
theorem Mem7_main_arg1 (c : Dev nD) : Mem7 m c (Proc.devRef .tc main_arg1) = m ((c : Thread nD τ).loc main_arg1) :=
  calc Mem7 m c (Proc.devRef .tc main_arg1)
    _ = Mem6 m c (Proc.devRef .tc main_arg1) := StableHlo.after_of_writes_sub hostOps3 _ hostOps3_writes (by decide)
    _ = Mem5 m c (Proc.devRef .tc main_arg1) := Mem6_of_ne m c main_arg1 (by decide)
    _ = Mem4 m c (Proc.devRef .tc main_arg1) := StableHlo.after_of_writes_sub hostOps2 _ hostOps2_writes (by decide)
    _ = Mem3 m c (Proc.devRef .tc main_arg1) := Mem4_of_ne m c main_arg1 (by decide)
    _ = Mem2 m c (Proc.devRef .tc main_arg1) := StableHlo.after_of_writes_sub hostOps1 _ hostOps1_writes (by decide)
    _ = Mem1 m c (Proc.devRef .tc main_arg1) := Mem2_of_ne m c main_arg1 (by decide)
    _ = Mem0 m c (Proc.devRef .tc main_arg1) := StableHlo.after_of_writes_sub hostOps0 _ hostOps0_writes (by decide)
    _ = m ((c : Thread nD τ).loc main_arg1) := rfl

/-- Argument 2 ends as launched: no host line writes it and it is no array of any of the three calls. -/
theorem Mem7_main_arg2 (c : Dev nD) : Mem7 m c (Proc.devRef .tc main_arg2) = m ((c : Thread nD τ).loc main_arg2) :=
  calc Mem7 m c (Proc.devRef .tc main_arg2)
    _ = Mem6 m c (Proc.devRef .tc main_arg2) := StableHlo.after_of_writes_sub hostOps3 _ hostOps3_writes (by decide)
    _ = Mem5 m c (Proc.devRef .tc main_arg2) := Mem6_of_ne m c main_arg2 (by decide)
    _ = Mem4 m c (Proc.devRef .tc main_arg2) := StableHlo.after_of_writes_sub hostOps2 _ hostOps2_writes (by decide)
    _ = Mem3 m c (Proc.devRef .tc main_arg2) := Mem4_of_ne m c main_arg2 (by decide)
    _ = Mem2 m c (Proc.devRef .tc main_arg2) := StableHlo.after_of_writes_sub hostOps1 _ hostOps1_writes (by decide)
    _ = Mem1 m c (Proc.devRef .tc main_arg2) := Mem2_of_ne m c main_arg2 (by decide)
    _ = Mem0 m c (Proc.devRef .tc main_arg2) := StableHlo.after_of_writes_sub hostOps0 _ hostOps0_writes (by decide)
    _ = m ((c : Thread nD τ).loc main_arg2) := rfl

/-- Argument 3 ends as launched: no host line writes it and it is no array of any of the three calls. -/
theorem Mem7_main_arg3 (c : Dev nD) : Mem7 m c (Proc.devRef .tc main_arg3) = m ((c : Thread nD τ).loc main_arg3) :=
  calc Mem7 m c (Proc.devRef .tc main_arg3)
    _ = Mem6 m c (Proc.devRef .tc main_arg3) := StableHlo.after_of_writes_sub hostOps3 _ hostOps3_writes (by decide)
    _ = Mem5 m c (Proc.devRef .tc main_arg3) := Mem6_of_ne m c main_arg3 (by decide)
    _ = Mem4 m c (Proc.devRef .tc main_arg3) := StableHlo.after_of_writes_sub hostOps2 _ hostOps2_writes (by decide)
    _ = Mem3 m c (Proc.devRef .tc main_arg3) := Mem4_of_ne m c main_arg3 (by decide)
    _ = Mem2 m c (Proc.devRef .tc main_arg3) := StableHlo.after_of_writes_sub hostOps1 _ hostOps1_writes (by decide)
    _ = Mem1 m c (Proc.devRef .tc main_arg3) := Mem2_of_ne m c main_arg3 (by decide)
    _ = Mem0 m c (Proc.devRef .tc main_arg3) := StableHlo.after_of_writes_sub hostOps0 _ hostOps0_writes (by decide)
    _ = m ((c : Thread nD τ).loc main_arg3) := rfl

/-- Argument 4 ends as launched: no host line writes it and it is no array of any of the three calls. -/
theorem Mem7_main_arg4 (c : Dev nD) : Mem7 m c (Proc.devRef .tc main_arg4) = m ((c : Thread nD τ).loc main_arg4) :=
  calc Mem7 m c (Proc.devRef .tc main_arg4)
    _ = Mem6 m c (Proc.devRef .tc main_arg4) := StableHlo.after_of_writes_sub hostOps3 _ hostOps3_writes (by decide)
    _ = Mem5 m c (Proc.devRef .tc main_arg4) := Mem6_of_ne m c main_arg4 (by decide)
    _ = Mem4 m c (Proc.devRef .tc main_arg4) := StableHlo.after_of_writes_sub hostOps2 _ hostOps2_writes (by decide)
    _ = Mem3 m c (Proc.devRef .tc main_arg4) := Mem4_of_ne m c main_arg4 (by decide)
    _ = Mem2 m c (Proc.devRef .tc main_arg4) := StableHlo.after_of_writes_sub hostOps1 _ hostOps1_writes (by decide)
    _ = Mem1 m c (Proc.devRef .tc main_arg4) := Mem2_of_ne m c main_arg4 (by decide)
    _ = Mem0 m c (Proc.devRef .tc main_arg4) := StableHlo.after_of_writes_sub hostOps0 _ hostOps0_writes (by decide)
    _ = m ((c : Thread nD τ).loc main_arg4) := rfl

/-! ## The proof data family and what rides beside the buffers -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (At1 m) c
  | ⟨1, _⟩ => fun c => dat1 (At3 m) c
  | ⟨2, _⟩ => fun c => dat2 (At5 m) c
abbrev 𝒱₀ : Variants := Variants.none
abbrev L : GSem nD τ sig → Finset Unit := fun _ => ∅
abbrev lv : GSem nD τ sig → Unit → ℕ := fun _ _ => 0
/-- Beside the buffers, through every item: the core's generator register at some state, and the core owing nothing. -/
abbrev R (c : Dev nD) : sProp 𝕄 := iprop((∃ r, prngReg c r) ∗ ∃ W, owes (c : Thread nD τ) (0 : CellTallies nD τ sig Unit) W)
/-- A stretch of host lines as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the `owes`: every unscoped buffer at `Mem7`, the generator register at some state. -/
abbrev Tₙ (c : Dev nD) : sProp 𝕄 := iprop(StableHlo.held (c : Thread nD τ) (Pipeline.ucRefs τ sig) (Mem7 m c) ∗ ∃ r, prngReg c r)

/-! ## The three calls as segments -/

set_option backward.isDefEq.respectTransparency.types false in
/-- Pallas call 0 as a segment of @main: entered with every unscoped buffer at `Mem1`, left with them at `Mem2`. At entry
    the region's arrays are split out of the unscoped buffers and at exit put back at what the write-backs left; the generator
    register goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (At1 m) c).loose
  hwaits := Pipeline.hwaits_of_owed_zero _ _ _ _ L lv 0 fun _ _ => rfl
  pre c := iprop(StableHlo.held (c : Thread nD τ) (Pipeline.ucRefs τ sig) (Mem1 m c) ∗ R c)
  post c := iprop(StableHlo.held (c : Thread nD τ) (Pipeline.ucRefs τ sig) (Mem2 m c) ∗ R c)
  X c := iprop(∃ r, prngReg c r)
  Y c := iprop(∃ r, prngReg c r)
  Z c := Pipeline.unscopedRest (Ix := Unit) (Name := ℕ) (U := UR sig nD τ) (Lvl := ℕ) spec0 c (At1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (At1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (At1 m c) (At2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment of @main: entered with every unscoped buffer at `Mem3`, left with them at `Mem4`. At entry
    the region's arrays are split out of the unscoped buffers and at exit put back at what the write-backs left; the generator
    register goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (At3 m) c).loose
  hwaits := Pipeline.hwaits_of_owed_zero _ _ _ _ L lv 1 fun _ _ => rfl
  pre c := iprop(StableHlo.held (c : Thread nD τ) (Pipeline.ucRefs τ sig) (Mem3 m c) ∗ R c)
  post c := iprop(StableHlo.held (c : Thread nD τ) (Pipeline.ucRefs τ sig) (Mem4 m c) ∗ R c)
  X c := iprop(∃ r, prngReg c r)
  Y c := iprop(∃ r, prngReg c r)
  Z c := Pipeline.unscopedRest (Ix := Unit) (Name := ℕ) (U := UR sig nD τ) (Lvl := ℕ) spec1 c (At3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (At3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (At3 m c) (At4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 as a segment of @main: entered with every unscoped buffer at `Mem5`, left with them at `Mem6`. At entry
    the region's arrays are split out of the unscoped buffers and at exit put back at what the write-backs left; the generator
    register goes into the region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (At5 m) c).loose
  hwaits := Pipeline.hwaits_of_owed_zero _ _ _ _ L lv 2 fun _ _ => rfl
  pre c := iprop(StableHlo.held (c : Thread nD τ) (Pipeline.ucRefs τ sig) (Mem5 m c) ∗ R c)
  post c := iprop(StableHlo.held (c : Thread nD τ) (Pipeline.ucRefs τ sig) (Mem6 m c) ∗ R c)
  X c := iprop(∃ r, prngReg c r)
  Y c := iprop(∃ r, prngReg c r)
  Z c := Pipeline.unscopedRest (Ix := Unit) (Name := ℕ) (U := UR sig nD τ) (Lvl := ℕ) spec2 c (At5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (At5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (At5 m c) (At6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its segments, and the run -/

abbrev segs : List (Pipeline.Seg (pcfgs (F := F)) adm (pdats m) () defs₀ 𝒱₀ L lv) :=
  [ .host (hseg hostOps0 hostOps0_sub hostOps0_fresh (Mem0 m)),
    .region (reg0 m),
    .host (hseg hostOps1 hostOps1_sub hostOps1_fresh (Mem2 m)),
    .region (reg1 m),
    .host (hseg hostOps2 hostOps2_sub hostOps2_fresh (Mem4 m)),
    .region (reg2 m),
    .host (hseg hostOps3 hostOps3_sub hostOps3_fresh (Mem6 m)) ]

theorem main_run (c : Dev nD) : main (F := F) c = Pipeline.Seg.run (segs m) := (main_chain c).trans (by chain_rfl)

set_option backward.isDefEq.respectTransparency.types false in
/-- THE RUN. From any memory with zero counters, every weakly fair execution of @main terminates, nothing faulting, and in every
    final state each unscoped buffer of each core holds `Mem7`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Mem7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Mem0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (Mem7 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Mem0 m c)
        from Pipeline.unscopedBufs_held c (Mem0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Mem7 m c b)
    (hfin := fun c s' => by
      iintro ⟨⟨Hh, -⟩, HSI⟩
      unfold StableHlo.held
      imodintro
      iapply (pointsTo_read_all (Pipeline.ucRefs τ sig) (fun b => (((c : Thread nD τ)).1, b)) (Mem7 m c) s')
      isplitl [Hh] <;> iassumption)
    (hQ := fun s h => h)

/-- The frame: every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (Mem7_main_arg0 m c),
     (h c _ (mem_uc main_arg1 (by decide))).trans (Mem7_main_arg1 m c),
     (h c _ (mem_uc main_arg2 (by decide))).trans (Mem7_main_arg2 m c),
     (h c _ (mem_uc main_arg3 (by decide))).trans (Mem7_main_arg3 m c),
     (h c _ (mem_uc main_arg4 (by decide))).trans (Mem7_main_arg4 m c)⟩) (run_all m ρ)

end Cert.Kernel.Hand

end
-- ==== Proof.RefRead.lean ====
/-
  The reference program's run and its stages read at an index, brought in for the value bridge.
-/
import proofs.«102749_j60086592471644_1_alg».proof.Proof.Gen.ReferenceIdeal.Read
-- ==== Proof.KI.Stages.lean ====
/-
  What each stretch of host lines leaves in the buffers the three calls read, and in the result, as composed layout operations
  of what the stretch found: the fused weight matrix is the three weight matrices stacked, rounded and transposed; the
  activations are flattened to rows; queries, keys and values are the three thirds of the fused projection's columns, split
  into heads; the attended values are merged back into rows; the result is the output projection reshaped to
  batch × sequence × model. The transposed output weight, written before the first call, is still there before the third.
-/
import proofs.«102749_j60086592471644_1_alg».proof.Proof.KI.Run
import Idealize.ShloMosaic.Lib.StableHlo.Run
import Idealize.ShloMosaic.Lib.Pipeline.Value
import Idealize.ShloMosaic.PureOps.Ideal
import Idealize.ShloMosaic.PureOps.Ideal.Laws

noncomputable section

namespace Cert.KernelIdeal.Hand

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ)

/-- The argument arrays as plain functions of an index. -/
abbrev argX (c : Dev nD) : S4x2048x1024.Idx → EReal := m ((c : Thread nD τ).loc main_arg0)
abbrev argWq (c : Dev nD) : S1024x1024.Idx → EReal := m ((c : Thread nD τ).loc main_arg1)
abbrev argWk (c : Dev nD) : S1024x1024.Idx → EReal := m ((c : Thread nD τ).loc main_arg2)
abbrev argWv (c : Dev nD) : S1024x1024.Idx → EReal := m ((c : Thread nD τ).loc main_arg3)
abbrev argWo (c : Dev nD) : S1024x1024.Idx → EReal := m ((c : Thread nD τ).loc main_arg4)

/-! ## Before the first call -/

/-- The activations, flattened to 8192 rows and rounded. -/
theorem At1_v6 (c : Dev nD) : (At1 m c main_v6 : S8192x1024.Idx → EReal)
    = truncf (F := Ideal) .bf16 (shapeCast S8192x1024 (argX m c) shapeCasts_S4x2048x1024_S8192x1024) bitsLt_bf16_f32 := by
  dsimp only [At1, Mem1, Mem0, hostOps0]
  after_results
  all_goals rfl

/-- The fused weight matrix: the three weight matrices stacked along the rows, rounded, transposed. -/
theorem At1_v2 (c : Dev nD) : (At1 m c main_v2 : S1024x3072.Idx → EReal)
    = transpose (α := EReal) S1024x3072 [1, 0] (truncf (F := Ideal) .bf16 (concatenate (α := EReal) S3072x1024 0 [⟨S1024x1024, argWq m c⟩, ⟨S1024x1024, argWk m c⟩, ⟨S1024x1024, argWv m c⟩] concatenates_S1024x1024_S1024x1024_S1024x1024_S3072x1024_d0) bitsLt_bf16_f32) transposes_S3072x1024_S1024x3072_1_0 := by
  dsimp only [At1, Mem1, Mem0, hostOps0]
  after_results
  all_goals rfl

/-- The output weight matrix, rounded and transposed. -/
theorem At1_v4 (c : Dev nD) : (At1 m c main_v4 : S1024x1024.Idx → EReal)
    = transpose (α := EReal) S1024x1024 [1, 0] (truncf (F := Ideal) .bf16 (argWo m c) bitsLt_bf16_f32) transposes_S1024x1024_S1024x1024_1_0 := by
  dsimp only [At1, Mem1, Mem0, hostOps0]
  after_results
  all_goals rfl

/-! ## Before the second call: the fused projection split into per-head queries, keys, values -/

theorem At3_v12 (c : Dev nD) : (At3 m c main_v12 : S64x2048x64.Idx → EReal)
    = shapeCast (α := EReal) S64x2048x64 (shapeCast S4x16x2048x64 (extractStridedSlice S1x4x16x2048x64 ![0, 0, 0, 0, 0] (transpose S3x4x16x2048x64 [2, 0, 3, 1, 4] (shapeCast S4x2048x3x16x64 (At2 m c main_v7 : S8192x3072.Idx → EReal) shapeCasts_S8192x3072_S4x2048x3x16x64) transposes_S4x2048x3x16x64_S3x4x16x2048x64_2_0_3_1_4) slices_S3x4x16x2048x64_S1x4x16x2048x64_0_0_0_0_0) shapeCasts_S1x4x16x2048x64_S4x16x2048x64) shapeCasts_S4x16x2048x64_S64x2048x64 := by
  dsimp only [At3, Mem3, hostOps1]
  after_results
  all_goals rfl

theorem At3_v15 (c : Dev nD) : (At3 m c main_v15 : S64x2048x64.Idx → EReal)
    = shapeCast (α := EReal) S64x2048x64 (shapeCast S4x16x2048x64 (extractStridedSlice S1x4x16x2048x64 ![1, 0, 0, 0, 0] (transpose S3x4x16x2048x64 [2, 0, 3, 1, 4] (shapeCast S4x2048x3x16x64 (At2 m c main_v7 : S8192x3072.Idx → EReal) shapeCasts_S8192x3072_S4x2048x3x16x64) transposes_S4x2048x3x16x64_S3x4x16x2048x64_2_0_3_1_4) slices_S3x4x16x2048x64_S1x4x16x2048x64_1_0_0_0_0) shapeCasts_S1x4x16x2048x64_S4x16x2048x64) shapeCasts_S4x16x2048x64_S64x2048x64 := by
  dsimp only [At3, Mem3, hostOps1]
  after_results
  all_goals rfl

theorem At3_v18 (c : Dev nD) : (At3 m c main_v18 : S64x2048x64.Idx → EReal)
    = shapeCast (α := EReal) S64x2048x64 (shapeCast S4x16x2048x64 (extractStridedSlice S1x4x16x2048x64 ![2, 0, 0, 0, 0] (transpose S3x4x16x2048x64 [2, 0, 3, 1, 4] (shapeCast S4x2048x3x16x64 (At2 m c main_v7 : S8192x3072.Idx → EReal) shapeCasts_S8192x3072_S4x2048x3x16x64) transposes_S4x2048x3x16x64_S3x4x16x2048x64_2_0_3_1_4) slices_S3x4x16x2048x64_S1x4x16x2048x64_2_0_0_0_0) shapeCasts_S1x4x16x2048x64_S4x16x2048x64) shapeCasts_S4x16x2048x64_S64x2048x64 := by
  dsimp only [At3, Mem3, hostOps1]
  after_results
  all_goals rfl

/-! ## Before the third call: the heads merged back into rows; the output weight as first written -/

theorem At5_v22 (c : Dev nD) : (At5 m c main_v22 : S8192x1024.Idx → EReal)
    = shapeCast (α := EReal) S8192x1024 (transpose S4x2048x16x64 [0, 2, 1, 3] (shapeCast S4x16x2048x64 (At4 m c main_v19 : S64x2048x64.Idx → EReal) shapeCasts_S64x2048x64_S4x16x2048x64) transposes_S4x16x2048x64_S4x2048x16x64_0_2_1_3) shapeCasts_S4x2048x16x64_S8192x1024 := by
  dsimp only [At5, Mem5, hostOps2]
  after_results
  all_goals rfl

/-- Nothing between the first host lines and the third call writes the transposed output weight. -/
theorem At5_v4 (c : Dev nD) : At5 m c main_v4 = At1 m c main_v4 :=
  calc Mem5 m c (Proc.devRef .tc main_v4)
    _ = Mem4 m c (Proc.devRef .tc main_v4) := StableHlo.after_of_writes_sub hostOps2 _ hostOps2_writes (by decide)
    _ = Mem3 m c (Proc.devRef .tc main_v4) := Mem4_of_ne m c main_v4 (by decide)
    _ = Mem2 m c (Proc.devRef .tc main_v4) := StableHlo.after_of_writes_sub hostOps1 _ hostOps1_writes (by decide)
    _ = Mem1 m c (Proc.devRef .tc main_v4) := Mem2_of_ne m c main_v4 (by decide)

/-! ## The result -/

theorem Mem7_v24 (c : Dev nD) : (Mem7 m c (Proc.devRef .tc main_v24) : S4x2048x1024.Idx → EReal)
    = shapeCast (α := EReal) S4x2048x1024 (At6 m c main_v23 : S8192x1024.Idx → EReal) shapeCasts_S8192x1024_S4x2048x1024 := by
  dsimp only [Mem7, hostOps3]
  after_results
  all_goals rfl

end Cert.KernelIdeal.Hand

end
-- ==== Proof.LibRowBlockDot.lean ====
/-
  A matrix product taken a block of rows at a time.

  For a two-axis contraction `[M, K] × [K, N] → [M, N]` whose dimension numbers contract the left operand's second
  axis with the right operand's first and keep the other two in order (`PlainDot`), the sum over the contraction
  index at output `(r, c)` is `∑ k : Fin K, x (r, k) · w (k, c)` (`sum_contr_eq`). Hence the product of a block
  of rows of `X` with `W`, read at a row of the block, is the whole product `X · W` read at that row of the array
  (`rowblock_sum`): the two sums have the same terms. Only the commutative monoid of the extended reals' addition
  is used; nothing here needs a finite entry.
-/
import Idealize.ShloMosaic.Lib.ValueIdx
import Idealize.ShloMosaic.PureOps.Ideal.Laws

namespace Idealize.ShloMosaic.RowBlockDot

open Idealize.ShloMosaic Idealize.ShloMosaic.ValueIdx

/-- The dimension numbers of a plain matrix product: one contracted axis of extent `K`; the left operand's index at
    output `j` and contraction index `q` is `(j 0, q)`, the right operand's `(q, j 1)`. -/
structure PlainDot {M K N : Nat} (d : DotDims (⟨2, ![M, K]⟩ : Shape) (⟨2, ![K, N]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

variable {M K N : Nat}

/-- The contraction's sum at output `j` is the sum over `k : Fin K` of `x (j 0, k) · w (k, j 1)`. -/
theorem sum_contr_eq (d : DotDims (⟨2, ![M, K]⟩ : Shape) (⟨2, ![K, N]⟩ : Shape) (⟨2, ![M, N]⟩ : Shape)) (h : PlainDot d)
    (x : (⟨2, ![M, K]⟩ : Shape).Idx → EReal) (w : (⟨2, ![K, N]⟩ : Shape).Idx → EReal) (j : (⟨2, ![M, N]⟩ : Shape).Idx) :
    ∑ q : d.contr.Idx, x (d.lhsIdx j q) * w (d.rhsIdx j q) = ∑ k : Fin K, x (ix2 (j 0) k) * w (ix2 k (j 1)) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 (j 0) k := funext fun a => Fin.ext (by
    match a with
    | ⟨0, _⟩ => exact h.l0 _ _
    | ⟨1, _⟩ => exact (h.l1 _ _).trans hk)
  have er : d.rhsIdx j ((contrEquiv1 d K h.hr h.hs).symm k) = ix2 k (j 1) := funext fun a => Fin.ext (by
    match a with
    | ⟨0, _⟩ => exact (h.r0 _ _).trans hk
    | ⟨1, _⟩ => exact h.r1 _ _)
  exact congrArg₂ (· * ·) (congrArg x el) (congrArg w er)

/-- A block of `Mb` rows times `W`, at row `y 0` of the block, is `X · W` at the array's row `i 0`, when the block's
    row `y 0` is the array's row `i 0` (`hx`) and the two right operands agree on column `y 1` / `i 1` (`hw`). -/
theorem rowblock_sum {Mb : Nat}
    (dW : DotDims (⟨2, ![M, K]⟩ : Shape) (⟨2, ![K, N]⟩ : Shape) (⟨2, ![M, N]⟩ : Shape)) (hW : PlainDot dW)
    (dB : DotDims (⟨2, ![Mb, K]⟩ : Shape) (⟨2, ![K, N]⟩ : Shape) (⟨2, ![Mb, N]⟩ : Shape)) (hB : PlainDot dB)
    (X : (⟨2, ![M, K]⟩ : Shape).Idx → EReal) (W : (⟨2, ![K, N]⟩ : Shape).Idx → EReal)
    (xb : (⟨2, ![Mb, K]⟩ : Shape).Idx → EReal) (wb : (⟨2, ![K, N]⟩ : Shape).Idx → EReal)
    (y : (⟨2, ![Mb, N]⟩ : Shape).Idx) (i : (⟨2, ![M, N]⟩ : Shape).Idx)
    (hx : ∀ k : Fin K, xb (ix2 (y 0) k) = X (ix2 (i 0) k))
    (hw : ∀ k : Fin K, wb (ix2 k (y 1)) = W (ix2 k (i 1))) :
    ∑ q : dB.contr.Idx, xb (dB.lhsIdx y q) * wb (dB.rhsIdx y q) = ∑ q : dW.contr.Idx, X (dW.lhsIdx i q) * W (dW.rhsIdx i q) := by
  rw [sum_contr_eq dB hB, sum_contr_eq dW hW]
  exact Finset.sum_congr rfl fun k _ => congrArg₂ (· * ·) (hx k) (hw k)

end Idealize.ShloMosaic.RowBlockDot
-- ==== Proof.PayMatmul.lean ====
/-
  The two projection kernels' arithmetic, read at an index over the extended reals.

  Each kernel multiplies a block of 1024 rows by a whole weight matrix: a plain matrix product [1024, K] × [K, N] into an
  accumulator of zeros, between reshapes to the same shape (the identity) and, for the first kernel, a change of format
  (the identity over the extended reals). At output (p, c) the value is therefore the sum over k of x (p, k) · w (k, c).
-/
import proofs.«102749_j60086592471644_1_alg».proof.Proof.Gen.KernelIdeal.Skeleton
import proofs.«102749_j60086592471644_1_alg».proof.Proof.LibRowBlockDot
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx Idealize.ShloMosaic.RowBlockDot Idealize.SL.Sem

/-- The dimension numbers of the 1024 × 1024 by 1024 × 3072 product are those of a plain matrix product. -/
theorem plain_k0 : PlainDot (M := 1024) (K := 1024) (N := 3072) dot_S1024x1024_S1024x3072_S1024x3072_1_0_0_1_n_n where
  hr := rfl
  hs := rfl
  l0 := fun j q => by
    unfold DotDims.lhsIdx
    rw [dif_neg (show ¬(0 : Fin S1024x1024.rank) ∈ dot_S1024x1024_S1024x3072_S1024x3072_1_0_0_1_n_n.lhsBatch by decide), dif_pos (show (0 : Fin S1024x1024.rank) ∈ dot_S1024x1024_S1024x3072_S1024x3072_1_0_0_1_n_n.lhsNonContracting by decide)]
    rfl
  l1 := fun j q => dot_S1024x1024_S1024x3072_S1024x3072_1_0_0_1_n_n.lhsIdx_val_of_single rfl j q
  r0 := fun j q => dot_S1024x1024_S1024x3072_S1024x3072_1_0_0_1_n_n.rhsIdx_val_of_single rfl j q
  r1 := fun j q => by
    unfold DotDims.rhsIdx
    rw [dif_neg (show ¬(1 : Fin S1024x3072.rank) ∈ dot_S1024x1024_S1024x3072_S1024x3072_1_0_0_1_n_n.rhsBatch by decide), dif_pos (show (1 : Fin S1024x3072.rank) ∈ dot_S1024x1024_S1024x3072_S1024x3072_1_0_0_1_n_n.rhsNonContracting by decide)]
    rfl

/-- The dimension numbers of the 1024 × 1024 by 1024 × 1024 product are those of a plain matrix product. -/
theorem plain_k2 : PlainDot (M := 1024) (K := 1024) (N := 1024) dot_S1024x1024_S1024x1024_S1024x1024_1_0_0_1_n_n where
  hr := rfl
  hs := rfl
  l0 := fun j q => by
    unfold DotDims.lhsIdx
    rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
    rfl
  l1 := fun j q => dot_S1024x1024_S1024x1024_S1024x1024_1_0_0_1_n_n.lhsIdx_val_of_single rfl j q
  r0 := fun j q => dot_S1024x1024_S1024x1024_S1024x1024_1_0_0_1_n_n.rhsIdx_val_of_single rfl j q
  r1 := fun j q => by
    unfold DotDims.rhsIdx
    rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
    rfl

/-- The first projection kernel's stored value at (p, c): row p of the block against column c of the fused weight. -/
theorem k0_pay1_apply (x : Vec Ideal S1024x1024 .bf16) (w : Vec Ideal S1024x3072 .bf16) (p : Fin 1024) (c : Fin 3072) :
    Cert.KernelIdeal.Gen.k0_pay1 (F := Ideal) x w (ix2 p c) = ∑ k : Fin 1024, x (ix2 p k) * w (ix2 k c) := by
  unfold Cert.KernelIdeal.Gen.k0_pay1
  simp only [matmul, shapeCast_self]
  refine (truncf_apply (FloatOps.matmul dot_S1024x1024_S1024x3072_S1024x3072_1_0_0_1_n_n none x w (constant S1024x3072 .f32 0x00000000#32)) bitsLt_bf16_f32 (ix2 p c)).trans ?_
  exact (Ideal.matmul_constant_zero_apply (φ₁ := .bf16) (φ₂ := .bf16) dot_S1024x1024_S1024x3072_S1024x3072_1_0_0_1_n_n none x w (ix2 p c)).trans
    (sum_contr_eq dot_S1024x1024_S1024x3072_S1024x3072_1_0_0_1_n_n plain_k0 x w (ix2 p c))

/-- The output projection kernel's stored value at (p, c): row p of the block against column c of the weight. -/
theorem k2_pay1_apply (x w : Vec Ideal S1024x1024 .bf16) (p c : Fin 1024) :
    Cert.KernelIdeal.Gen.k2_pay1 (F := Ideal) x w (ix2 p c) = ∑ k : Fin 1024, x (ix2 p k) * w (ix2 k c) := by
  unfold Cert.KernelIdeal.Gen.k2_pay1
  simp only [matmul, shapeCast_self]
  exact (Ideal.matmul_constant_zero_apply (φ₁ := .bf16) (φ₂ := .bf16) dot_S1024x1024_S1024x1024_S1024x1024_1_0_0_1_n_n none x w (ix2 p c)).trans
    (sum_contr_eq dot_S1024x1024_S1024x1024_S1024x1024_1_0_0_1_n_n plain_k2 x w (ix2 p c))

end Cert.KernelIdeal.Pay

end
-- ==== Proof.KI.BlocksMM.lean ====
/-
  The two projection calls, from blocks to whole arrays. Each grid point multiplies a block of 1024 rows by the whole weight
  matrix and writes back the same block of rows of the output; the eight blocks tile the 8192 rows. So after the call the output
  array is the product of the two input arrays, entry by entry.
-/
import proofs.«102749_j60086592471644_1_alg».proof.Proof.KI.Body0
import proofs.«102749_j60086592471644_1_alg».proof.Proof.KI.Body2
import proofs.«102749_j60086592471644_1_alg».proof.Proof.PayMatmul
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-! ## Pallas call 0: the fused query/key/value projection -/

/-- Rows of `a` times the matrix `w`: entry (r, c) is the sum over k of a[r, k] · w[k, c]. -/
def rowsTimes0 (a : S8192x1024.Idx → EReal) (w : S1024x3072.Idx → EReal) : S8192x3072.Idx → EReal :=
  fun i => ∑ k : Fin 1024, a (ix2 (i 0) k) * w (ix2 k (i 1))

/-- Row `p` of a block times column `q` of a block is entry `i` of the product of the arrays, once the block's row is the
    array's row `i 0` and the block's column is the array's column `i 1`. -/
theorem blk_sum0 (xa : S1024x1024.Idx → EReal) (xw : S1024x3072.Idx → EReal) (A : S8192x1024.Idx → EReal) (Wt : S1024x3072.Idx → EReal)
    (p : Fin 1024) (q : Fin 3072) (i : S8192x3072.Idx)
    (ha : ∀ k : Fin 1024, xa (ix2 p k) = A (ix2 (i 0) k)) (hw : ∀ k : Fin 1024, xw (ix2 k q) = Wt (ix2 k (i 1))) :
    ∑ k : Fin 1024, xa (ix2 p k) * xw (ix2 k q) = rowsTimes0 A Wt i := by
  unfold rowsTimes0
  exact Finset.sum_congr rfl fun k _ => by rw [ha k, hw k]

/-- The block index maps over the grid of eight row blocks: the activations' block and the output's block are row block
    `t`, all columns; the weight's block is the whole matrix. -/
theorem idx_facts0 : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What grid point `t` writes back is block `t` of the product of the whole arrays as the call finds them. -/
theorem flushed0_eq (c : Dev nD) (t : Fin cfg0.N) :
    (dat0 V c).flushed 2 t = ((cfg0.win 2).blk t).view.read (Elt Ideal) (rowsTimes0 (V c main_v6) (V c main_v2)) := by
  show (cfg0.win 2).cut (grid0.coords t) ((dat0 V c).after 2 t) = _
  rw [after0_2]
  unfold out0_2
  rw [View.canon_unit_zero hz2]
  simp only [View.ld_unit_zero (S := S1024x1024) hz2, View.ld_unit_zero (S := S1024x3072) hz2]
  obtain ⟨e0, e1, e2, e3, e4, e5⟩ := idx_facts0 t
  funext j
  obtain ⟨p, q, rfl⟩ : ∃ (p : Fin 1024) (q : Fin 3072), j = ix2 p q := ⟨j 0, j 1, eq_ix2 j⟩
  refine (Cert.KernelIdeal.Pay.k0_pay1_apply (iblk0 V c 0 t) (iblk0 V c 1 t) p q).trans ?_
  refine blk_sum0 _ _ (V c main_v6) (V c main_v2) p q (((cfg0.win 2).blk t).view.emb (ix2 p q)) (fun k => ?_) (fun k => ?_)
  · show V c main_v6 (((cfg0.win 0).blk t).view.emb (ix2 p k)) = _
    refine congrArg (V c main_v6) (funext fun a => Fin.ext ?_)
    match a with
    | ⟨0, _⟩ => show win0_0.index t (0 : Fin 2) * 1024 + 1 * p.val = win0_2.index t (0 : Fin 2) * 1024 + 1 * p.val; omega
    | ⟨1, _⟩ => show win0_0.index t (1 : Fin 2) * 1024 + 1 * k.val = k.val; omega
  · show V c main_v2 (((cfg0.win 1).blk t).view.emb (ix2 k q)) = _
    refine congrArg (V c main_v2) (funext fun a => Fin.ext ?_)
    match a with
    | ⟨0, _⟩ => show win0_1.index t (0 : Fin 2) * 1024 + 1 * k.val = k.val; omega
    | ⟨1, _⟩ => show win0_1.index t (1 : Fin 2) * 3072 + 1 * q.val = win0_2.index t (1 : Fin 2) * 3072 + 1 * q.val; omega

/-- An index of the output array lies in point `t`'s block iff each coordinate lies in the block's range on its axis. -/
theorem mem_blk0 (t : Fin cfg0.N) (i : S8192x3072.Idx) :
    i ∈ ((cfg0.win 2).blk t).view.set ↔ ∀ a : Fin 2, win0_2.index t a * S1024x3072.size a ≤ (i a).val ∧ (i a).val < win0_2.index t a * S1024x3072.size a + S1024x3072.size a := by
  show i ∈ ((View.whole main_v7).slice (win0_2.rect t)).set ↔ _
  rw [View.set_slice_whole, Rect.mem_set_unit]
  exact Iff.rfl

/-- Every index of the output array is written: row r by the point r / 1024. -/
theorem cover0 (i : S8192x3072.Idx) : ∃ t : Fin cfg0.N, (cfg0.win 2).flush t = true ∧ i ∈ ((cfg0.win 2).blk t).view.set := by
  have hi0 : (i 0).val < 8192 := (i 0).isLt
  have hi1 : (i 1).val < 3072 := (i 1).isLt
  have hlt : (i 0).val / 1024 < grid0.N := by rw [N_0]; omega
  refine ⟨⟨(i 0).val / 1024, hlt⟩, flush0_2 _, ?_⟩
  rw [mem_blk0]
  obtain ⟨e0, e1, e2, e3, e4, e5⟩ := idx_facts0 ⟨(i 0).val / 1024, hlt⟩
  have e5' : win0_2.index ⟨(i 0).val / 1024, hlt⟩ (0 : Fin 2) = (i 0).val / 1024 := e5
  intro a
  match a with
  | ⟨0, _⟩ =>
    show win0_2.index ⟨(i 0).val / 1024, hlt⟩ (0 : Fin 2) * 1024 ≤ (i 0).val ∧ (i 0).val < win0_2.index ⟨(i 0).val / 1024, hlt⟩ (0 : Fin 2) * 1024 + 1024
    omega
  | ⟨1, _⟩ =>
    show win0_2.index ⟨(i 0).val / 1024, hlt⟩ (1 : Fin 2) * 3072 ≤ (i 1).val ∧ (i 1).val < win0_2.index ⟨(i 0).val / 1024, hlt⟩ (1 : Fin 2) * 3072 + 3072
    omega

/-- The output array after the call: the product of the two input arrays as the call found them. -/
theorem final0 (c : Dev nD) : (dat0 V c).arrAt 2 cfg0.N = rowsTimes0 (V c main_v6) (V c main_v2) :=
  (dat0 V c).arrAt_eq_of_cover 2 _ (fun t _ => flushed0_eq V c t) (cover0)

/-! ## Pallas call 2: the output projection -/

/-- Rows of `a` times the matrix `w`: entry (r, c) is the sum over k of a[r, k] · w[k, c]. -/
def rowsTimes2 (a : S8192x1024.Idx → EReal) (w : S1024x1024.Idx → EReal) : S8192x1024.Idx → EReal :=
  fun i => ∑ k : Fin 1024, a (ix2 (i 0) k) * w (ix2 k (i 1))

/-- Row `p` of a block times column `q` of a block is entry `i` of the product of the arrays, once the block's row is the
    array's row `i 0` and the block's column is the array's column `i 1`. -/
theorem blk_sum2 (xa : S1024x1024.Idx → EReal) (xw : S1024x1024.Idx → EReal) (A : S8192x1024.Idx → EReal) (Wt : S1024x1024.Idx → EReal)
    (p : Fin 1024) (q : Fin 1024) (i : S8192x1024.Idx)
    (ha : ∀ k : Fin 1024, xa (ix2 p k) = A (ix2 (i 0) k)) (hw : ∀ k : Fin 1024, xw (ix2 k q) = Wt (ix2 k (i 1))) :
    ∑ k : Fin 1024, xa (ix2 p k) * xw (ix2 k q) = rowsTimes2 A Wt i := by
  unfold rowsTimes2
  exact Finset.sum_congr rfl fun k _ => by rw [ha k, hw k]

/-- The block index maps over the grid of eight row blocks: the activations' block and the output's block are row block
    `t`, all columns; the weight's block is the whole matrix. -/
theorem idx_facts2 : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) = t.val :=
  (by decide +kernel : ∀ t : Fin grid2.N, _)

/-- What grid point `t` writes back is block `t` of the product of the whole arrays as the call finds them. -/
theorem flushed2_eq (c : Dev nD) (t : Fin cfg2.N) :
    (dat2 V c).flushed 2 t = ((cfg2.win 2).blk t).view.read (Elt Ideal) (rowsTimes2 (V c main_v22) (V c main_v4)) := by
  show (cfg2.win 2).cut (grid2.coords t) ((dat2 V c).after 2 t) = _
  rw [after2_2]
  unfold out2_2
  rw [View.canon_unit_zero hz2]
  simp only [View.ld_unit_zero (S := S1024x1024) hz2, View.ld_unit_zero (S := S1024x1024) hz2]
  obtain ⟨e0, e1, e2, e3, e4, e5⟩ := idx_facts2 t
  funext j
  obtain ⟨p, q, rfl⟩ : ∃ (p : Fin 1024) (q : Fin 1024), j = ix2 p q := ⟨j 0, j 1, eq_ix2 j⟩
  refine (Cert.KernelIdeal.Pay.k2_pay1_apply (iblk2 V c 0 t) (iblk2 V c 1 t) p q).trans ?_
  refine blk_sum2 _ _ (V c main_v22) (V c main_v4) p q (((cfg2.win 2).blk t).view.emb (ix2 p q)) (fun k => ?_) (fun k => ?_)
  · show V c main_v22 (((cfg2.win 0).blk t).view.emb (ix2 p k)) = _
    refine congrArg (V c main_v22) (funext fun a => Fin.ext ?_)
    match a with
    | ⟨0, _⟩ => show win2_0.index t (0 : Fin 2) * 1024 + 1 * p.val = win2_2.index t (0 : Fin 2) * 1024 + 1 * p.val; omega
    | ⟨1, _⟩ => show win2_0.index t (1 : Fin 2) * 1024 + 1 * k.val = k.val; omega
  · show V c main_v4 (((cfg2.win 1).blk t).view.emb (ix2 k q)) = _
    refine congrArg (V c main_v4) (funext fun a => Fin.ext ?_)
    match a with
    | ⟨0, _⟩ => show win2_1.index t (0 : Fin 2) * 1024 + 1 * k.val = k.val; omega
    | ⟨1, _⟩ => show win2_1.index t (1 : Fin 2) * 1024 + 1 * q.val = win2_2.index t (1 : Fin 2) * 1024 + 1 * q.val; omega

/-- An index of the output array lies in point `t`'s block iff each coordinate lies in the block's range on its axis. -/
theorem mem_blk2 (t : Fin cfg2.N) (i : S8192x1024.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v23).slice (win2_2.rect t)).set ↔ _
  rw [View.set_slice_whole, Rect.mem_set_unit]
  exact Iff.rfl

/-- Every index of the output array is written: row r by the point r / 1024. -/
theorem cover2 (i : S8192x1024.Idx) : ∃ t : Fin cfg2.N, (cfg2.win 2).flush t = true ∧ i ∈ ((cfg2.win 2).blk t).view.set := by
  have hi0 : (i 0).val < 8192 := (i 0).isLt
  have hi1 : (i 1).val < 1024 := (i 1).isLt
  have hlt : (i 0).val / 1024 < grid2.N := by rw [N_2]; omega
  refine ⟨⟨(i 0).val / 1024, hlt⟩, flush2_2 _, ?_⟩
  rw [mem_blk2]
  obtain ⟨e0, e1, e2, e3, e4, e5⟩ := idx_facts2 ⟨(i 0).val / 1024, hlt⟩
  have e5' : win2_2.index ⟨(i 0).val / 1024, hlt⟩ (0 : Fin 2) = (i 0).val / 1024 := e5
  intro a
  match a with
  | ⟨0, _⟩ =>
    show win2_2.index ⟨(i 0).val / 1024, hlt⟩ (0 : Fin 2) * 1024 ≤ (i 0).val ∧ (i 0).val < win2_2.index ⟨(i 0).val / 1024, hlt⟩ (0 : Fin 2) * 1024 + 1024
    omega
  | ⟨1, _⟩ =>
    show win2_2.index ⟨(i 0).val / 1024, hlt⟩ (1 : Fin 2) * 1024 ≤ (i 1).val ∧ (i 1).val < win2_2.index ⟨(i 0).val / 1024, hlt⟩ (1 : Fin 2) * 1024 + 1024
    omega

/-- The output array after the call: the product of the two input arrays as the call found them. -/
theorem final2 (c : Dev nD) : (dat2 V c).arrAt 2 cfg2.N = rowsTimes2 (V c main_v22) (V c main_v4) :=
  (dat2 V c).arrAt_eq_of_cover 2 _ (fun t _ => flushed2_eq V c t) (cover2)

end Cert.KernelIdeal.Hand

end
-- ==== Proof.Spec.lean ====
/-
  Multi-head self-attention over the extended reals, as ONE function of the five argument arrays, index by index.

  Shapes: activations x[b, s, i] with b < 4, s < 2048, i < 1024; four weight matrices w[d, i] with d, i < 1024; sixteen heads
  of width 64, column d = 64 h + e of the model axis belonging to head h at offset e.

    proj x w b s d   = sum over i of x[b,s,i] * w[d,i]                      (a linear layer with no bias: x times w transposed)
    score b h q k    = (sum over e of Q[b,q,64h+e] * K[b,k,64h+e]) * (1/8)  (1/8 is one over the square root of the head width 64)
    rowMax b h q     = the maximum over k of score b h q k, starting from minus infinity
    expo b h q k     = exp (score b h q k - rowMax b h q)
    prob b h q k     = expo b h q k / (sum over k' of expo b h q k')         (the softmax over the keys)
    ctx b s h e      = sum over k of prob b h s k * V[b,k,64h+e]
    out[b, s, m]     = sum over d of ctx b s (d / 64) (d % 64) * wo[m, d]

  with Q = proj x wq, K = proj x wk, V = proj x wv. No program is mentioned here: the kernel program and the reference program
  are each shown to compute `out`.
-/
import Idealize.ShloMosaic.PureOps.Ideal
import Idealize.ShloMosaic.Lib.ValueIdx

noncomputable section

namespace Cert.Spec

open Idealize.ShloMosaic Idealize.ShloMosaic.ValueIdx

/-- The activations' and the result's shape, and a weight matrix's. -/
abbrev SX : Shape := ⟨3, ![4, 2048, 1024]⟩
abbrev SW : Shape := ⟨2, ![1024, 1024]⟩

/-- Column `64 h + e` of the model axis: offset `e` of head `h`. -/
def col (h : Fin 16) (e : Fin 64) : Fin 1024 := ⟨h.val * 64 + e.val, by omega⟩

/-- The head of a model column and its offset inside the head. -/
def headOf (d : Fin 1024) : Fin 16 := ⟨d.val / 64, by omega⟩
def offOf (d : Fin 1024) : Fin 64 := ⟨d.val % 64, by omega⟩

theorem col_head_off (d : Fin 1024) : col (headOf d) (offOf d) = d := by
  apply Fin.ext; simp only [col, headOf, offOf]; omega

/-- One over the square root of the head width, as an extended real. -/
def eighth : EReal := ((1 / 8 : ℝ) : EReal)

variable (x : SX.Idx → EReal) (wq wk wv wo : SW.Idx → EReal)

/-- A bias-free linear layer: row `(b, s)` of the activations against row `d` of the weight matrix. -/
def proj (w : SW.Idx → EReal) (b : Fin 4) (s : Fin 2048) (d : Fin 1024) : EReal :=
  ∑ i : Fin 1024, x (ix3 b s i) * w (ix2 d i)

/-- The scaled dot product of query `q` and key `k` of head `h` in batch `b`. -/
def score (b : Fin 4) (h : Fin 16) (q k : Fin 2048) : EReal :=
  (∑ e : Fin 64, proj x wq b q (col h e) * proj x wk b k (col h e)) * eighth

/-- The largest score of a query's row, from minus infinity. -/
def rowMax (b : Fin 4) (h : Fin 16) (q : Fin 2048) : EReal :=
  (Finset.univ : Finset (Fin 2048)).fold max (⊥ : EReal) (fun k => score x wq wk b h q k)

def expo (b : Fin 4) (h : Fin 16) (q k : Fin 2048) : EReal :=
  Ideal.exp (score x wq wk b h q k - rowMax x wq wk b h q)

def rowSum (b : Fin 4) (h : Fin 16) (q : Fin 2048) : EReal :=
  ∑ k : Fin 2048, expo x wq wk b h q k

/-- The softmax weight of key `k` for query `q`. -/
def prob (b : Fin 4) (h : Fin 16) (q k : Fin 2048) : EReal :=
  Ideal.div (expo x wq wk b h q k) (rowSum x wq wk b h q)

/-- The attended value at offset `e` of head `h` for position `s` of batch `b`. -/
def ctx (b : Fin 4) (s : Fin 2048) (h : Fin 16) (e : Fin 64) : EReal :=
  ∑ k : Fin 2048, prob x wq wk b h s k * proj x wv b k (col h e)

/-- The same over a model column. -/
def ctxCol (b : Fin 4) (s : Fin 2048) (d : Fin 1024) : EReal :=
  ctx x wq wk wv b s (headOf d) (offOf d)

/-- Multi-head self-attention: the output projection of the merged heads. -/
def out : SX.Idx → EReal := fun i =>
  ∑ d : Fin 1024, ctxCol x wq wk wv (i 0) (i 1) d * wo (ix2 (i 2) d)

end Cert.Spec

end
-- ==== Proof.Consts.lean ====
/-
  The float words the two programs spell, as the extended reals they denote: 0.125 is one eighth, the word of minus infinity is
  the bottom element, 64.0 is sixty-four — whose square root is eight, so that dividing by it is multiplying by one eighth on
  every extended real, the infinities included.
-/
import proofs.«102749_j60086592471644_1_alg».proof.Proof.Spec

noncomputable section

namespace Cert.Consts

open Idealize.ShloMosaic

theorem ofBits_eighth : Ideal.ofBits .f32 0x3E000000#32 = Cert.Spec.eighth := by
  unfold Cert.Spec.eighth
  simp [Ideal.ofBits, Ideal.ieee, -EReal.coe_mul]; norm_num

theorem ofBits_neg_inf : Ideal.ofBits .f32 0xFF800000#32 = (⊥ : EReal) := by
  simp [Ideal.ofBits, Ideal.ieee]

theorem ofBits_64 : Ideal.ofBits .f32 0x42800000#32 = ((64 : ℝ) : EReal) := by
  simp [Ideal.ofBits, Ideal.ieee, -EReal.coe_mul]; norm_num

theorem sqrt_64 : Real.sqrt 64 = 8 := by
  rw [show (64 : ℝ) = 8 ^ 2 by norm_num]; exact Real.sqrt_sq (by norm_num)

/-- Dividing by the square root of the word 64.0 is multiplying by one eighth, on every extended real. -/
theorem div_sqrt_64 (x : EReal) :
    Ideal.div x (Ideal.sqrt (Ideal.ofBits .f32 0x42800000#32)) = x * Cert.Spec.eighth := by
  rw [ofBits_64, Ideal.sqrt_coe, if_neg (by norm_num), sqrt_64, Ideal.div_coe (by norm_num)]
  rfl

end Cert.Consts

end
-- ==== Proof.PayAttn.lean ====
/-
  One head's block of softmax attention, read off the attention kernel's arithmetic index by index, over the extended reals.

  For a block `q` of 1024 query rows and the 2048 key rows `k` and value rows `v` of the same head (rows 64 wide), the value the
  kernel stores at query row `p` and head offset `e` is

      sum over j of (ex p j / sum over j' of ex p j') * v[j, e],     ex p j = exp (sc p j - mx p),
      sc p j = (sum over e of q[p, e] * k[j, e]) * (1/8),            mx p = max over j of sc p j, from minus infinity.

  The steps: each of the two contractions read at an index as a sum over its one contracted axis (the unit batch axis and the
  free axes read through); the lane maximum and the lane sum over the key axis read as a fold of `max` from the bottom element
  and as a finite sum; a per-row value kept as a column and broadcast over the keys read as the row's value; the scale word
  as one eighth and the word of minus infinity as the bottom element; the narrowing format changes as the identity.
-/
import proofs.«102749_j60086592471644_1_alg».proof.Proof.Gen.KernelIdeal.Skeleton
import proofs.«102749_j60086592471644_1_alg».proof.Proof.Consts
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal.Gen

/-! ## One head's block of attention over the extended reals

  With `q` a block of 1024 query rows and `k`, `v` the 2048 key and value rows of the same head, each row 64 wide:

    sc p j = (sum over e of q[p, e] * k[j, e]) * (1/8)         (the scaled dot product)
    mx p   = the maximum over j of sc p j, from minus infinity
    ex p j = exp (sc p j - mx p)
    the result at (p, e) = sum over j of (ex p j / sum over j' of ex p j') * v[j, e].                        -/

/-- The scaled dot product of query row `p` and key row `j`. -/
def sc (q : Vec Ideal S1x1024x64 .bf16) (k : Vec Ideal S1x2048x64 .bf16) (p : Fin 1024) (j : Fin 2048) : EReal :=
  (∑ e : Fin 64, q (ix3 0 p e) * k (ix3 0 j e)) * Cert.Spec.eighth

/-- The largest score of row `p`, from minus infinity. -/
def mx (q : Vec Ideal S1x1024x64 .bf16) (k : Vec Ideal S1x2048x64 .bf16) (p : Fin 1024) : EReal :=
  (Finset.univ : Finset (Fin 2048)).fold max (⊥ : EReal) (fun j => sc q k p j)

/-- The exponential of a score less its row's maximum. -/
def ex (q : Vec Ideal S1x1024x64 .bf16) (k : Vec Ideal S1x2048x64 .bf16) (p : Fin 1024) (j : Fin 2048) : EReal :=
  Ideal.exp (sc q k p j - mx q k p)

/-! ## The two contractions -/

/-- The scores' contraction: one batch axis of extent one, the query row on axis 1, the key row on axis 2, the
    head offset contracted. -/
abbrev DQK : DotDims S1x1024x64 S1x2048x64 S1x1024x2048 := dot_S1x1024x64_S1x2048x64_S1x1024x2048_2_2_1_1_0_0

/-- The weighted sum of the values: the key row contracted. -/
abbrev DPV : DotDims S1x1024x2048 S1x2048x64 S1x1024x64 := dot_S1x1024x2048_S1x2048x64_S1x1024x64_2_1_1_2_0_0

theorem qk_lhs0 (i : S1x1024x2048.Idx) (c : DQK.contr.Idx) : (DQK.lhsIdx i c 0).val = (i 0).val := by
  unfold DotDims.lhsIdx
  rw [dif_pos (show (0 : Fin S1x1024x64.rank) ∈ DQK.lhsBatch by decide)]
  rfl
theorem qk_lhs1 (i : S1x1024x2048.Idx) (c : DQK.contr.Idx) : (DQK.lhsIdx i c 1).val = (i 1).val := by
  unfold DotDims.lhsIdx
  rw [dif_neg (show ¬(1 : Fin S1x1024x64.rank) ∈ DQK.lhsBatch by decide),
    dif_pos (show (1 : Fin S1x1024x64.rank) ∈ DQK.lhsNonContracting by decide)]
  rfl
theorem qk_lhs2 (i : S1x1024x2048.Idx) (c : DQK.contr.Idx) : (DQK.lhsIdx i c 2).val = (c ⟨0, by decide⟩).val :=
  DQK.lhsIdx_val_of_single rfl i c
theorem qk_rhs0 (i : S1x1024x2048.Idx) (c : DQK.contr.Idx) : (DQK.rhsIdx i c 0).val = (i 0).val := by
  unfold DotDims.rhsIdx
  rw [dif_pos (show (0 : Fin S1x2048x64.rank) ∈ DQK.rhsBatch by decide)]
  rfl
theorem qk_rhs1 (i : S1x1024x2048.Idx) (c : DQK.contr.Idx) : (DQK.rhsIdx i c 1).val = (i 2).val := by
  unfold DotDims.rhsIdx
  rw [dif_neg (show ¬(1 : Fin S1x2048x64.rank) ∈ DQK.rhsBatch by decide),
    dif_pos (show (1 : Fin S1x2048x64.rank) ∈ DQK.rhsNonContracting by decide)]
  rfl
theorem qk_rhs2 (i : S1x1024x2048.Idx) (c : DQK.contr.Idx) : (DQK.rhsIdx i c 2).val = (c ⟨0, by decide⟩).val :=
  DQK.rhsIdx_val_of_single rfl i c

/-- The scores' contraction read at query row `p` and key row `j`: the sum over the head offset. -/
theorem matmul_qk_apply (q : FVec Ideal S1x1024x64 .bf16) (k : FVec Ideal S1x2048x64 .bf16) (p : Fin 1024) (j : Fin 2048) :
    matmul DQK none q k (constant (F := Ideal) S1x1024x2048 .f32 0x00000000#32) (ix3 0 p j)
      = ∑ e : Fin 64, q (ix3 0 p e) * k (ix3 0 j e) := by
  show FloatOps.matmul DQK none q k (constant (F := Ideal) S1x1024x2048 .f32 0x00000000#32) (ix3 0 p j) = _
  rw [Ideal.matmul_constant_zero_apply, ← Equiv.sum_comp (ValueIdx.contrEquiv1 DQK 64 rfl rfl).symm]
  refine Finset.sum_congr rfl fun e _ => ?_
  have he := ValueIdx.contrEquiv1_symm_val DQK 64 rfl rfl e
  have el : DQK.lhsIdx (ix3 0 p j) ((ValueIdx.contrEquiv1 DQK 64 rfl rfl).symm e) = ix3 0 p e := funext fun a => Fin.ext (by
    match a with
    | ⟨0, _⟩ => exact qk_lhs0 _ _
    | ⟨1, _⟩ => exact qk_lhs1 _ _
    | ⟨2, _⟩ => exact (qk_lhs2 _ _).trans he)
  have er : DQK.rhsIdx (ix3 0 p j) ((ValueIdx.contrEquiv1 DQK 64 rfl rfl).symm e) = ix3 0 j e := funext fun a => Fin.ext (by
    match a with
    | ⟨0, _⟩ => exact qk_rhs0 _ _
    | ⟨1, _⟩ => exact qk_rhs1 _ _
    | ⟨2, _⟩ => exact (qk_rhs2 _ _).trans he)
  rw [el, er]

theorem pv_lhs0 (i : S1x1024x64.Idx) (c : DPV.contr.Idx) : (DPV.lhsIdx i c 0).val = (i 0).val := by
  unfold DotDims.lhsIdx
  rw [dif_pos (show (0 : Fin S1x1024x2048.rank) ∈ DPV.lhsBatch by decide)]
  rfl
theorem pv_lhs1 (i : S1x1024x64.Idx) (c : DPV.contr.Idx) : (DPV.lhsIdx i c 1).val = (i 1).val := by
  unfold DotDims.lhsIdx
  rw [dif_neg (show ¬(1 : Fin S1x1024x2048.rank) ∈ DPV.lhsBatch by decide),
    dif_pos (show (1 : Fin S1x1024x2048.rank) ∈ DPV.lhsNonContracting by decide)]
  rfl
theorem pv_lhs2 (i : S1x1024x64.Idx) (c : DPV.contr.Idx) : (DPV.lhsIdx i c 2).val = (c ⟨0, by decide⟩).val :=
  DPV.lhsIdx_val_of_single rfl i c
theorem pv_rhs0 (i : S1x1024x64.Idx) (c : DPV.contr.Idx) : (DPV.rhsIdx i c 0).val = (i 0).val := by
  unfold DotDims.rhsIdx
  rw [dif_pos (show (0 : Fin S1x2048x64.rank) ∈ DPV.rhsBatch by decide)]
  rfl
theorem pv_rhs1 (i : S1x1024x64.Idx) (c : DPV.contr.Idx) : (DPV.rhsIdx i c 1).val = (c ⟨0, by decide⟩).val :=
  DPV.rhsIdx_val_of_single rfl i c
theorem pv_rhs2 (i : S1x1024x64.Idx) (c : DPV.contr.Idx) : (DPV.rhsIdx i c 2).val = (i 2).val := by
  unfold DotDims.rhsIdx
  rw [dif_neg (show ¬(2 : Fin S1x2048x64.rank) ∈ DPV.rhsBatch by decide),
    dif_pos (show (2 : Fin S1x2048x64.rank) ∈ DPV.rhsNonContracting by decide)]
  rfl

/-- The weighted sum read at query row `p` and head offset `e`: the sum over the key rows. -/
theorem matmul_pv_apply (w : FVec Ideal S1x1024x2048 .bf16) (v : FVec Ideal S1x2048x64 .bf16) (p : Fin 1024) (e : Fin 64) :
    matmul DPV none w v (constant (F := Ideal) S1x1024x64 .f32 0x00000000#32) (ix3 0 p e)
      = ∑ j : Fin 2048, w (ix3 0 p j) * v (ix3 0 j e) := by
  show FloatOps.matmul DPV none w v (constant (F := Ideal) S1x1024x64 .f32 0x00000000#32) (ix3 0 p e) = _
  rw [Ideal.matmul_constant_zero_apply, ← Equiv.sum_comp (ValueIdx.contrEquiv1 DPV 2048 rfl rfl).symm]
  refine Finset.sum_congr rfl fun j _ => ?_
  have hj := ValueIdx.contrEquiv1_symm_val DPV 2048 rfl rfl j
  have el : DPV.lhsIdx (ix3 0 p e) ((ValueIdx.contrEquiv1 DPV 2048 rfl rfl).symm j) = ix3 0 p j := funext fun a => Fin.ext (by
    match a with
    | ⟨0, _⟩ => exact pv_lhs0 _ _
    | ⟨1, _⟩ => exact pv_lhs1 _ _
    | ⟨2, _⟩ => exact (pv_lhs2 _ _).trans hj)
  have er : DPV.rhsIdx (ix3 0 p e) ((ValueIdx.contrEquiv1 DPV 2048 rfl rfl).symm j) = ix3 0 j e := funext fun a => Fin.ext (by
    match a with
    | ⟨0, _⟩ => exact pv_rhs0 _ _
    | ⟨1, _⟩ => exact (pv_rhs1 _ _).trans hj
    | ⟨2, _⟩ => exact pv_rhs2 _ _)
  rw [el, er]

/-! ## The two lane reductions over the key axis -/

/-- The key axis put back into a row index: `(0, p)` with `j` inserted on axis 2 is `(0, p, j)`. -/
theorem lift_key (p : Fin 1024) (j : Fin 2048) :
    reduces_S1x1024x2048_S1x1024.lift (ix2 (0 : Fin 1) p) j = ix3 (0 : Fin 1) p j :=
  funext fun a => Fin.ext (by
    match a with
    | ⟨0, _⟩ => rfl
    | ⟨1, _⟩ => rfl
    | ⟨2, _⟩ => rfl)

/-- The lane maximum from minus infinity, at row `p`: the fold of `max` from the bottom element over the keys. -/
theorem rowmax_apply (x : FVec Ideal S1x1024x2048 .f32) (p : Fin 1024) :
    multiReduction .maximumf [2] S1x1024 x 0xFF800000#32 reduces_S1x1024x2048_S1x1024 (.inl rfl) rfl (ix2 0 p)
      = (Finset.univ : Finset (Fin 2048)).fold max (⊥ : EReal) (fun j => x (ix3 0 p j)) := by
  refine (Ideal.multiReduction_maximumf_single x 0xFF800000#32 reduces_S1x1024x2048_S1x1024 (.inl rfl) rfl (ix2 0 p)).trans ?_
  show (Finset.univ : Finset (Fin 2048)).fold max (Ideal.ofBits .f32 0xFF800000#32)
      (fun j => x (reduces_S1x1024x2048_S1x1024.lift (ix2 (0 : Fin 1) p) j)) = _
  rw [Cert.Consts.ofBits_neg_inf]
  exact congrArg (fun f : Fin 2048 → EReal => (Finset.univ : Finset (Fin 2048)).fold max (⊥ : EReal) f)
    (funext fun j => congrArg x (lift_key p j))

/-- The lane sum at row `p`: the sum over the keys. -/
theorem rowsum_apply (x : FVec Ideal S1x1024x2048 .f32) (p : Fin 1024) :
    multiReduction .add [2] S1x1024 x 0x00000000#32 reduces_S1x1024x2048_S1x1024 (.inl rfl) rfl (ix2 0 p)
      = ∑ j : Fin 2048, x (ix3 0 p j) := by
  refine (Ideal.multiReduction_add_single x 0x00000000#32 reduces_S1x1024x2048_S1x1024 (.inl rfl) rfl (ix2 0 p)).trans ?_
  show ∑ j : Fin 2048, x (reduces_S1x1024x2048_S1x1024.lift (ix2 (0 : Fin 1) p) j) = _
  exact Finset.sum_congr rfl fun j _ => congrArg x (lift_key p j)

/-! ## A row statistic spread back over the keys -/

/-- A `[1, 1024]` array viewed `[1, 1024, 1]` reads, at `(u, p, w)`, the operand at `(0, p)`. -/
theorem shapeCast_col_apply {α : Type} (y : S1x1024.Idx → α) (h : S1x1024.ShapeCasts S1x1024x1) (u : Fin 1) (p : Fin 1024) (w : Fin 1) :
    shapeCast S1x1024x1 y h (ix3 u p w) = y (ix2 (0 : Fin 1) p) :=
  shapeCast_apply y h _ _ (by
    have hu : u.val = 0 := by omega
    have hw : w.val = 0 := by omega
    rw [Shape.rowMajor_val_two, Shape.rowMajor_val_three]
    show 0 * 1024 + p.val = (u.val * 1024 + p.val) * 1 + w.val
    rw [hu, hw]; omega)

/-- A `[1, 1024, 1]` column broadcast to `[1, 1024, 2048]` reads, at `(0, p, j)`, the column at `(0, p, 0)`. -/
theorem broadcastTo_col_apply {α : Type} (y : S1x1024x1.Idx → α) (h : S1x1024x1.Broadcasts S1x1024x2048) (p : Fin 1024) (j : Fin 2048) :
    broadcastTo S1x1024x2048 y h (ix3 (0 : Fin 1) p j) = y (ix3 (0 : Fin 1) p (0 : Fin 1)) := by
  refine broadcastTo_apply y h _ _ fun ax => ?_
  match ax with
  | ⟨0, _⟩ => rfl
  | ⟨1, _⟩ => rfl
  | ⟨2, _⟩ => rfl

/-- Both together: a per-row value kept as a column and spread over the keys reads the row's value. -/
theorem keepdims_apply (y : FVec Ideal S1x1024 .f32) (p : Fin 1024) (j : Fin 2048) :
    broadcastTo S1x1024x2048 (shapeCast S1x1024x1 y shapeCasts_S1x1024_S1x1024x1) broadcasts_S1x1024x1_S1x1024x2048 (ix3 0 p j)
      = y (ix2 0 p) :=
  (broadcastTo_col_apply _ _ p j).trans (shapeCast_col_apply y _ 0 p 0)

/-! ## The payload's intermediate arrays, each read at an index -/

/-- The scaled scores as an array. -/
def scoreV (q : FVec Ideal S1x1024x64 .bf16) (k : FVec Ideal S1x2048x64 .bf16) : FVec Ideal S1x1024x2048 .f32 :=
  mulf (matmul DQK none q k (constant (F := Ideal) S1x1024x2048 .f32 0x00000000#32))
    (broadcast S1x1024x2048 (Scalar.ofBits (F := Ideal) .f32 0x3E000000#32))

theorem scoreV_apply (q : FVec Ideal S1x1024x64 .bf16) (k : FVec Ideal S1x2048x64 .bf16) (p : Fin 1024) (j : Fin 2048) :
    scoreV q k (ix3 0 p j) = sc q k p j := by
  unfold scoreV sc
  rw [mulf_apply, matmul_qk_apply, broadcast_apply]
  exact congrArg _ Cert.Consts.ofBits_eighth

/-- The row maxima as an array: the lane maximum, joined once more with minus infinity. -/
def maxV (q : FVec Ideal S1x1024x64 .bf16) (k : FVec Ideal S1x2048x64 .bf16) : FVec Ideal S1x1024 .f32 :=
  maximumf (broadcast S1x1024 (Scalar.ofBits (F := Ideal) .f32 0xFF800000#32))
    (multiReduction .maximumf [2] S1x1024 (scoreV q k) 0xFF800000#32 reduces_S1x1024x2048_S1x1024 (.inl rfl) rfl)

theorem maxV_apply (q : FVec Ideal S1x1024x64 .bf16) (k : FVec Ideal S1x2048x64 .bf16) (p : Fin 1024) :
    maxV q k (ix2 0 p) = mx q k p := by
  unfold maxV mx
  rw [maximumf_apply, broadcast_apply, rowmax_apply]
  show max (Ideal.ofBits .f32 0xFF800000#32) _ = _
  rw [Cert.Consts.ofBits_neg_inf, max_bot_left]
  exact congrArg (fun f : Fin 2048 → EReal => (Finset.univ : Finset (Fin 2048)).fold max (⊥ : EReal) f)
    (funext fun j => scoreV_apply q k p j)

/-- The exponentials as an array. -/
def expV (q : FVec Ideal S1x1024x64 .bf16) (k : FVec Ideal S1x2048x64 .bf16) : FVec Ideal S1x1024x2048 .f32 :=
  exp (subf (scoreV q k)
    (broadcastTo S1x1024x2048 (shapeCast S1x1024x1 (maxV q k) shapeCasts_S1x1024_S1x1024x1) broadcasts_S1x1024x1_S1x1024x2048))

theorem expV_apply (q : FVec Ideal S1x1024x64 .bf16) (k : FVec Ideal S1x2048x64 .bf16) (p : Fin 1024) (j : Fin 2048) :
    expV q k (ix3 0 p j) = ex q k p j := by
  unfold expV ex
  show Ideal.exp (subf (scoreV q k) _ (ix3 0 p j)) = _
  rw [subf_apply, keepdims_apply, scoreV_apply, maxV_apply]

/-- The rows' sums of exponentials as an array. -/
def sumV (q : FVec Ideal S1x1024x64 .bf16) (k : FVec Ideal S1x2048x64 .bf16) : FVec Ideal S1x1024 .f32 :=
  multiReduction .add [2] S1x1024 (expV q k) 0x00000000#32 reduces_S1x1024x2048_S1x1024 (.inl rfl) rfl

theorem sumV_apply (q : FVec Ideal S1x1024x64 .bf16) (k : FVec Ideal S1x2048x64 .bf16) (p : Fin 1024) :
    sumV q k (ix2 0 p) = ∑ j : Fin 2048, ex q k p j := by
  unfold sumV
  rw [rowsum_apply]
  exact Finset.sum_congr rfl fun j _ => expV_apply q k p j

/-- The softmax weights as an array (the narrowing to the storage format is the identity on extended reals). -/
def probV (q : FVec Ideal S1x1024x64 .bf16) (k : FVec Ideal S1x2048x64 .bf16) : FVec Ideal S1x1024x2048 .bf16 :=
  truncf .bf16 (divf (expV q k)
    (broadcastTo S1x1024x2048 (shapeCast S1x1024x1 (sumV q k) shapeCasts_S1x1024_S1x1024x1) broadcasts_S1x1024x1_S1x1024x2048))
    bitsLt_bf16_f32

theorem probV_apply (q : FVec Ideal S1x1024x64 .bf16) (k : FVec Ideal S1x2048x64 .bf16) (p : Fin 1024) (j : Fin 2048) :
    probV q k (ix3 0 p j) = Ideal.div (ex q k p j) (∑ j' : Fin 2048, ex q k p j') := by
  unfold probV
  rw [truncf_apply, divf_apply, keepdims_apply, expV_apply, sumV_apply]

/-- The attention payload is these arrays put together: by unfolding. -/
theorem k1_pay1_eq (q : Vec Ideal S1x1024x64 .bf16) (k v : Vec Ideal S1x2048x64 .bf16) :
    k1_pay1 (F := Ideal) q k v
      = truncf .bf16 (matmul DPV none
          (probV (shapeCast S1x1024x64 q shapeCasts_S1x1024x64_S1x1024x64) (shapeCast S1x2048x64 k shapeCasts_S1x2048x64_S1x2048x64))
          (shapeCast S1x2048x64 v shapeCasts_S1x2048x64_S1x2048x64 : FVec Ideal S1x2048x64 .bf16)
          (constant (F := Ideal) S1x1024x64 .f32 0x00000000#32)) bitsLt_bf16_f32 := rfl

/-- THE ATTENTION PAYLOAD AT AN INDEX: at query row `p` and head offset `e`, the softmax-weighted sum of the values. -/
theorem k1_pay1_apply (q : Vec Ideal S1x1024x64 .bf16) (k v : Vec Ideal S1x2048x64 .bf16) (p : Fin 1024) (e : Fin 64) :
    k1_pay1 (F := Ideal) q k v (ix3 0 p e)
      = ∑ j : Fin 2048, Ideal.div (ex q k p j) (∑ j' : Fin 2048, ex q k p j') * v (ix3 0 j e) := by
  rw [k1_pay1_eq, shapeCast_self, shapeCast_self, shapeCast_self, truncf_apply, matmul_pv_apply]
  exact Finset.sum_congr rfl fun j _ => congrArg (· * v (ix3 0 j e)) (probV_apply q k p j)

end Cert.KernelIdeal.Pay

end
-- ==== Proof.KI.BlocksAttn.lean ====
/-
  The attention call, from blocks to the whole array. Grid point (g, half) takes 1024 query rows of head-instance g (one of the
  64 batch × head pairs) and all 2048 keys and values of g, and writes back the same 1024 rows of the output; the two halves of
  the 64 instances tile the output. So after the call, row s of instance g is the softmax-weighted sum of g's values, the weights
  being the softmax over the keys of the scaled dot products of query row s with the keys.
-/
import proofs.«102749_j60086592471644_1_alg».proof.Proof.KI.Body1
import proofs.«102749_j60086592471644_1_alg».proof.Proof.PayAttn
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz3 : (![0, 0, 0] : Fin 3 → Nat) = fun _ => 0 := funext fun a => by fin_cases a <;> rfl

/-! ## Attention over whole arrays of 64 head-instances -/

/-- The scaled dot product of query row `s` and key row `j` of instance `g`. -/
def scoreA (Q K : S64x2048x64.Idx → EReal) (g : Fin 64) (s j : Fin 2048) : EReal :=
  (∑ e : Fin 64, Q (ix3 g s e) * K (ix3 g j e)) * Cert.Spec.eighth
def rowMaxA (Q K : S64x2048x64.Idx → EReal) (g : Fin 64) (s : Fin 2048) : EReal :=
  (Finset.univ : Finset (Fin 2048)).fold max (⊥ : EReal) (fun j => scoreA Q K g s j)
def expoA (Q K : S64x2048x64.Idx → EReal) (g : Fin 64) (s j : Fin 2048) : EReal :=
  Ideal.exp (scoreA Q K g s j - rowMaxA Q K g s)
/-- Softmax attention, entry by entry. -/
def attend (Q K W : S64x2048x64.Idx → EReal) : S64x2048x64.Idx → EReal := fun i =>
  ∑ j : Fin 2048, Ideal.div (expoA Q K (i 0) (i 1) j) (∑ j' : Fin 2048, expoA Q K (i 0) (i 1) j') * W (ix3 (i 0) j (i 2))

/-- The block index maps over the grid of 64 × 2 points: the queries' and the output's blocks are rows half·1024 … of instance
    g; the keys' and the values' blocks are all of instance g. -/
theorem idx_facts1 : ∀ t : Fin cfg1.N,
    win1_0.index t (0 : Fin 3) = win1_3.index t (0 : Fin 3) ∧ win1_0.index t (1 : Fin 3) = win1_3.index t (1 : Fin 3) ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (2 : Fin 3) = 0 ∧ win1_3.index t (0 : Fin 3) < 64 ∧ win1_3.index t (1 : Fin 3) < 2 :=
  (by decide +kernel : ∀ t : Fin grid1.N, _)

/-- Every (instance, half) is some grid point's output block. -/
theorem idx_onto1 : ∀ (q0 : Fin 64) (q1 : Fin 2), ∃ t : Fin cfg1.N, win1_3.index t = ![q0.val, q1.val, 0] :=
  (by decide +kernel : ∀ (q0 : Fin 64) (q1 : Fin 2), ∃ t : Fin grid1.N, win1_3.index t = ![q0.val, q1.val, 0])

/-- What grid point `t` writes back is block `t` of the attention of the whole arrays as the call finds them. -/
theorem flushed1_eq (c : Dev nD) (t : Fin cfg1.N) :
    (dat1 V c).flushed 3 t = ((cfg1.win 3).blk t).view.read (Elt Ideal) (attend (V c main_v12) (V c main_v15) (V c main_v18)) := by
  show (cfg1.win 3).cut (grid1.coords t) ((dat1 V c).after 3 t) = _
  rw [after1_3]
  unfold out1_3
  rw [View.canon_unit_zero hz3]
  simp only [View.ld_unit_zero (S := S1x1024x64) hz3, View.ld_unit_zero (S := S1x2048x64) hz3]
  obtain ⟨a0, a1, a2, b0, b1, b2, c0, c1, c2, d2, d0, d1⟩ := idx_facts1 t
  funext y
  obtain ⟨z, p, e, rfl⟩ : ∃ (z : Fin 1) (p : Fin 1024) (e : Fin 64), y = ix3 z p e := ⟨y 0, y 1, y 2, eq_ix3 y⟩
  obtain rfl : z = 0 := Subsingleton.elim _ _
  refine (Cert.KernelIdeal.Pay.k1_pay1_apply (iblk1 V c 0 t) (iblk1 V c 1 t) (iblk1 V c 2 t) p e).trans ?_
  have hq : ∀ e' : Fin 64, iblk1 V c 0 t (ix3 0 p e')
      = V c main_v12 (ix3 ((((cfg1.win 3).blk t).view.emb (ix3 0 p e)) 0) ((((cfg1.win 3).blk t).view.emb (ix3 0 p e)) 1) e') := fun e' => by
    show V c main_v12 (((cfg1.win 0).blk t).view.emb (ix3 0 p e')) = _
    refine congrArg (V c main_v12) (funext fun a => Fin.ext ?_)
    match a with
    | ⟨0, _⟩ => show win1_0.index t (0 : Fin 3) * 1 + 1 * 0 = win1_3.index t (0 : Fin 3) * 1 + 1 * 0; omega
    | ⟨1, _⟩ => show win1_0.index t (1 : Fin 3) * 1024 + 1 * p.val = win1_3.index t (1 : Fin 3) * 1024 + 1 * p.val; omega
    | ⟨2, _⟩ => show win1_0.index t (2 : Fin 3) * 64 + 1 * e'.val = e'.val; omega
  have hk : ∀ (j : Fin 2048) (e' : Fin 64), iblk1 V c 1 t (ix3 0 j e')
      = V c main_v15 (ix3 ((((cfg1.win 3).blk t).view.emb (ix3 0 p e)) 0) j e') := fun j e' => by
    show V c main_v15 (((cfg1.win 1).blk t).view.emb (ix3 0 j e')) = _
    refine congrArg (V c main_v15) (funext fun a => Fin.ext ?_)
    match a with
    | ⟨0, _⟩ => show win1_1.index t (0 : Fin 3) * 1 + 1 * 0 = win1_3.index t (0 : Fin 3) * 1 + 1 * 0; omega
    | ⟨1, _⟩ => show win1_1.index t (1 : Fin 3) * 2048 + 1 * j.val = j.val; omega
    | ⟨2, _⟩ => show win1_1.index t (2 : Fin 3) * 64 + 1 * e'.val = e'.val; omega
  have hv : ∀ j : Fin 2048, iblk1 V c 2 t (ix3 0 j e)
      = V c main_v18 (ix3 ((((cfg1.win 3).blk t).view.emb (ix3 0 p e)) 0) j ((((cfg1.win 3).blk t).view.emb (ix3 0 p e)) 2)) := fun j => by
    show V c main_v18 (((cfg1.win 2).blk t).view.emb (ix3 0 j e)) = _
    refine congrArg (V c main_v18) (funext fun a => Fin.ext ?_)
    match a with
    | ⟨0, _⟩ => show win1_2.index t (0 : Fin 3) * 1 + 1 * 0 = win1_3.index t (0 : Fin 3) * 1 + 1 * 0; omega
    | ⟨1, _⟩ => show win1_2.index t (1 : Fin 3) * 2048 + 1 * j.val = j.val; omega
    | ⟨2, _⟩ => show win1_2.index t (2 : Fin 3) * 64 + 1 * e.val = win1_3.index t (2 : Fin 3) * 64 + 1 * e.val; omega
  show _ = attend (V c main_v12) (V c main_v15) (V c main_v18) (((cfg1.win 3).blk t).view.emb (ix3 0 p e))
  simp only [attend, expoA, rowMaxA, scoreA, Cert.KernelIdeal.Pay.ex, Cert.KernelIdeal.Pay.mx, Cert.KernelIdeal.Pay.sc, hq, hk, hv]

theorem mem_blk1 (t : Fin cfg1.N) (i : S64x2048x64.Idx) :
    i ∈ ((cfg1.win 3).blk t).view.set ↔ ∀ a : Fin 3, win1_3.index t a * S1x1024x64.size a ≤ (i a).val ∧ (i a).val < win1_3.index t a * S1x1024x64.size a + S1x1024x64.size a := by
  show i ∈ ((View.whole main_v19).slice (win1_3.rect t)).set ↔ _
  rw [View.set_slice_whole, Rect.mem_set_unit]
  exact Iff.rfl

/-- Every index of the output is written: row s of instance g by the point (g, s / 1024). -/
theorem cover1 (i : S64x2048x64.Idx) : ∃ t : Fin cfg1.N, (cfg1.win 3).flush t = true ∧ i ∈ ((cfg1.win 3).blk t).view.set := by
  have hi0 : (i 0).val < 64 := (i 0).isLt
  have hi1 : (i 1).val < 2048 := (i 1).isLt
  have hi2 : (i 2).val < 64 := (i 2).isLt
  obtain ⟨t, ht⟩ := idx_onto1 ⟨(i 0).val, hi0⟩ ⟨(i 1).val / 1024, by omega⟩
  have q0 : win1_3.index t (0 : Fin 3) = (i 0).val := congrFun ht 0
  have q1 : win1_3.index t (1 : Fin 3) = (i 1).val / 1024 := congrFun ht 1
  have q2 : win1_3.index t (2 : Fin 3) = 0 := congrFun ht 2
  refine ⟨t, flush1_3 t, ?_⟩
  rw [mem_blk1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 64 ≤ (i 2).val ∧ (i 2).val < win1_3.index t (2 : Fin 3) * 64 + 64; omega

/-- The output array after the call: the attention of the three input arrays as the call found them. -/
theorem final1 (c : Dev nD) : (dat1 V c).arrAt 3 cfg1.N = attend (V c main_v12) (V c main_v15) (V c main_v18) :=
  (dat1 V c).arrAt_eq_of_cover 3 _ (fun t _ => flushed1_eq V c t) (cover1)

end Cert.KernelIdeal.Hand

end
-- ==== Proof.Layout.lean ====
/-
  The layout steps between the three kernel calls, read at an index.

  Between the calls the program only moves entries: it stacks and transposes the weights, flattens the batch and
  position axes of the activations into rows, splits the fused projection's columns into (part, head, offset) and
  regroups them per head, and merges the heads back into columns. Each lemma below says which entry of the operand an
  entry of the result is. A reshape keeps the row-major position of an entry; a transpose permutes the coordinates; a
  slice shifts them; a change of format is the identity over the extended reals.

  Every lemma comes in two forms: `…_of_eq`, over composite coordinates the caller names together with the equation that
  defines their value, and `…_apply`, with those coordinates written out.
-/
import proofs.«102749_j60086592471644_1_alg».proof.Proof.Gen.KernelIdeal
import Idealize.ShloMosaic.Lib.Pipeline.Value
import Idealize.ShloMosaic.Lib.ValueIdx
import Idealize.ShloMosaic.Lib.ValueLayout

noncomputable section

namespace Cert.KernelIdeal.Lay

open Cert.KernelIdeal Cert.KernelIdeal.Gen Idealize.ShloMosaic Idealize.ShloMosaic.ValueIdx Idealize.SL.Sem

/-! ## The weights -/

/-- Column `c = 0·1024 + d` of the fused weight, at row `i`: entry `(d, i)` of the first weight matrix. The fused
    weight stacks the three matrices along the rows and is then transposed, so its column `c` is row `c` of the stack. -/
theorem fusedW0_of_eq (w0 w1 w2 : Vec Ideal S1024x1024 .f32) (i : Fin 1024) (d : Fin 1024) (c : Fin 3072)
    (hc : c.val = 0 * 1024 + d.val) :
    transpose S1024x3072 [1, 0] (truncf (F := Ideal) .bf16 (concatenate S3072x1024 0 [⟨S1024x1024, w0⟩, ⟨S1024x1024, w1⟩, ⟨S1024x1024, w2⟩] concatenates_S1024x1024_S1024x1024_S1024x1024_S3072x1024_d0) bitsLt_bf16_f32) transposes_S3072x1024_S1024x3072_1_0 (ix2 i c)
      = w0 (ix2 d i) := by
  refine (transpose_ix2_apply (a := 3072) (b := 1024) (truncf (F := Ideal) .bf16 (concatenate S3072x1024 0 [⟨S1024x1024, w0⟩, ⟨S1024x1024, w1⟩, ⟨S1024x1024, w2⟩] concatenates_S1024x1024_S1024x1024_S1024x1024_S3072x1024_d0) bitsLt_bf16_f32) transposes_S3072x1024_S1024x3072_1_0 i c).trans ?_
  show concatenate S3072x1024 0 [⟨S1024x1024, w0⟩, ⟨S1024x1024, w1⟩, ⟨S1024x1024, w2⟩] concatenates_S1024x1024_S1024x1024_S1024x1024_S3072x1024_d0 (ix2 c i) = w0 (ix2 d i)
  exact concatenate_apply_piece (t := S3072x1024) 0 [⟨S1024x1024, w0⟩, ⟨S1024x1024, w1⟩, ⟨S1024x1024, w2⟩] concatenates_S1024x1024_S1024x1024_S1024x1024_S3072x1024_d0 (ix2 c i)
    0 (show 0 < 3 by omega) S1024x1024 w0 rfl rfl (0 * 1024) rfl (ix2 d i)
    (fun b hb => match b, hb with
      | ⟨0, _⟩, hb => absurd rfl hb
      | ⟨1, _⟩, _ => rfl)
    (show 0 * 1024 + d.val = c.val from hc.symm)

/-- The same with the column written out. -/
theorem fusedW0_apply (w0 w1 w2 : Vec Ideal S1024x1024 .f32) (i : Fin 1024) (d : Fin 1024) :
    transpose S1024x3072 [1, 0] (truncf (F := Ideal) .bf16 (concatenate S3072x1024 0 [⟨S1024x1024, w0⟩, ⟨S1024x1024, w1⟩, ⟨S1024x1024, w2⟩] concatenates_S1024x1024_S1024x1024_S1024x1024_S3072x1024_d0) bitsLt_bf16_f32) transposes_S3072x1024_S1024x3072_1_0 (ix2 i (⟨0 * 1024 + d.val, by omega⟩ : Fin 3072))
      = w0 (ix2 d i) :=
  fusedW0_of_eq w0 w1 w2 i d _ rfl

/-- Column `c = 1·1024 + d` of the fused weight, at row `i`: entry `(d, i)` of the second weight matrix. The fused
    weight stacks the three matrices along the rows and is then transposed, so its column `c` is row `c` of the stack. -/
theorem fusedW1_of_eq (w0 w1 w2 : Vec Ideal S1024x1024 .f32) (i : Fin 1024) (d : Fin 1024) (c : Fin 3072)
    (hc : c.val = 1 * 1024 + d.val) :
    transpose S1024x3072 [1, 0] (truncf (F := Ideal) .bf16 (concatenate S3072x1024 0 [⟨S1024x1024, w0⟩, ⟨S1024x1024, w1⟩, ⟨S1024x1024, w2⟩] concatenates_S1024x1024_S1024x1024_S1024x1024_S3072x1024_d0) bitsLt_bf16_f32) transposes_S3072x1024_S1024x3072_1_0 (ix2 i c)
      = w1 (ix2 d i) := by
  refine (transpose_ix2_apply (a := 3072) (b := 1024) (truncf (F := Ideal) .bf16 (concatenate S3072x1024 0 [⟨S1024x1024, w0⟩, ⟨S1024x1024, w1⟩, ⟨S1024x1024, w2⟩] concatenates_S1024x1024_S1024x1024_S1024x1024_S3072x1024_d0) bitsLt_bf16_f32) transposes_S3072x1024_S1024x3072_1_0 i c).trans ?_
  show concatenate S3072x1024 0 [⟨S1024x1024, w0⟩, ⟨S1024x1024, w1⟩, ⟨S1024x1024, w2⟩] concatenates_S1024x1024_S1024x1024_S1024x1024_S3072x1024_d0 (ix2 c i) = w1 (ix2 d i)
  exact concatenate_apply_piece (t := S3072x1024) 0 [⟨S1024x1024, w0⟩, ⟨S1024x1024, w1⟩, ⟨S1024x1024, w2⟩] concatenates_S1024x1024_S1024x1024_S1024x1024_S3072x1024_d0 (ix2 c i)
    1 (show 1 < 3 by omega) S1024x1024 w1 rfl rfl (1 * 1024) rfl (ix2 d i)
    (fun b hb => match b, hb with
      | ⟨0, _⟩, hb => absurd rfl hb
      | ⟨1, _⟩, _ => rfl)
    (show 1 * 1024 + d.val = c.val from hc.symm)

/-- The same with the column written out. -/
theorem fusedW1_apply (w0 w1 w2 : Vec Ideal S1024x1024 .f32) (i : Fin 1024) (d : Fin 1024) :
    transpose S1024x3072 [1, 0] (truncf (F := Ideal) .bf16 (concatenate S3072x1024 0 [⟨S1024x1024, w0⟩, ⟨S1024x1024, w1⟩, ⟨S1024x1024, w2⟩] concatenates_S1024x1024_S1024x1024_S1024x1024_S3072x1024_d0) bitsLt_bf16_f32) transposes_S3072x1024_S1024x3072_1_0 (ix2 i (⟨1 * 1024 + d.val, by omega⟩ : Fin 3072))
      = w1 (ix2 d i) :=
  fusedW1_of_eq w0 w1 w2 i d _ rfl

/-- Column `c = 2·1024 + d` of the fused weight, at row `i`: entry `(d, i)` of the third weight matrix. The fused
    weight stacks the three matrices along the rows and is then transposed, so its column `c` is row `c` of the stack. -/
theorem fusedW2_of_eq (w0 w1 w2 : Vec Ideal S1024x1024 .f32) (i : Fin 1024) (d : Fin 1024) (c : Fin 3072)
    (hc : c.val = 2 * 1024 + d.val) :
    transpose S1024x3072 [1, 0] (truncf (F := Ideal) .bf16 (concatenate S3072x1024 0 [⟨S1024x1024, w0⟩, ⟨S1024x1024, w1⟩, ⟨S1024x1024, w2⟩] concatenates_S1024x1024_S1024x1024_S1024x1024_S3072x1024_d0) bitsLt_bf16_f32) transposes_S3072x1024_S1024x3072_1_0 (ix2 i c)
      = w2 (ix2 d i) := by
  refine (transpose_ix2_apply (a := 3072) (b := 1024) (truncf (F := Ideal) .bf16 (concatenate S3072x1024 0 [⟨S1024x1024, w0⟩, ⟨S1024x1024, w1⟩, ⟨S1024x1024, w2⟩] concatenates_S1024x1024_S1024x1024_S1024x1024_S3072x1024_d0) bitsLt_bf16_f32) transposes_S3072x1024_S1024x3072_1_0 i c).trans ?_
  show concatenate S3072x1024 0 [⟨S1024x1024, w0⟩, ⟨S1024x1024, w1⟩, ⟨S1024x1024, w2⟩] concatenates_S1024x1024_S1024x1024_S1024x1024_S3072x1024_d0 (ix2 c i) = w2 (ix2 d i)
  exact concatenate_apply_piece (t := S3072x1024) 0 [⟨S1024x1024, w0⟩, ⟨S1024x1024, w1⟩, ⟨S1024x1024, w2⟩] concatenates_S1024x1024_S1024x1024_S1024x1024_S3072x1024_d0 (ix2 c i)
    2 (show 2 < 3 by omega) S1024x1024 w2 rfl rfl (2 * 1024) rfl (ix2 d i)
    (fun b hb => match b, hb with
      | ⟨0, _⟩, hb => absurd rfl hb
      | ⟨1, _⟩, _ => rfl)
    (show 2 * 1024 + d.val = c.val from hc.symm)

/-- The same with the column written out. -/
theorem fusedW2_apply (w0 w1 w2 : Vec Ideal S1024x1024 .f32) (i : Fin 1024) (d : Fin 1024) :
    transpose S1024x3072 [1, 0] (truncf (F := Ideal) .bf16 (concatenate S3072x1024 0 [⟨S1024x1024, w0⟩, ⟨S1024x1024, w1⟩, ⟨S1024x1024, w2⟩] concatenates_S1024x1024_S1024x1024_S1024x1024_S3072x1024_d0) bitsLt_bf16_f32) transposes_S3072x1024_S1024x3072_1_0 (ix2 i (⟨2 * 1024 + d.val, by omega⟩ : Fin 3072))
      = w2 (ix2 d i) :=
  fusedW2_of_eq w0 w1 w2 i d _ rfl

/-- The output weight transposed: entry `(d, m)` is entry `(m, d)` of the weight. -/
theorem woT_apply (wo : Vec Ideal S1024x1024 .f32) (d m : Fin 1024) :
    transpose S1024x1024 [1, 0] (truncf (F := Ideal) .bf16 wo bitsLt_bf16_f32) transposes_S1024x1024_S1024x1024_1_0 (ix2 d m) = wo (ix2 m d) := by
  refine (transpose_ix2_apply (a := 1024) (b := 1024) (truncf (F := Ideal) .bf16 wo bitsLt_bf16_f32) transposes_S1024x1024_S1024x1024_1_0 d m).trans ?_
  rfl

/-! ## The activations as rows -/

/-- Row `2048 b + s` of the flattened activations is position `s` of batch `b`. -/
theorem xRows_of_eq (x : Vec Ideal S4x2048x1024 .f32) (b : Fin 4) (s : Fin 2048) (i : Fin 1024) (R : Fin 8192)
    (hR : R.val = b.val * 2048 + s.val) :
    truncf (F := Ideal) .bf16 (shapeCast S8192x1024 x shapeCasts_S4x2048x1024_S8192x1024) bitsLt_bf16_f32 (ix2 R i) = x (ix3 b s i) := by
  show shapeCast S8192x1024 x shapeCasts_S4x2048x1024_S8192x1024 (ix2 R i) = x (ix3 b s i)
  exact shapeCast_apply (s := S4x2048x1024) (t := S8192x1024) x shapeCasts_S4x2048x1024_S8192x1024 (ix2 R i) (ix3 b s i) (by
    rw [Shape.rowMajor_val_three, Shape.rowMajor_val_two]
    show (b.val * 2048 + s.val) * 1024 + i.val = R.val * 1024 + i.val
    rw [hR])

/-- The same with the row written out. -/
theorem xRows_apply (x : Vec Ideal S4x2048x1024 .f32) (b : Fin 4) (s : Fin 2048) (i : Fin 1024) :
    truncf (F := Ideal) .bf16 (shapeCast S8192x1024 x shapeCasts_S4x2048x1024_S8192x1024) bitsLt_bf16_f32 (ix2 (⟨b.val * 2048 + s.val, by omega⟩ : Fin 8192) i) = x (ix3 b s i) :=
  xRows_of_eq x b s i _ rfl

/-! ## Split heads -/

/-- Split heads, part 0 of the fused projection: entry `(16 b + h, s, e)` of the per-head array is entry
    `(2048 b + s, 0·1024 + 64 h + e)` of the projection's result. The five layout steps, outermost first: two reshapes that
    keep the row-major position, the slice at 0 on the leading axis, the transpose `[2, 0, 3, 1, 4]`, and the reshape of the
    `[8192, 3072]` result to `[4, 2048, 3, 16, 64]`. -/
theorem split0_of_eq {α : Type} (a : S8192x3072.Idx → α) (b : Fin 4) (h : Fin 16) (s : Fin 2048) (e : Fin 64)
    (r : Fin 64) (hr : r.val = b.val * 16 + h.val) (R : Fin 8192) (hR : R.val = b.val * 2048 + s.val)
    (C : Fin 3072) (hC : C.val = 0 * 1024 + h.val * 64 + e.val) :
    shapeCast S64x2048x64 (shapeCast S4x16x2048x64 (extractStridedSlice S1x4x16x2048x64 ![0, 0, 0, 0, 0] (transpose S3x4x16x2048x64 [2, 0, 3, 1, 4] (shapeCast S4x2048x3x16x64 a shapeCasts_S8192x3072_S4x2048x3x16x64) transposes_S4x2048x3x16x64_S3x4x16x2048x64_2_0_3_1_4) slices_S3x4x16x2048x64_S1x4x16x2048x64_0_0_0_0_0) shapeCasts_S1x4x16x2048x64_S4x16x2048x64) shapeCasts_S4x16x2048x64_S64x2048x64 (ix3 r s e)
      = a (ix2 R C) := by
  refine (shapeCast_apply (s := S4x16x2048x64) (t := S64x2048x64) _ shapeCasts_S4x16x2048x64_S64x2048x64 (ix3 r s e) (ix4 b h s e) (by
    rw [Shape.rowMajor_val_four, Shape.rowMajor_val_three]
    show ((b.val * 16 + h.val) * 2048 + s.val) * 64 + e.val = (r.val * 2048 + s.val) * 64 + e.val
    rw [hr])).trans ?_
  refine (shapeCast_apply (s := S1x4x16x2048x64) (t := S4x16x2048x64) _ shapeCasts_S1x4x16x2048x64_S4x16x2048x64 (ix4 b h s e) (ix5 (0 : Fin 1) b h s e) (by
    rw [Shape.rowMajor_val_five, Shape.rowMajor_val_four]
    show ((((0 * 4 + b.val) * 16 + h.val) * 2048 + s.val) * 64 + e.val) = ((b.val * 16 + h.val) * 2048 + s.val) * 64 + e.val
    omega)).trans ?_
  refine (extractStridedSlice_apply (s := S3x4x16x2048x64) (t := S1x4x16x2048x64) ![0, 0, 0, 0, 0] _ slices_S3x4x16x2048x64_S1x4x16x2048x64_0_0_0_0_0 (ix5 (0 : Fin 1) b h s e) (ix5 (0 : Fin 3) b h s e) (fun ax => by
    match ax with
    | ⟨0, _⟩ => rfl
    | ⟨1, _⟩ => exact (Nat.zero_add _).symm
    | ⟨2, _⟩ => exact (Nat.zero_add _).symm
    | ⟨3, _⟩ => exact (Nat.zero_add _).symm
    | ⟨4, _⟩ => exact (Nat.zero_add _).symm)).trans ?_
  refine (transpose_apply (s := S4x2048x3x16x64) (t := S3x4x16x2048x64) [2, 0, 3, 1, 4] _ transposes_S4x2048x3x16x64_S3x4x16x2048x64_2_0_3_1_4 (ix5 (0 : Fin 3) b h s e) (ix5 b s (0 : Fin 3) h e) (fun c => match c with
    | ⟨0, _⟩ => rfl
    | ⟨1, _⟩ => rfl
    | ⟨2, _⟩ => rfl
    | ⟨3, _⟩ => rfl
    | ⟨4, _⟩ => rfl)).trans ?_
  exact shapeCast_apply (s := S8192x3072) (t := S4x2048x3x16x64) a shapeCasts_S8192x3072_S4x2048x3x16x64 (ix5 b s (0 : Fin 3) h e) (ix2 R C) (by
    rw [Shape.rowMajor_val_two, Shape.rowMajor_val_five]
    show R.val * 3072 + C.val = (((b.val * 2048 + s.val) * 3 + 0) * 16 + h.val) * 64 + e.val
    rw [hR, hC]; omega)

/-- The same with the three composite coordinates written out. -/
theorem split0_apply {α : Type} (a : S8192x3072.Idx → α) (b : Fin 4) (h : Fin 16) (s : Fin 2048) (e : Fin 64) :
    shapeCast S64x2048x64 (shapeCast S4x16x2048x64 (extractStridedSlice S1x4x16x2048x64 ![0, 0, 0, 0, 0] (transpose S3x4x16x2048x64 [2, 0, 3, 1, 4] (shapeCast S4x2048x3x16x64 a shapeCasts_S8192x3072_S4x2048x3x16x64) transposes_S4x2048x3x16x64_S3x4x16x2048x64_2_0_3_1_4) slices_S3x4x16x2048x64_S1x4x16x2048x64_0_0_0_0_0) shapeCasts_S1x4x16x2048x64_S4x16x2048x64) shapeCasts_S4x16x2048x64_S64x2048x64 (ix3 (⟨b.val * 16 + h.val, by omega⟩ : Fin 64) s e)
      = a (ix2 (⟨b.val * 2048 + s.val, by omega⟩ : Fin 8192) (⟨0 * 1024 + h.val * 64 + e.val, by omega⟩ : Fin 3072)) :=
  split0_of_eq a b h s e _ rfl _ rfl _ rfl

/-- Split heads, part 1 of the fused projection: entry `(16 b + h, s, e)` of the per-head array is entry
    `(2048 b + s, 1·1024 + 64 h + e)` of the projection's result. The five layout steps, outermost first: two reshapes that
    keep the row-major position, the slice at 1 on the leading axis, the transpose `[2, 0, 3, 1, 4]`, and the reshape of the
    `[8192, 3072]` result to `[4, 2048, 3, 16, 64]`. -/
theorem split1_of_eq {α : Type} (a : S8192x3072.Idx → α) (b : Fin 4) (h : Fin 16) (s : Fin 2048) (e : Fin 64)
    (r : Fin 64) (hr : r.val = b.val * 16 + h.val) (R : Fin 8192) (hR : R.val = b.val * 2048 + s.val)
    (C : Fin 3072) (hC : C.val = 1 * 1024 + h.val * 64 + e.val) :
    shapeCast S64x2048x64 (shapeCast S4x16x2048x64 (extractStridedSlice S1x4x16x2048x64 ![1, 0, 0, 0, 0] (transpose S3x4x16x2048x64 [2, 0, 3, 1, 4] (shapeCast S4x2048x3x16x64 a shapeCasts_S8192x3072_S4x2048x3x16x64) transposes_S4x2048x3x16x64_S3x4x16x2048x64_2_0_3_1_4) slices_S3x4x16x2048x64_S1x4x16x2048x64_1_0_0_0_0) shapeCasts_S1x4x16x2048x64_S4x16x2048x64) shapeCasts_S4x16x2048x64_S64x2048x64 (ix3 r s e)
      = a (ix2 R C) := by
  refine (shapeCast_apply (s := S4x16x2048x64) (t := S64x2048x64) _ shapeCasts_S4x16x2048x64_S64x2048x64 (ix3 r s e) (ix4 b h s e) (by
    rw [Shape.rowMajor_val_four, Shape.rowMajor_val_three]
    show ((b.val * 16 + h.val) * 2048 + s.val) * 64 + e.val = (r.val * 2048 + s.val) * 64 + e.val
    rw [hr])).trans ?_
  refine (shapeCast_apply (s := S1x4x16x2048x64) (t := S4x16x2048x64) _ shapeCasts_S1x4x16x2048x64_S4x16x2048x64 (ix4 b h s e) (ix5 (0 : Fin 1) b h s e) (by
    rw [Shape.rowMajor_val_five, Shape.rowMajor_val_four]
    show ((((0 * 4 + b.val) * 16 + h.val) * 2048 + s.val) * 64 + e.val) = ((b.val * 16 + h.val) * 2048 + s.val) * 64 + e.val
    omega)).trans ?_
  refine (extractStridedSlice_apply (s := S3x4x16x2048x64) (t := S1x4x16x2048x64) ![1, 0, 0, 0, 0] _ slices_S3x4x16x2048x64_S1x4x16x2048x64_1_0_0_0_0 (ix5 (0 : Fin 1) b h s e) (ix5 (1 : Fin 3) b h s e) (fun ax => by
    match ax with
    | ⟨0, _⟩ => rfl
    | ⟨1, _⟩ => exact (Nat.zero_add _).symm
    | ⟨2, _⟩ => exact (Nat.zero_add _).symm
    | ⟨3, _⟩ => exact (Nat.zero_add _).symm
    | ⟨4, _⟩ => exact (Nat.zero_add _).symm)).trans ?_
  refine (transpose_apply (s := S4x2048x3x16x64) (t := S3x4x16x2048x64) [2, 0, 3, 1, 4] _ transposes_S4x2048x3x16x64_S3x4x16x2048x64_2_0_3_1_4 (ix5 (1 : Fin 3) b h s e) (ix5 b s (1 : Fin 3) h e) (fun c => match c with
    | ⟨0, _⟩ => rfl
    | ⟨1, _⟩ => rfl
    | ⟨2, _⟩ => rfl
    | ⟨3, _⟩ => rfl
    | ⟨4, _⟩ => rfl)).trans ?_
  exact shapeCast_apply (s := S8192x3072) (t := S4x2048x3x16x64) a shapeCasts_S8192x3072_S4x2048x3x16x64 (ix5 b s (1 : Fin 3) h e) (ix2 R C) (by
    rw [Shape.rowMajor_val_two, Shape.rowMajor_val_five]
    show R.val * 3072 + C.val = (((b.val * 2048 + s.val) * 3 + 1) * 16 + h.val) * 64 + e.val
    rw [hR, hC]; omega)

/-- The same with the three composite coordinates written out. -/
theorem split1_apply {α : Type} (a : S8192x3072.Idx → α) (b : Fin 4) (h : Fin 16) (s : Fin 2048) (e : Fin 64) :
    shapeCast S64x2048x64 (shapeCast S4x16x2048x64 (extractStridedSlice S1x4x16x2048x64 ![1, 0, 0, 0, 0] (transpose S3x4x16x2048x64 [2, 0, 3, 1, 4] (shapeCast S4x2048x3x16x64 a shapeCasts_S8192x3072_S4x2048x3x16x64) transposes_S4x2048x3x16x64_S3x4x16x2048x64_2_0_3_1_4) slices_S3x4x16x2048x64_S1x4x16x2048x64_1_0_0_0_0) shapeCasts_S1x4x16x2048x64_S4x16x2048x64) shapeCasts_S4x16x2048x64_S64x2048x64 (ix3 (⟨b.val * 16 + h.val, by omega⟩ : Fin 64) s e)
      = a (ix2 (⟨b.val * 2048 + s.val, by omega⟩ : Fin 8192) (⟨1 * 1024 + h.val * 64 + e.val, by omega⟩ : Fin 3072)) :=
  split1_of_eq a b h s e _ rfl _ rfl _ rfl

/-- Split heads, part 2 of the fused projection: entry `(16 b + h, s, e)` of the per-head array is entry
    `(2048 b + s, 2·1024 + 64 h + e)` of the projection's result. The five layout steps, outermost first: two reshapes that
    keep the row-major position, the slice at 2 on the leading axis, the transpose `[2, 0, 3, 1, 4]`, and the reshape of the
    `[8192, 3072]` result to `[4, 2048, 3, 16, 64]`. -/
theorem split2_of_eq {α : Type} (a : S8192x3072.Idx → α) (b : Fin 4) (h : Fin 16) (s : Fin 2048) (e : Fin 64)
    (r : Fin 64) (hr : r.val = b.val * 16 + h.val) (R : Fin 8192) (hR : R.val = b.val * 2048 + s.val)
    (C : Fin 3072) (hC : C.val = 2 * 1024 + h.val * 64 + e.val) :
    shapeCast S64x2048x64 (shapeCast S4x16x2048x64 (extractStridedSlice S1x4x16x2048x64 ![2, 0, 0, 0, 0] (transpose S3x4x16x2048x64 [2, 0, 3, 1, 4] (shapeCast S4x2048x3x16x64 a shapeCasts_S8192x3072_S4x2048x3x16x64) transposes_S4x2048x3x16x64_S3x4x16x2048x64_2_0_3_1_4) slices_S3x4x16x2048x64_S1x4x16x2048x64_2_0_0_0_0) shapeCasts_S1x4x16x2048x64_S4x16x2048x64) shapeCasts_S4x16x2048x64_S64x2048x64 (ix3 r s e)
      = a (ix2 R C) := by
  refine (shapeCast_apply (s := S4x16x2048x64) (t := S64x2048x64) _ shapeCasts_S4x16x2048x64_S64x2048x64 (ix3 r s e) (ix4 b h s e) (by
    rw [Shape.rowMajor_val_four, Shape.rowMajor_val_three]
    show ((b.val * 16 + h.val) * 2048 + s.val) * 64 + e.val = (r.val * 2048 + s.val) * 64 + e.val
    rw [hr])).trans ?_
  refine (shapeCast_apply (s := S1x4x16x2048x64) (t := S4x16x2048x64) _ shapeCasts_S1x4x16x2048x64_S4x16x2048x64 (ix4 b h s e) (ix5 (0 : Fin 1) b h s e) (by
    rw [Shape.rowMajor_val_five, Shape.rowMajor_val_four]
    show ((((0 * 4 + b.val) * 16 + h.val) * 2048 + s.val) * 64 + e.val) = ((b.val * 16 + h.val) * 2048 + s.val) * 64 + e.val
    omega)).trans ?_
  refine (extractStridedSlice_apply (s := S3x4x16x2048x64) (t := S1x4x16x2048x64) ![2, 0, 0, 0, 0] _ slices_S3x4x16x2048x64_S1x4x16x2048x64_2_0_0_0_0 (ix5 (0 : Fin 1) b h s e) (ix5 (2 : Fin 3) b h s e) (fun ax => by
    match ax with
    | ⟨0, _⟩ => rfl
    | ⟨1, _⟩ => exact (Nat.zero_add _).symm
    | ⟨2, _⟩ => exact (Nat.zero_add _).symm
    | ⟨3, _⟩ => exact (Nat.zero_add _).symm
    | ⟨4, _⟩ => exact (Nat.zero_add _).symm)).trans ?_
  refine (transpose_apply (s := S4x2048x3x16x64) (t := S3x4x16x2048x64) [2, 0, 3, 1, 4] _ transposes_S4x2048x3x16x64_S3x4x16x2048x64_2_0_3_1_4 (ix5 (2 : Fin 3) b h s e) (ix5 b s (2 : Fin 3) h e) (fun c => match c with
    | ⟨0, _⟩ => rfl
    | ⟨1, _⟩ => rfl
    | ⟨2, _⟩ => rfl
    | ⟨3, _⟩ => rfl
    | ⟨4, _⟩ => rfl)).trans ?_
  exact shapeCast_apply (s := S8192x3072) (t := S4x2048x3x16x64) a shapeCasts_S8192x3072_S4x2048x3x16x64 (ix5 b s (2 : Fin 3) h e) (ix2 R C) (by
    rw [Shape.rowMajor_val_two, Shape.rowMajor_val_five]
    show R.val * 3072 + C.val = (((b.val * 2048 + s.val) * 3 + 2) * 16 + h.val) * 64 + e.val
    rw [hR, hC]; omega)

/-- The same with the three composite coordinates written out. -/
theorem split2_apply {α : Type} (a : S8192x3072.Idx → α) (b : Fin 4) (h : Fin 16) (s : Fin 2048) (e : Fin 64) :
    shapeCast S64x2048x64 (shapeCast S4x16x2048x64 (extractStridedSlice S1x4x16x2048x64 ![2, 0, 0, 0, 0] (transpose S3x4x16x2048x64 [2, 0, 3, 1, 4] (shapeCast S4x2048x3x16x64 a shapeCasts_S8192x3072_S4x2048x3x16x64) transposes_S4x2048x3x16x64_S3x4x16x2048x64_2_0_3_1_4) slices_S3x4x16x2048x64_S1x4x16x2048x64_2_0_0_0_0) shapeCasts_S1x4x16x2048x64_S4x16x2048x64) shapeCasts_S4x16x2048x64_S64x2048x64 (ix3 (⟨b.val * 16 + h.val, by omega⟩ : Fin 64) s e)
      = a (ix2 (⟨b.val * 2048 + s.val, by omega⟩ : Fin 8192) (⟨2 * 1024 + h.val * 64 + e.val, by omega⟩ : Fin 3072)) :=
  split2_of_eq a b h s e _ rfl _ rfl _ rfl

/-! ## Merge heads -/

/-- Merge heads: entry `(2048 b + s, 64 h + e)` of the merged array is entry `(16 b + h, s, e)` of the per-head array. -/
theorem merge_of_eq {α : Type} (a : S64x2048x64.Idx → α) (b : Fin 4) (h : Fin 16) (s : Fin 2048) (e : Fin 64)
    (R : Fin 8192) (hR : R.val = b.val * 2048 + s.val) (C : Fin 1024) (hC : C.val = h.val * 64 + e.val)
    (r : Fin 64) (hr : r.val = b.val * 16 + h.val) :
    shapeCast S8192x1024 (transpose S4x2048x16x64 [0, 2, 1, 3] (shapeCast S4x16x2048x64 a shapeCasts_S64x2048x64_S4x16x2048x64) transposes_S4x16x2048x64_S4x2048x16x64_0_2_1_3) shapeCasts_S4x2048x16x64_S8192x1024 (ix2 R C)
      = a (ix3 r s e) := by
  refine (shapeCast_apply (s := S4x2048x16x64) (t := S8192x1024) _ shapeCasts_S4x2048x16x64_S8192x1024 (ix2 R C) (ix4 b s h e) (by
    rw [Shape.rowMajor_val_four, Shape.rowMajor_val_two]
    show ((b.val * 2048 + s.val) * 16 + h.val) * 64 + e.val = R.val * 1024 + C.val
    rw [hR, hC]; omega)).trans ?_
  refine (transpose_apply (s := S4x16x2048x64) (t := S4x2048x16x64) [0, 2, 1, 3] _ transposes_S4x16x2048x64_S4x2048x16x64_0_2_1_3 (ix4 b s h e) (ix4 b h s e) (fun c => match c with
    | ⟨0, _⟩ => rfl
    | ⟨1, _⟩ => rfl
    | ⟨2, _⟩ => rfl
    | ⟨3, _⟩ => rfl)).trans ?_
  exact shapeCast_apply (s := S64x2048x64) (t := S4x16x2048x64) a shapeCasts_S64x2048x64_S4x16x2048x64 (ix4 b h s e) (ix3 r s e) (by
    rw [Shape.rowMajor_val_three, Shape.rowMajor_val_four]
    show (r.val * 2048 + s.val) * 64 + e.val = ((b.val * 16 + h.val) * 2048 + s.val) * 64 + e.val
    rw [hr])

/-- The same with the three composite coordinates written out. -/
theorem merge_apply {α : Type} (a : S64x2048x64.Idx → α) (b : Fin 4) (h : Fin 16) (s : Fin 2048) (e : Fin 64) :
    shapeCast S8192x1024 (transpose S4x2048x16x64 [0, 2, 1, 3] (shapeCast S4x16x2048x64 a shapeCasts_S64x2048x64_S4x16x2048x64) transposes_S4x16x2048x64_S4x2048x16x64_0_2_1_3) shapeCasts_S4x2048x16x64_S8192x1024 (ix2 (⟨b.val * 2048 + s.val, by omega⟩ : Fin 8192) (⟨h.val * 64 + e.val, by omega⟩ : Fin 1024))
      = a (ix3 (⟨b.val * 16 + h.val, by omega⟩ : Fin 64) s e) :=
  merge_of_eq a b h s e _ rfl _ rfl _ rfl

/-! ## The result's rows back to batch and position -/

/-- Position `s` of batch `b` of the result is row `2048 b + s` of the last call's output. -/
theorem unrows_of_eq {α : Type} (a : S8192x1024.Idx → α) (b : Fin 4) (s : Fin 2048) (m : Fin 1024) (R : Fin 8192)
    (hR : R.val = b.val * 2048 + s.val) :
    shapeCast S4x2048x1024 a shapeCasts_S8192x1024_S4x2048x1024 (ix3 b s m) = a (ix2 R m) :=
  shapeCast_apply (s := S8192x1024) (t := S4x2048x1024) a shapeCasts_S8192x1024_S4x2048x1024 (ix3 b s m) (ix2 R m) (by
    rw [Shape.rowMajor_val_two, Shape.rowMajor_val_three]
    show R.val * 1024 + m.val = (b.val * 2048 + s.val) * 1024 + m.val
    rw [hR])

/-- The same with the row written out. -/
theorem unrows_apply {α : Type} (a : S8192x1024.Idx → α) (b : Fin 4) (s : Fin 2048) (m : Fin 1024) :
    shapeCast S4x2048x1024 a shapeCasts_S8192x1024_S4x2048x1024 (ix3 b s m) = a (ix2 (⟨b.val * 2048 + s.val, by omega⟩ : Fin 8192) m) :=
  unrows_of_eq a b s m _ rfl

end Cert.KernelIdeal.Lay

end
-- ==== Proof.KI.Value.lean ====
/-
  The kernel program's result is multi-head self-attention of its arguments.

  Following the buffers through @main: the fused projection's entry at row (b, s) and column 1024 j + d is the linear layer
  proj x w_j b s d (j = 0, 1, 2 for queries, keys, values), because the flattened activations' row 2048 b + s is x[b, s, ·] and
  the fused weight's column 1024 j + d is row d of w_j. Splitting heads reads instance 16 b + h, row s, offset e at column
  1024 j + 64 h + e. The attention call turns those into the softmax-weighted sums ctx b s h e. Merging heads puts ctx b s h e at
  row 2048 b + s, column 64 h + e; the output projection sums over the model columns against the transposed output weight; the
  last reshape reads row 2048 b + s back as (b, s).
-/
import proofs.«102749_j60086592471644_1_alg».proof.Proof.KI.Stages
import proofs.«102749_j60086592471644_1_alg».proof.Proof.KI.BlocksMM
import proofs.«102749_j60086592471644_1_alg».proof.Proof.KI.BlocksAttn
import proofs.«102749_j60086592471644_1_alg».proof.Proof.Layout
import proofs.«102749_j60086592471644_1_alg».proof.Proof.Spec

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

/-! ## Pure steps, over plain arrays -/

/-- A row of the flattened activations against a column of the fused weight is a linear layer. -/
theorem proj_of_rows (a : S8192x1024.Idx → EReal) (w : S1024x3072.Idx → EReal) (x : S4x2048x1024.Idx → EReal) (wj : S1024x1024.Idx → EReal)
    (b : Fin 4) (s : Fin 2048) (d : Fin 1024) (R : Fin 8192) (C : Fin 3072)
    (ha : ∀ i : Fin 1024, a (ix2 R i) = x (ix3 b s i)) (hw : ∀ i : Fin 1024, w (ix2 i C) = wj (ix2 d i)) :
    rowsTimes0 a w (ix2 R C) = Cert.Spec.proj x wj b s d := by
  show ∑ k : Fin 1024, a (ix2 R k) * w (ix2 k C) = ∑ i : Fin 1024, x (ix3 b s i) * wj (ix2 d i)
  exact Finset.sum_congr rfl fun i _ => by rw [ha i, hw i]

/-- Attention over head-instances whose queries, keys and values are the three linear layers restricted to a head is the
    specification's attended value. -/
theorem attend_is_ctx (x : S4x2048x1024.Idx → EReal) (wq wk wv : S1024x1024.Idx → EReal) (Q K W : S64x2048x64.Idx → EReal)
    (b : Fin 4) (h : Fin 16) (g : Fin 64)
    (hQ : ∀ (s : Fin 2048) (e : Fin 64), Q (ix3 g s e) = Cert.Spec.proj x wq b s (Cert.Spec.col h e))
    (hK : ∀ (s : Fin 2048) (e : Fin 64), K (ix3 g s e) = Cert.Spec.proj x wk b s (Cert.Spec.col h e))
    (hW : ∀ (s : Fin 2048) (e : Fin 64), W (ix3 g s e) = Cert.Spec.proj x wv b s (Cert.Spec.col h e))
    (s : Fin 2048) (e : Fin 64) :
    attend Q K W (ix3 g s e) = Cert.Spec.ctx x wq wk wv b s h e := by
  show ∑ j : Fin 2048, Ideal.div (expoA Q K g s j) (∑ j' : Fin 2048, expoA Q K g s j') * W (ix3 g j e) = _
  simp only [expoA, rowMaxA, scoreA, hQ, hK, hW, Cert.Spec.ctx, Cert.Spec.prob, Cert.Spec.rowSum, Cert.Spec.expo,
    Cert.Spec.rowMax, Cert.Spec.score]

/-- A row of the merged heads against a column of the transposed output weight is the specification's output entry. -/
theorem out_of_rows (a : S8192x1024.Idx → EReal) (wt : S1024x1024.Idx → EReal) (x : S4x2048x1024.Idx → EReal) (wq wk wv wo : S1024x1024.Idx → EReal)
    (b : Fin 4) (s : Fin 2048) (n : Fin 1024) (R : Fin 8192)
    (ha : ∀ d : Fin 1024, a (ix2 R d) = Cert.Spec.ctxCol x wq wk wv b s d) (hw : ∀ d : Fin 1024, wt (ix2 d n) = wo (ix2 n d)) :
    rowsTimes2 a wt (ix2 R n) = Cert.Spec.out x wq wk wv wo (ix3 b s n) := by
  show ∑ k : Fin 1024, a (ix2 R k) * wt (ix2 k n) = ∑ d : Fin 1024, Cert.Spec.ctxCol x wq wk wv b s d * wo (ix2 n d)
  exact Finset.sum_congr rfl fun d _ => by rw [ha d, hw d]

/-! ## The buffers of the run -/

variable (m : (ℓ : Loc nD τ sig) → Buf (Elt Ideal) ℓ)

/-- After the first call the fused projection is the activations' rows times the fused weight. -/
theorem At2_v7 (c : Dev nD) : (At2 m c main_v7 : S8192x3072.Idx → EReal) = rowsTimes0 (At1 m c main_v6) (At1 m c main_v2) :=
  (Mem2_arr m c 2).trans (final0 (At1 m) c)

/-- After the second call the attended values are the attention of the split queries, keys and values. -/
theorem At4_v19 (c : Dev nD) : (At4 m c main_v19 : S64x2048x64.Idx → EReal) = attend (At3 m c main_v12) (At3 m c main_v15) (At3 m c main_v18) :=
  (Mem4_arr m c 3).trans (final1 (At3 m) c)

/-- After the third call the output rows are the merged heads' rows times the transposed output weight. -/
theorem At6_v23 (c : Dev nD) : (At6 m c main_v23 : S8192x1024.Idx → EReal) = rowsTimes2 (At5 m c main_v22) (At5 m c main_v4) :=
  (Mem6_arr m c 2).trans (final2 (At5 m) c)

/-- Row 2048 b + s of the flattened activations is x[b, s, ·]. -/
theorem rows_at (c : Dev nD) (b : Fin 4) (s : Fin 2048) (i : Fin 1024) (R : Fin 8192) (hR : R.val = b.val * 2048 + s.val) :
    (At1 m c main_v6 : S8192x1024.Idx → EReal) (ix2 R i) = argX m c (ix3 b s i) :=
  (congrFun (At1_v6 m c) (ix2 R i)).trans (Cert.KernelIdeal.Lay.xRows_of_eq (argX m c) b s i R hR)

/-- The fused projection at row 2048 b + s and column 1024 j + d, for j = 0, 1, 2. -/
theorem fused_q (c : Dev nD) (b : Fin 4) (s : Fin 2048) (d : Fin 1024) (R : Fin 8192) (hR : R.val = b.val * 2048 + s.val)
    (C : Fin 3072) (hC : C.val = 0 * 1024 + d.val) :
    (At2 m c main_v7 : S8192x3072.Idx → EReal) (ix2 R C) = Cert.Spec.proj (argX m c) (argWq m c) b s d :=
  (congrFun (At2_v7 m c) (ix2 R C)).trans <|
    proj_of_rows _ _ (argX m c) (argWq m c) b s d R C (fun i => rows_at m c b s i R hR)
      (fun i => (congrFun (At1_v2 m c) (ix2 i C)).trans (Cert.KernelIdeal.Lay.fusedW0_of_eq (argWq m c) (argWk m c) (argWv m c) i d C hC))
theorem fused_k (c : Dev nD) (b : Fin 4) (s : Fin 2048) (d : Fin 1024) (R : Fin 8192) (hR : R.val = b.val * 2048 + s.val)
    (C : Fin 3072) (hC : C.val = 1 * 1024 + d.val) :
    (At2 m c main_v7 : S8192x3072.Idx → EReal) (ix2 R C) = Cert.Spec.proj (argX m c) (argWk m c) b s d :=
  (congrFun (At2_v7 m c) (ix2 R C)).trans <|
    proj_of_rows _ _ (argX m c) (argWk m c) b s d R C (fun i => rows_at m c b s i R hR)
      (fun i => (congrFun (At1_v2 m c) (ix2 i C)).trans (Cert.KernelIdeal.Lay.fusedW1_of_eq (argWq m c) (argWk m c) (argWv m c) i d C hC))
theorem fused_v (c : Dev nD) (b : Fin 4) (s : Fin 2048) (d : Fin 1024) (R : Fin 8192) (hR : R.val = b.val * 2048 + s.val)
    (C : Fin 3072) (hC : C.val = 2 * 1024 + d.val) :
    (At2 m c main_v7 : S8192x3072.Idx → EReal) (ix2 R C) = Cert.Spec.proj (argX m c) (argWv m c) b s d :=
  (congrFun (At2_v7 m c) (ix2 R C)).trans <|
    proj_of_rows _ _ (argX m c) (argWv m c) b s d R C (fun i => rows_at m c b s i R hR)
      (fun i => (congrFun (At1_v2 m c) (ix2 i C)).trans (Cert.KernelIdeal.Lay.fusedW2_of_eq (argWq m c) (argWk m c) (argWv m c) i d C hC))

/-- Queries, keys and values of head-instance 16 b + h. -/
theorem Q_at (c : Dev nD) (b : Fin 4) (h : Fin 16) (s : Fin 2048) (e : Fin 64) (g : Fin 64) (hg : g.val = b.val * 16 + h.val) :
    (At3 m c main_v12 : S64x2048x64.Idx → EReal) (ix3 g s e) = Cert.Spec.proj (argX m c) (argWq m c) b s (Cert.Spec.col h e) :=
  (congrFun (At3_v12 m c) (ix3 g s e)).trans <|
    (Cert.KernelIdeal.Lay.split0_of_eq (α := EReal) (At2 m c main_v7) b h s e g hg ⟨b.val * 2048 + s.val, by omega⟩ rfl
      ⟨0 * 1024 + h.val * 64 + e.val, by omega⟩ rfl).trans <|
    fused_q m c b s (Cert.Spec.col h e) _ rfl _ (by show 0 * 1024 + h.val * 64 + e.val = 0 * 1024 + (h.val * 64 + e.val); omega)
theorem K_at (c : Dev nD) (b : Fin 4) (h : Fin 16) (s : Fin 2048) (e : Fin 64) (g : Fin 64) (hg : g.val = b.val * 16 + h.val) :
    (At3 m c main_v15 : S64x2048x64.Idx → EReal) (ix3 g s e) = Cert.Spec.proj (argX m c) (argWk m c) b s (Cert.Spec.col h e) :=
  (congrFun (At3_v15 m c) (ix3 g s e)).trans <|
    (Cert.KernelIdeal.Lay.split1_of_eq (α := EReal) (At2 m c main_v7) b h s e g hg ⟨b.val * 2048 + s.val, by omega⟩ rfl
      ⟨1 * 1024 + h.val * 64 + e.val, by omega⟩ rfl).trans <|
    fused_k m c b s (Cert.Spec.col h e) _ rfl _ (by show 1 * 1024 + h.val * 64 + e.val = 1 * 1024 + (h.val * 64 + e.val); omega)
theorem V_at (c : Dev nD) (b : Fin 4) (h : Fin 16) (s : Fin 2048) (e : Fin 64) (g : Fin 64) (hg : g.val = b.val * 16 + h.val) :
    (At3 m c main_v18 : S64x2048x64.Idx → EReal) (ix3 g s e) = Cert.Spec.proj (argX m c) (argWv m c) b s (Cert.Spec.col h e) :=
  (congrFun (At3_v18 m c) (ix3 g s e)).trans <|
    (Cert.KernelIdeal.Lay.split2_of_eq (α := EReal) (At2 m c main_v7) b h s e g hg ⟨b.val * 2048 + s.val, by omega⟩ rfl
      ⟨2 * 1024 + h.val * 64 + e.val, by omega⟩ rfl).trans <|
    fused_v m c b s (Cert.Spec.col h e) _ rfl _ (by show 2 * 1024 + h.val * 64 + e.val = 2 * 1024 + (h.val * 64 + e.val); omega)

/-- The merged heads at row 2048 b + s, column 64 h + e. -/
theorem C_at (c : Dev nD) (b : Fin 4) (h : Fin 16) (s : Fin 2048) (e : Fin 64) (R : Fin 8192) (hR : R.val = b.val * 2048 + s.val)
    (C : Fin 1024) (hC : C.val = h.val * 64 + e.val) :
    (At5 m c main_v22 : S8192x1024.Idx → EReal) (ix2 R C)
      = Cert.Spec.ctx (argX m c) (argWq m c) (argWk m c) (argWv m c) b s h e :=
  (congrFun (At5_v22 m c) (ix2 R C)).trans <|
    (Cert.KernelIdeal.Lay.merge_of_eq (α := EReal) (At4 m c main_v19) b h s e R hR C hC ⟨b.val * 16 + h.val, by omega⟩ rfl).trans <|
    (congrFun (At4_v19 m c) _).trans <|
    attend_is_ctx (argX m c) (argWq m c) (argWk m c) (argWv m c) _ _ _ b h ⟨b.val * 16 + h.val, by omega⟩
      (fun s e => Q_at m c b h s e _ rfl) (fun s e => K_at m c b h s e _ rfl) (fun s e => V_at m c b h s e _ rfl) s e

/-- The transposed output weight, as the third call finds it. -/
theorem Wo_at (c : Dev nD) (d n : Fin 1024) : (At5 m c main_v4 : S1024x1024.Idx → EReal) (ix2 d n) = argWo m c (ix2 n d) :=
  (congrFun (At5_v4 m c) (ix2 d n)).trans <|
    (congrFun (At1_v4 m c) (ix2 d n)).trans (Cert.KernelIdeal.Lay.woT_apply (argWo m c) d n)

/-- THE RESULT: what the kernel program leaves in its result buffer is the specification's output of the arguments. -/
theorem result_is_spec (c : Dev nD) : (Mem7 m c (Proc.devRef .tc main_v24) : S4x2048x1024.Idx → EReal)
    = Cert.Spec.out (argX m c) (argWq m c) (argWk m c) (argWv m c) (argWo m c) := by
  funext i
  obtain ⟨b, s, n, rfl⟩ : ∃ (b : Fin 4) (s : Fin 2048) (n : Fin 1024), i = ix3 b s n := ⟨i 0, i 1, i 2, eq_ix3 i⟩
  refine (congrFun (Mem7_v24 m c) (ix3 b s n)).trans ?_
  refine (Cert.KernelIdeal.Lay.unrows_of_eq (α := EReal) (At6 m c main_v23) b s n ⟨b.val * 2048 + s.val, by omega⟩ rfl).trans ?_
  refine (congrFun (At6_v23 m c) _).trans ?_
  refine out_of_rows _ _ (argX m c) (argWq m c) (argWk m c) (argWv m c) (argWo m c) b s n _ (fun d => ?_) (fun d => Wo_at m c d n)
  exact C_at m c b (Cert.Spec.headOf d) s (Cert.Spec.offOf d) _ rfl d
    (by show d.val = d.val / 64 * 64 + d.val % 64; omega)

end Cert.KernelIdeal.Hand

end
-- ==== Proof.RefIsSpec.lean ====
/-
  The reference program computes multi-head self-attention: its result, read index by index through its thirty-two
  operations, is the specification's `out` of the five argument arrays.

  One lemma per stage, each at explicit coordinates: the three projections after the model axis is split into heads
  and the head and position axes are exchanged; the scores (a contraction over a head's 64 offsets, divided by the
  square root of 64, that is, multiplied by one eighth); the row maximum (a fold of `max` over the keys from minus
  infinity, and a further maximum with minus infinity that changes nothing); the exponentials, their row sums (from
  zero), the softmax weights; the attended values (a contraction over the keys); the merge of the heads back into the
  model axis (column d is offset d % 64 of head d / 64); the output projection.
-/
import proofs.«102749_j60086592471644_1_alg».proof.Proof.RefRead
import proofs.«102749_j60086592471644_1_alg».proof.Proof.Consts

noncomputable section

namespace Cert.RefSpec

open Cert.ReferenceIdeal Cert.ReferenceIdeal.Gen Cert.ReferenceIdeal.Read Idealize.ShloMosaic Idealize.ShloMosaic.ValueIdx

/-- The activations' and a weight matrix's contents at the ideal instance: functions from indices to extended reals. -/
abbrev VX : Type := (⟨S4x2048x1024, .f32⟩ : BufTy).Contents (Elt Ideal)
abbrev VW : Type := (⟨S1024x1024, .f32⟩ : BufTy).Contents (Elt Ideal)

variable (x0 : VX) (x1 x2 x3 x4 : VW)

/-! ## The three projections

Each is a product with a transposed weight matrix, whose model axis (1024 columns) is then split into sixteen heads of
width 64 and whose head and position axes are exchanged. Read at batch `b`, head `h`, position `s`, offset `e`, the
row-major arithmetic of the split sends the four coordinates to column `64 h + e` of position `s` of batch `b`. -/

/-- The queries: the projection by the first weight matrix, at head `h`, position `s`, offset `e`. -/
theorem query_at (b : Fin 4) (h : Fin 16) (s : Fin 2048) (e : Fin 64) :
    val_main_v4 (F := Ideal) x0 x1 (ix4 b h s e) = Cert.Spec.proj x0 x1 b s (Cert.Spec.col h e) := by
  rw [val_main_v4_apply, val_main_v3_apply, val_main_v0_apply]
  unfold Cert.Spec.proj
  refine Finset.sum_congr rfl fun k _ => ?_
  have hb := b.isLt; have hh := h.isLt; have hs := s.isLt; have he := e.isLt
  have el : lidx_main_v0 (idx_main_v3 (idx_main_v4 (ix4 b h s e))) k = ix3 b s k := by
    funext a; apply Fin.ext
    match a with
    | ⟨0, _⟩ => show (((b.val * 2048 + s.val) * 16 + h.val) * 64 + e.val) / 2097152 = b.val; omega
    | ⟨1, _⟩ => show (((b.val * 2048 + s.val) * 16 + h.val) * 64 + e.val) / 1024 % 2048 = s.val; omega
    | ⟨2, _⟩ => rfl
  have er : ridx_main_v0 (idx_main_v3 (idx_main_v4 (ix4 b h s e))) k = ix2 (Cert.Spec.col h e) k := by
    funext a; apply Fin.ext
    match a with
    | ⟨0, _⟩ => show (((b.val * 2048 + s.val) * 16 + h.val) * 64 + e.val) % 1024 = h.val * 64 + e.val; omega
    | ⟨1, _⟩ => rfl
  rw [el, er]

/-- The keys: the projection by the second weight matrix. -/
theorem key_at (b : Fin 4) (h : Fin 16) (s : Fin 2048) (e : Fin 64) :
    val_main_v6 (F := Ideal) x0 x2 (ix4 b h s e) = Cert.Spec.proj x0 x2 b s (Cert.Spec.col h e) := by
  rw [val_main_v6_apply, val_main_v5_apply, val_main_v1_apply]
  unfold Cert.Spec.proj
  refine Finset.sum_congr rfl fun k _ => ?_
  have hb := b.isLt; have hh := h.isLt; have hs := s.isLt; have he := e.isLt
  have el : lidx_main_v1 (idx_main_v5 (idx_main_v6 (ix4 b h s e))) k = ix3 b s k := by
    funext a; apply Fin.ext
    match a with
    | ⟨0, _⟩ => show (((b.val * 2048 + s.val) * 16 + h.val) * 64 + e.val) / 2097152 = b.val; omega
    | ⟨1, _⟩ => show (((b.val * 2048 + s.val) * 16 + h.val) * 64 + e.val) / 1024 % 2048 = s.val; omega
    | ⟨2, _⟩ => rfl
  have er : ridx_main_v1 (idx_main_v5 (idx_main_v6 (ix4 b h s e))) k = ix2 (Cert.Spec.col h e) k := by
    funext a; apply Fin.ext
    match a with
    | ⟨0, _⟩ => show (((b.val * 2048 + s.val) * 16 + h.val) * 64 + e.val) % 1024 = h.val * 64 + e.val; omega
    | ⟨1, _⟩ => rfl
  rw [el, er]

/-- The values: the projection by the third weight matrix. -/
theorem value_at (b : Fin 4) (h : Fin 16) (s : Fin 2048) (e : Fin 64) :
    val_main_v8 (F := Ideal) x0 x3 (ix4 b h s e) = Cert.Spec.proj x0 x3 b s (Cert.Spec.col h e) := by
  rw [val_main_v8_apply, val_main_v7_apply, val_main_v2_apply]
  unfold Cert.Spec.proj
  refine Finset.sum_congr rfl fun k _ => ?_
  have hb := b.isLt; have hh := h.isLt; have hs := s.isLt; have he := e.isLt
  have el : lidx_main_v2 (idx_main_v7 (idx_main_v8 (ix4 b h s e))) k = ix3 b s k := by
    funext a; apply Fin.ext
    match a with
    | ⟨0, _⟩ => show (((b.val * 2048 + s.val) * 16 + h.val) * 64 + e.val) / 2097152 = b.val; omega
    | ⟨1, _⟩ => show (((b.val * 2048 + s.val) * 16 + h.val) * 64 + e.val) / 1024 % 2048 = s.val; omega
    | ⟨2, _⟩ => rfl
  have er : ridx_main_v2 (idx_main_v7 (idx_main_v8 (ix4 b h s e))) k = ix2 (Cert.Spec.col h e) k := by
    funext a; apply Fin.ext
    match a with
    | ⟨0, _⟩ => show (((b.val * 2048 + s.val) * 16 + h.val) * 64 + e.val) % 1024 = h.val * 64 + e.val; omega
    | ⟨1, _⟩ => rfl
  rw [el, er]

/-! ## The scores -/

/-- The broadcast scalar the scores are divided by: the square root of the word 64.0. -/
theorem scale_at (i : S4x16x2048x2048.Idx) :
    val_main_v11 (F := Ideal) i = Ideal.sqrt (Ideal.ofBits .f32 0x42800000#32) := by
  rw [val_main_v11_apply, val_main_v10_apply, val_main_cst_apply]
  rfl

/-- The scaled dot product of query `q` and key `k` of head `h`: the contraction over the head's 64 offsets, divided by
    the square root of 64, which is the product with one eighth. -/
theorem score_at (b : Fin 4) (h : Fin 16) (q k : Fin 2048) :
    val_main_v12 (F := Ideal) x0 x1 x2 (ix4 b h q k) = Cert.Spec.score x0 x1 x2 b h q k := by
  rw [val_main_v12_apply, scale_at, val_main_v9_apply]
  unfold Cert.Spec.score
  refine (Cert.Consts.div_sqrt_64 _).trans ?_
  refine congrArg (· * Cert.Spec.eighth) (Finset.sum_congr rfl fun e _ => ?_)
  have el : lidx_main_v9 (ix4 b h q k) e = ix4 b h q e := by
    funext a; apply Fin.ext
    match a with
    | ⟨0, _⟩ => rfl
    | ⟨1, _⟩ => rfl
    | ⟨2, _⟩ => rfl
    | ⟨3, _⟩ => rfl
  have er : ridx_main_v9 (ix4 b h q k) e = ix4 b h k e := by
    funext a; apply Fin.ext
    match a with
    | ⟨0, _⟩ => rfl
    | ⟨1, _⟩ => rfl
    | ⟨2, _⟩ => rfl
    | ⟨3, _⟩ => rfl
  rw [el, er, query_at, key_at]

/-! ## The softmax over the keys -/

/-- The reduction over the last axis of the score array is a reduction in the library's sense. -/
theorem reduces_keys : S4x16x2048x2048.Reduces [3] S4x16x2048 := by decide

/-- The index of the score array over `(b, h, q)` whose key coordinate is `k`. -/
theorem lift_keys (b : Fin 4) (h : Fin 16) (q : Fin 2048) (k : Fin (S4x16x2048x2048.size 3)) :
    reduces_keys.lift (ix3 b h q) k = ix4 b h q (⟨k.val, k.isLt⟩ : Fin 2048) := by
  funext c; apply Fin.ext
  fin_cases c <;> rfl

/-- The row maximum: the reduce with a maximum body over the key axis is the fold of `max` over the keys from its initial
    value, the word of minus infinity, which is the bottom element. -/
theorem rowMax_at (b : Fin 4) (h : Fin 16) (q : Fin 2048) :
    val_main_v13 (F := Ideal) x0 x1 x2 (ix3 b h q) = Cert.Spec.rowMax x0 x1 x2 b h q := by
  unfold val_main_v13
  rw [Host.reduce_eq_fold_single FloatOps.maximumf _ _ reducesTo_S4x16x2048x2048_S4x16x2048_d3 reduces_keys h_S_]
  unfold Cert.Spec.rowMax
  have hi : val_main_cst_0 (F := Ideal) (Shape.Idx.first h_S_) = (⊥ : EReal) :=
    (val_main_cst_0_apply _).trans Cert.Consts.ofBits_neg_inf
  have hf : (val_main_v12 (F := Ideal) x0 x1 x2 ∘ reduces_keys.lift (ix3 b h q))
      = fun k : Fin 2048 => Cert.Spec.score x0 x1 x2 b h q k := by
    funext k
    show val_main_v12 (F := Ideal) x0 x1 x2 (reduces_keys.lift (ix3 b h q) k) = _
    rw [lift_keys]
    exact score_at x0 x1 x2 b h q _
  rw [hi, hf]
  rfl

/-- The maximum with a broadcast minus infinity changes nothing: minus infinity is the least extended real. -/
theorem rowMax'_at (b : Fin 4) (h : Fin 16) (q : Fin 2048) :
    val_main_v15 (F := Ideal) x0 x1 x2 (ix3 b h q) = Cert.Spec.rowMax x0 x1 x2 b h q := by
  rw [val_main_v15_apply, val_main_v14_apply, val_main_cst_1_apply, rowMax_at]
  show max (Ideal.ofBits .f32 0xFF800000#32) (Cert.Spec.rowMax x0 x1 x2 b h q) = _
  rw [Cert.Consts.ofBits_neg_inf]
  exact max_eq_right bot_le

/-- The row maximum broadcast back along the keys. -/
theorem rowMaxB_at (b : Fin 4) (h : Fin 16) (q k : Fin 2048) :
    val_main_v17 (F := Ideal) x0 x1 x2 (ix4 b h q k) = Cert.Spec.rowMax x0 x1 x2 b h q := by
  rw [val_main_v17_apply, val_main_v16_apply]
  have e : idx_main_v16 (idx_main_v17 (ix4 b h q k)) = ix3 b h q := by
    funext a; apply Fin.ext
    match a with
    | ⟨0, _⟩ => rfl
    | ⟨1, _⟩ => rfl
    | ⟨2, _⟩ => rfl
  rw [e, rowMax'_at]

/-- The exponential of a score less its row's maximum. -/
theorem expo_at (b : Fin 4) (h : Fin 16) (q k : Fin 2048) :
    val_main_v19 (F := Ideal) x0 x1 x2 (ix4 b h q k) = Cert.Spec.expo x0 x1 x2 b h q k := by
  rw [val_main_v19_apply, val_main_v18_apply, score_at, rowMaxB_at]
  rfl

/-- The row sum of the exponentials: the float sum from the zero word over the key axis. -/
theorem rowSum_at (b : Fin 4) (h : Fin 16) (q : Fin 2048) :
    val_main_v20 (F := Ideal) x0 x1 x2 (ix3 b h q) = Cert.Spec.rowSum x0 x1 x2 b h q := by
  rw [val_main_v20_apply, val_main_cst_2_apply]
  unfold Cert.Spec.rowSum
  have hz : (FloatOps.ofBits (F := Ideal) .f32 0x00000000#32 : EReal) = 0 := Ideal.ofBits_zero_f32
  rw [hz, zero_add]
  refine Finset.sum_congr rfl fun k _ => ?_
  have e : idx_main_v20 (ix3 b h q) k = ix4 b h q k := by
    funext a; apply Fin.ext
    match a with
    | ⟨0, _⟩ => rfl
    | ⟨1, _⟩ => rfl
    | ⟨2, _⟩ => rfl
    | ⟨3, _⟩ => rfl
  rw [e, expo_at]

/-- The row sum broadcast back along the keys. -/
theorem rowSumB_at (b : Fin 4) (h : Fin 16) (q k : Fin 2048) :
    val_main_v22 (F := Ideal) x0 x1 x2 (ix4 b h q k) = Cert.Spec.rowSum x0 x1 x2 b h q := by
  rw [val_main_v22_apply, val_main_v21_apply]
  have e : idx_main_v21 (idx_main_v22 (ix4 b h q k)) = ix3 b h q := by
    funext a; apply Fin.ext
    match a with
    | ⟨0, _⟩ => rfl
    | ⟨1, _⟩ => rfl
    | ⟨2, _⟩ => rfl
  rw [e, rowSum_at]

/-- The softmax weight of key `k` for query `q`. -/
theorem prob_at (b : Fin 4) (h : Fin 16) (q k : Fin 2048) :
    val_main_v23 (F := Ideal) x0 x1 x2 (ix4 b h q k) = Cert.Spec.prob x0 x1 x2 b h q k := by
  rw [val_main_v23_apply, expo_at, rowSumB_at]
  rfl

/-! ## The attended values, the merge of the heads, the output projection -/

/-- The attended value at offset `e` of head `h` for position `s`: the contraction of the softmax weights with the values
    over the keys. -/
theorem ctx_at (b : Fin 4) (h : Fin 16) (s : Fin 2048) (e : Fin 64) :
    val_main_v24 (F := Ideal) x0 x1 x2 x3 (ix4 b h s e) = Cert.Spec.ctx x0 x1 x2 x3 b s h e := by
  rw [val_main_v24_apply]
  unfold Cert.Spec.ctx
  refine Finset.sum_congr rfl fun k _ => ?_
  have el : lidx_main_v24 (ix4 b h s e) k = ix4 b h s k := by
    funext a; apply Fin.ext
    match a with
    | ⟨0, _⟩ => rfl
    | ⟨1, _⟩ => rfl
    | ⟨2, _⟩ => rfl
    | ⟨3, _⟩ => rfl
  have er : ridx_main_v24 (ix4 b h s e) k = ix4 b h k e := by
    funext a; apply Fin.ext
    match a with
    | ⟨0, _⟩ => rfl
    | ⟨1, _⟩ => rfl
    | ⟨2, _⟩ => rfl
    | ⟨3, _⟩ => rfl
  rw [el, er, prob_at, value_at]

/-- The heads merged back into the model axis: column `d` is offset `d % 64` of head `d / 64`, by the row-major
    arithmetic of the merge after the head and position axes are exchanged back. -/
theorem ctxCol_at (b : Fin 4) (s : Fin 2048) (d : Fin 1024) :
    val_main_v26 (F := Ideal) x0 x1 x2 x3 (ix3 b s d) = Cert.Spec.ctxCol x0 x1 x2 x3 b s d := by
  rw [val_main_v26_apply, val_main_v25_apply]
  unfold Cert.Spec.ctxCol
  have hb := b.isLt; have hs := s.isLt; have hd := d.isLt
  have e : idx_main_v25 (idx_main_v26 (ix3 b s d)) = ix4 b (Cert.Spec.headOf d) s (Cert.Spec.offOf d) := by
    funext a; apply Fin.ext
    match a with
    | ⟨0, _⟩ => show ((b.val * 2048 + s.val) * 1024 + d.val) / 2097152 = b.val; omega
    | ⟨1, _⟩ => show ((b.val * 2048 + s.val) * 1024 + d.val) / 64 % 16 = d.val / 64; omega
    | ⟨2, _⟩ => show ((b.val * 2048 + s.val) * 1024 + d.val) / 1024 % 2048 = s.val; omega
    | ⟨3, _⟩ => show ((b.val * 2048 + s.val) * 1024 + d.val) % 64 = d.val % 64; omega
  rw [e, ctx_at]

/-- The output projection: the merged heads against the fourth weight matrix, transposed. -/
theorem out_at (b : Fin 4) (s : Fin 2048) (n : Fin 1024) :
    val_main_v27 (F := Ideal) x0 x1 x2 x3 x4 (ix3 b s n) = Cert.Spec.out x0 x1 x2 x3 x4 (ix3 b s n) := by
  rw [val_main_v27_apply]
  unfold Cert.Spec.out
  show _ = ∑ d : Fin 1024, Cert.Spec.ctxCol x0 x1 x2 x3 b s d * x4 (ix2 n d)
  refine Finset.sum_congr rfl fun d _ => ?_
  have el : lidx_main_v27 (ix3 b s n) d = ix3 b s d := by
    funext a; apply Fin.ext
    match a with
    | ⟨0, _⟩ => rfl
    | ⟨1, _⟩ => rfl
    | ⟨2, _⟩ => rfl
  have er : ridx_main_v27 (ix3 b s n) d = ix2 n d := by
    funext a; apply Fin.ext
    match a with
    | ⟨0, _⟩ => rfl
    | ⟨1, _⟩ => rfl
  rw [el, er, ctxCol_at]

/-! ## The reference program's result is the specification -/

/-- The reference program's result, as the run names it, is multi-head self-attention of its five arguments. -/
theorem ref_is_spec (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v27 (F := Ideal) m c
      = Cert.Spec.out (m ((c.tc : Thread _ _).loc Cert.ReferenceIdeal.main_arg0))
          (m ((c.tc : Thread _ _).loc Cert.ReferenceIdeal.main_arg1))
          (m ((c.tc : Thread _ _).loc Cert.ReferenceIdeal.main_arg2))
          (m ((c.tc : Thread _ _).loc Cert.ReferenceIdeal.main_arg3))
          (m ((c.tc : Thread _ _).loc Cert.ReferenceIdeal.main_arg4)) := by
  rw [val_main_v27_eq]
  funext i
  obtain ⟨b, s, n, rfl⟩ : ∃ (b : Fin 4) (s : Fin 2048) (n : Fin 1024), i = ix3 b s n := ⟨i 0, i 1, i 2, eq_ix3 i⟩
  exact out_at _ _ _ _ _ b s n

end Cert.RefSpec

end
-- ==== Proof.lean ====
/-
  The kernel program — a fused query/key/value projection, per-head softmax attention and an output projection, each a pipelined
  Pallas call, with layout lines between them — computes multi-head self-attention, and so does the reference program; at the
  extended reals the two agree entry by entry.

  Frames: each of the two kernel programs runs to the end on every weakly fair schedule, faults nowhere and writes no argument,
  because its seven items (host lines and three calls) chain from the launch memory to a final memory in which every buffer is
  named (`Hand.run_all`); the reference's frame is its run with the result dropped. The idealization rewrote nothing, so there
  is nothing to preserve. The value claim: both programs end with `Cert.Spec.out` of the arguments.
-/
import proofs.«102749_j60086592471644_1_alg».proof.Defs
import proofs.«102749_j60086592471644_1_alg».proof.Proof.Gen.Kernel
import proofs.«102749_j60086592471644_1_alg».proof.Proof.Gen.Kernel.Skeleton
import proofs.«102749_j60086592471644_1_alg».proof.Proof.Gen.Kernel.Launch
import proofs.«102749_j60086592471644_1_alg».proof.Proof.Gen.Kernel.Regions
import proofs.«102749_j60086592471644_1_alg».proof.Proof.Gen.Kernel.Points
import proofs.«102749_j60086592471644_1_alg».proof.Proof.Gen.KernelIdeal
import proofs.«102749_j60086592471644_1_alg».proof.Proof.Gen.KernelIdeal.Skeleton
import proofs.«102749_j60086592471644_1_alg».proof.Proof.Gen.KernelIdeal.Launch
import proofs.«102749_j60086592471644_1_alg».proof.Proof.Gen.KernelIdeal.Regions
import proofs.«102749_j60086592471644_1_alg».proof.Proof.Gen.KernelIdeal.Points
import proofs.«102749_j60086592471644_1_alg».proof.Proof.Gen.ReferenceIdeal
import proofs.«102749_j60086592471644_1_alg».proof.Proof.Gen.Pre_finite_inputs
import proofs.«102749_j60086592471644_1_alg».proof.Proof.KI.Run
import proofs.«102749_j60086592471644_1_alg».proof.Proof.KB.Run
import proofs.«102749_j60086592471644_1_alg».proof.Proof.RefRead
import proofs.«102749_j60086592471644_1_alg».proof.Proof.KI.Value
import proofs.«102749_j60086592471644_1_alg».proof.Proof.RefIsSpec
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification's output of the arguments: the kernel program by following its buffers
    through its seven items (`Hand.result_is_spec`), the reference program by reading its operations one at a time
    (`RefSpec.ref_is_spec`); the two memories agree on the arguments. -/
theorem algebraic : Cert.algebraic_KernelIdeal_ReferenceIdeal := by
  intro m ρ m' ρ' _ hagree
  refine ⟨fun c => Cert.Spec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨?_, ?_, ?_, ?_, ?_, ?_⟩) (Cert.KernelIdeal.Hand.run_all (F := Ideal) m ρ)
    · exact (h c _ (Cert.KernelIdeal.Hand.mem_uc Cert.KernelIdeal.main_v24 (by decide))).trans (Cert.KernelIdeal.Hand.result_is_spec m c)
    · exact (h c _ (Cert.KernelIdeal.Hand.mem_uc Cert.KernelIdeal.main_arg0 (by decide))).trans (Cert.KernelIdeal.Hand.Mem7_main_arg0 m c)
    · exact (h c _ (Cert.KernelIdeal.Hand.mem_uc Cert.KernelIdeal.main_arg1 (by decide))).trans (Cert.KernelIdeal.Hand.Mem7_main_arg1 m c)
    · exact (h c _ (Cert.KernelIdeal.Hand.mem_uc Cert.KernelIdeal.main_arg2 (by decide))).trans (Cert.KernelIdeal.Hand.Mem7_main_arg2 m c)
    · exact (h c _ (Cert.KernelIdeal.Hand.mem_uc Cert.KernelIdeal.main_arg3 (by decide))).trans (Cert.KernelIdeal.Hand.Mem7_main_arg3 m c)
    · exact (h c _ (Cert.KernelIdeal.Hand.mem_uc Cert.KernelIdeal.main_arg4 (by decide))).trans (Cert.KernelIdeal.Hand.Mem7_main_arg4 m c)
  · refine (θ_run Cert.ReferenceIdeal.defs _ _).mono (fun r h c => ⟨(h c).1.trans ?_, (h c).2⟩)
      (Cert.ReferenceIdeal.Value.run (F := Ideal) m' ρ')
    rw [Cert.RefSpec.ref_is_spec, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
